-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x24576x2 : Shape := ⟨3, ![16, 24576, 2]⟩
abbrev S128x128 : Shape := ⟨2, ![128, 128]⟩
abbrev S128 : Shape := ⟨1, ![128]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x2048x64 .f32) (main_arg1 : IVec S16x24576x2 32) (main_arg2 : FVec F S128x128 .f32) (main_arg3 : FVec F S128 .f32) (main_arg4 : FVec F S128 .f32) (main_arg5 : FVec F S128 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S16x2048x64 : Shape := ⟨3, ![16, 2048, 64]⟩
abbrev S16x24576x2 : Shape := ⟨3, ![16, 24576, 2]⟩
abbrev S128x128 : Shape := ⟨2, ![128, 128]⟩
abbrev S128 : Shape := ⟨1, ![128]⟩
abbrev S16x49152 : Shape := ⟨2, ![16, 49152]⟩
abbrev S16x49152x1 : Shape := ⟨3, ![16, 49152, 1]⟩
abbrev S_ : Shape := ⟨0, ![]⟩
abbrev S1 : Shape := ⟨1, ![1]⟩
abbrev S1x1x1 : Shape := ⟨3, ![1, 1, 1]⟩
abbrev S16x49152x64 : Shape := ⟨3, ![16, 49152, 64]⟩
abbrev S16x24576x128 : Shape := ⟨3, ![16, 24576, 128]⟩
abbrev S16x1x128 : Shape := ⟨3, ![16, 1, 128]⟩
abbrev S1x8192x128 : Shape := ⟨3, ![1, 8192, 128]⟩
abbrev S1x1x128 : Shape := ⟨3, ![1, 1, 128]⟩
abbrev S8192x128 : Shape := ⟨2, ![8192, 128]⟩
abbrev S16x128 : Shape := ⟨2, ![16, 128]⟩
abbrev S16x128x1 : Shape := ⟨3, ![16, 128, 1]⟩
abbrev S1x128x128 : Shape := ⟨3, ![1, 128, 128]⟩
abbrev S16x128x128 : Shape := ⟨3, ![16, 128, 128]⟩
abbrev S1x128 : Shape := ⟨2, ![1, 128]⟩

abbrev nBuf : Space → Nat
  | .hbm => 74
  | .vmem => 24
  | .smem => 0
  | _ => 0

abbrev bufTy : (tb : Table) → Fin (tcTables nBuf tb) → BufTy
  | .hbm, ⟨0, _⟩ => ⟨S16x2048x64, .f32⟩
  | .hbm, ⟨1, _⟩ => ⟨S16x24576x2, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S16x49152, .i32⟩
  | .hbm, ⟨7, _⟩ => ⟨S16x49152x1, .i32⟩
  | .hbm, ⟨8, _⟩ => ⟨S_, .i32⟩
  | .hbm, ⟨9, _⟩ => ⟨S16x49152x1, .i32⟩
  | .hbm, ⟨10, _⟩ => ⟨S16x49152x1, .i1⟩
  | .hbm, ⟨11, _⟩ => ⟨S_, .i32⟩
  | .hbm, ⟨12, _⟩ => ⟨S16x49152x1, .i32⟩
  | .hbm, ⟨13, _⟩ => ⟨S16x49152x1, .i32⟩
  | .hbm, ⟨14, _⟩ => ⟨S16x49152x1, .i32⟩
  | .hbm, ⟨15, _⟩ => ⟨S1, .i32⟩
  | .hbm, ⟨16, _⟩ => ⟨S_, .i32⟩
  | .hbm, ⟨17, _⟩ => ⟨S16x49152x1, .i32⟩
  | .hbm, ⟨18, _⟩ => ⟨S16x49152x1, .i1⟩
  | .hbm, ⟨19, _⟩ => ⟨S1x1x1, .i32⟩
  | .hbm, ⟨20, _⟩ => ⟨S16x49152x1, .i32⟩
  | .hbm, ⟨21, _⟩ => ⟨S16x49152x1, .i1⟩
  | .hbm, ⟨22, _⟩ => ⟨S16x49152x1, .i1⟩
  | .hbm, ⟨23, _⟩ => ⟨S_, .i1⟩
  | .hbm, ⟨24, _⟩ => ⟨S16x49152, .i1⟩
  | .hbm, ⟨25, _⟩ => ⟨S16x49152x64, .f32⟩
  | .hbm, ⟨26, _⟩ => ⟨S16x49152x64, .i1⟩
  | .hbm, ⟨27, _⟩ => ⟨S_, .f32⟩
  | .hbm, ⟨28, _⟩ => ⟨S16x49152x64, .f32⟩
  | .hbm, ⟨29, _⟩ => ⟨S16x49152x64, .f32⟩
  | .hbm, ⟨30, _⟩ => ⟨S16x24576x128, .f32⟩
  | .hbm, ⟨31, _⟩ => ⟨S16x24576x128, .bf16⟩
  | .hbm, ⟨32, _⟩ => ⟨S16x1x128, .f32⟩
  | .hbm, ⟨33, _⟩ => ⟨S_, .f32⟩
  | .hbm, ⟨34, _⟩ => ⟨S16x1x128, .f32⟩
  | .hbm, ⟨35, _⟩ => ⟨S16x1x128, .f32⟩
  | .hbm, ⟨36, _⟩ => ⟨S_, .f32⟩
  | .hbm, ⟨37, _⟩ => ⟨S16x1x128, .f32⟩
  | .hbm, ⟨38, _⟩ => ⟨S16x1x128, .f32⟩
  | .hbm, ⟨39, _⟩ => ⟨S16x128, .f32⟩
  | .hbm, ⟨40, _⟩ => ⟨S16x128x1, .f32⟩
  | .hbm, ⟨41, _⟩ => ⟨S1x128x128, .f32⟩
  | .hbm, ⟨42, _⟩ => ⟨S16x128x128, .f32⟩
  | .hbm, ⟨43, _⟩ => ⟨S16x128x128, .f32⟩
  | .hbm, ⟨44, _⟩ => ⟨S16x128x128, .f32⟩
  | .hbm, ⟨45, _⟩ => ⟨S16x128x128, .bf16⟩
  | .hbm, ⟨46, _⟩ => ⟨S16x1x128, .f32⟩
  | .hbm, ⟨47, _⟩ => ⟨S16x1x128, .f32⟩
  | .hbm, ⟨48, _⟩ => ⟨S16x128, .f32⟩
  | .hbm, ⟨49, _⟩ => ⟨S_, .f32⟩
  | .hbm, ⟨50, _⟩ => ⟨S128, .f32⟩
  | .hbm, ⟨51, _⟩ => ⟨S16x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S16x24576x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x1x128, .f32⟩
  | .local _ .vmem, ⟨3, _⟩ => ⟨S1x1x128, .f32⟩
  | .local _ .vmem, ⟨4, _⟩ => ⟨S128, .f32⟩
  | .local _ .vmem, ⟨5, _⟩ => ⟨S1x8192x128, .bf16⟩
  | .local _ .vmem, ⟨6, _⟩ => ⟨S1x8192x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S128, .f32⟩
  | .local _ .vmem, ⟨14, _⟩ => ⟨S128, .f32⟩
  | .local _ .vmem, ⟨15, _⟩ => ⟨S1x8192x128, .bf16⟩
  | .local _ .vmem, ⟨16, _⟩ => ⟨S1x8192x128, .bf16⟩
  | .local _ .vmem, ⟨17, _⟩ => ⟨S1x128x128, .bf16⟩
  | .local _ .vmem, ⟨18, _⟩ => ⟨S1x128x128, .bf16⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S1x8192x128, .f32⟩
  | .local _ .vmem, ⟨23, _⟩ => ⟨S1x8192x128, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17_0 : Ref sig .tc := ⟨.hbm, 46, rfl⟩
abbrev main_v17_1 : Ref sig .tc := ⟨.hbm, 47, rfl⟩
abbrev main_v18 : Ref sig .tc := ⟨.hbm, 48, rfl⟩
abbrev main_cst_1 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_6 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_5 : BitVec 32 := 0#32
  let v15 : BitVec 1 := Scalar.cmpi .ne v14 c0_i32_5
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 3], ![false, false]⟩

def k1_cond2 (i : grid1.Coords) : BitVec 1 :=
  let arg1 : BitVec 32 := BitVec.ofNat 32 (i 1).val
  let c2_i32 : BitVec 32 := 2#32
  let v21 : BitVec 1 := Scalar.cmpi .eq arg1 c2_i32
  let v22 : BitVec 32 := Scalar.extui v21
  let c0_i32_12 : BitVec 32 := 0#32
  let v23 : BitVec 1 := Scalar.cmpi .ne v22 c0_i32_12
  v23

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![16, 3], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x8192x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S16x24576x2_S16x49152 : S16x24576x2.ShapeCasts S16x49152
  bcast_S16x49152_S16x49152x1_0_1 : S16x49152.BroadcastsInDim S16x49152x1 (![0, 1] : Fin 2 → Fin S16x49152x1.rank)
  bcast_S_S16x49152x1 : S_.BroadcastsInDim S16x49152x1 (![] : Fin 0 → Fin S16x49152x1.rank)
  bcast_S1_S1x1x1_2 : S1.BroadcastsInDim S1x1x1 (![2] : Fin 1 → Fin S1x1x1.rank)
  bcast_S1x1x1_S16x49152x1_0_1_2 : S1x1x1.BroadcastsInDim S16x49152x1 (![0, 1, 2] : Fin 3 → Fin S16x49152x1.rank)
  reducesTo_S16x49152x1_S16x49152_d2 : S16x49152x1.ReducesTo [2] S16x49152
  h_S_ : 0 < S_.numel
  bcast_S16x49152_S16x49152x64_0_1 : S16x49152.BroadcastsInDim S16x49152x64 (![0, 1] : Fin 2 → Fin S16x49152x64.rank)
  bcast_S_S16x49152x64 : S_.BroadcastsInDim S16x49152x64 (![] : Fin 0 → Fin S16x49152x64.rank)
  shapeCasts_S16x49152x64_S16x24576x128 : S16x49152x64.ShapeCasts S16x24576x128
  bitsLt_bf16_f32 : FTy.bits .bf16 < FTy.bits .f32
  inb_S128_S128_0 : ∀ a, (![0] : Fin 1 → Nat) a + S128.size a ≤ S128.size a
  h_S128 : 0 < S128.numel
  shapeCasts_S128_S128 : S128.ShapeCasts S128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  reduces_S8192x128_S128 : S8192x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  bcast_S_S16x1x128 : S_.BroadcastsInDim S16x1x128 (![] : Fin 0 → Fin S16x1x128.rank)
  shapeCasts_S16x1x128_S16x128 : S16x1x128.ShapeCasts S16x128
  bcast_S16x128_S16x128x1_0_1 : S16x128.BroadcastsInDim S16x128x1 (![0, 1] : Fin 2 → Fin S16x128x1.rank)
  bcast_S128x128_S1x128x128_1_2 : S128x128.BroadcastsInDim S1x128x128 (![1, 2] : Fin 2 → Fin S1x128x128.rank)
  bcast_S16x128x1_S16x128x128_0_1_2 : S16x128x1.BroadcastsInDim S16x128x128 (![0, 1, 2] : Fin 3 → Fin S16x128x128.rank)
  bcast_S1x128x128_S16x128x128_0_1_2 : S1x128x128.BroadcastsInDim S16x128x128 (![0, 1, 2] : Fin 3 → Fin S16x128x128.rank)
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  reducesTo_S16x128_S128_d0 : S16x128.ReducesTo [0] S128
  bcast_S_S128 : S_.BroadcastsInDim S128 (![] : Fin 0 → Fin S128.rank)
  shapeCasts_S128_S1x128 : S128.ShapeCasts S1x128
  broadcasts_S1x128_S8192x128 : S1x128.Broadcasts S8192x128
  shapeCasts_S8192x128_S1x8192x128 : S8192x128.ShapeCasts S1x8192x128
  gather_S16x2048x64_S16x49152x1_S16x49152x64_2_1_0_0_1_2_1164_wf : GatherDims.WF S16x2048x64 S16x49152x1 S16x49152x64 [2] [1] [0] [1] [0] 2 ![1, 1, 64]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S16x24576x128.size a
  hwx0_0 : ∀ i : grid0.Coords, EltTy.bits .bf16 = 32 ∨ (Rect.block (s := S16x24576x128) S1x8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S16x1x128.size a
  hwx0_1 : ∀ i : grid0.Coords, EltTy.bits .f32 = 32 ∨ (Rect.block (s := S16x1x128) S1x1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x128.size a ≤ S16x24576x128.size a
  hwx1_0 : ∀ i : grid1.Coords, EltTy.bits .bf16 = 32 ∨ (Rect.block (s := S16x24576x128) S1x8192x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S16x128x128.size a
  hwx1_1 : ∀ i : grid1.Coords, EltTy.bits .bf16 = 32 ∨ (Rect.block (s := S16x128x128) S1x128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S16x1x128.size a
  hwx1_2 : ∀ i : grid1.Coords, EltTy.bits .f32 = 32 ∨ (Rect.block (s := S16x1x128) S1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S16x1x128.size a
  hwx1_3 : ∀ i : grid1.Coords, EltTy.bits .f32 = 32 ∨ (Rect.block (s := S16x1x128) S1x1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8192x128.size a ≤ S16x24576x128.size a
  hwx2_0 : ∀ i : grid2.Coords, EltTy.bits .bf16 = 32 ∨ (Rect.block (s := S16x24576x128) S1x8192x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S16x128x128.size a
  hwx2_1 : ∀ i : grid2.Coords, EltTy.bits .bf16 = 32 ∨ (Rect.block (s := S16x128x128) S1x128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x8192x128.size a ≤ S16x24576x128.size a
  hwx2_5 : ∀ i : grid2.Coords, EltTy.bits .f32 = 32 ∨ (Rect.block (s := S16x24576x128) S1x8192x128.size (cc2_transform_5 i) (hinb2_5 i)).WholeWords (EltTy.packing .f32)

variable [Facts₀]

def gather_S16x2048x64_S16x49152x1_S16x49152x64_2_1_0_0_1_2_1164 : GatherDims S16x2048x64 S16x49152x1 S16x49152x64 where
  offsetDims := [2]
  collapsedSliceDims := [1]
  operandBatchingDims := [0]
  startIndicesBatchingDims := [0]
  startIndexMap := [1]
  indexVectorDim := 2
  sliceSizes := ![1, 1, 64]
  wf := gather_S16x2048x64_S16x49152x1_S16x49152x64_2_1_0_0_1_2_1164_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v4) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v4) S1x8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S1x1x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17_1) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v4) S1x8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x8192x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16x2048x64 : Shape := ⟨3, ![16, 2048, 64]⟩
abbrev S16x24576x2 : Shape := ⟨3, ![16, 24576, 2]⟩
abbrev S128x128 : Shape := ⟨2, ![128, 128]⟩
abbrev S128 : Shape := ⟨1, ![128]⟩
abbrev S16x49152 : Shape := ⟨2, ![16, 49152]⟩
abbrev S16x49152x1 : Shape := ⟨3, ![16, 49152, 1]⟩
abbrev S_ : Shape := ⟨0, ![]⟩
abbrev S1 : Shape := ⟨1, ![1]⟩
abbrev S1x1x1 : Shape := ⟨3, ![1, 1, 1]⟩
abbrev S16x49152x64 : Shape := ⟨3, ![16, 49152, 64]⟩
abbrev S16x24576x128 : Shape := ⟨3, ![16, 24576, 128]⟩
abbrev S16x128 : Shape := ⟨2, ![16, 128]⟩
abbrev S16x1x128 : Shape := ⟨3, ![16, 1, 128]⟩
abbrev S1x1x128 : Shape := ⟨3, ![1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x24576x2, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S16x49152, .i32⟩
  | .hbm, ⟨7, _⟩ => ⟨S16x49152x1, .i32⟩
  | .hbm, ⟨8, _⟩ => ⟨S_, .i32⟩
  | .hbm, ⟨9, _⟩ => ⟨S16x49152x1, .i32⟩
  | .hbm, ⟨10, _⟩ => ⟨S16x49152x1, .i1⟩
  | .hbm, ⟨11, _⟩ => ⟨S_, .i32⟩
  | .hbm, ⟨12, _⟩ => ⟨S16x49152x1, .i32⟩
  | .hbm, ⟨13, _⟩ => ⟨S16x49152x1, .i32⟩
  | .hbm, ⟨14, _⟩ => ⟨S16x49152x1, .i32⟩
  | .hbm, ⟨15, _⟩ => ⟨S1, .i32⟩
  | .hbm, ⟨16, _⟩ => ⟨S_, .i32⟩
  | .hbm, ⟨17, _⟩ => ⟨S16x49152x1, .i32⟩
  | .hbm, ⟨18, _⟩ => ⟨S16x49152x1, .i1⟩
  | .hbm, ⟨19, _⟩ => ⟨S1x1x1, .i32⟩
  | .hbm, ⟨20, _⟩ => ⟨S16x49152x1, .i32⟩
  | .hbm, ⟨21, _⟩ => ⟨S16x49152x1, .i1⟩
  | .hbm, ⟨22, _⟩ => ⟨S16x49152x1, .i1⟩
  | .hbm, ⟨23, _⟩ => ⟨S_, .i1⟩
  | .hbm, ⟨24, _⟩ => ⟨S16x49152, .i1⟩
  | .hbm, ⟨25, _⟩ => ⟨S16x49152x64, .f32⟩
  | .hbm, ⟨26, _⟩ => ⟨S16x49152x64, .i1⟩
  | .hbm, ⟨27, _⟩ => ⟨S_, .f32⟩
  | .hbm, ⟨28, _⟩ => ⟨S16x49152x64, .f32⟩
  | .hbm, ⟨29, _⟩ => ⟨S16x49152x64, .f32⟩
  | .hbm, ⟨30, _⟩ => ⟨S16x24576x128, .f32⟩
  | .hbm, ⟨31, _⟩ => ⟨S16x24576x128, .f32⟩
  | .hbm, ⟨32, _⟩ => ⟨S_, .f32⟩
  | .hbm, ⟨33, _⟩ => ⟨S16x128, .f32⟩
  | .hbm, ⟨34, _⟩ => ⟨S16x1x128, .f32⟩
  | .hbm, ⟨35, _⟩ => ⟨S_, .f32⟩
  | .hbm, ⟨36, _⟩ => ⟨S16x1x128, .f32⟩
  | .hbm, ⟨37, _⟩ => ⟨S16x1x128, .f32⟩
  | .hbm, ⟨38, _⟩ => ⟨S16x24576x128, .f32⟩
  | .hbm, ⟨39, _⟩ => ⟨S16x24576x128, .f32⟩
  | .hbm, ⟨40, _⟩ => ⟨S16x24576x128, .f32⟩
  | .hbm, ⟨41, _⟩ => ⟨S1x1x128, .f32⟩
  | .hbm, ⟨42, _⟩ => ⟨S16x24576x128, .f32⟩
  | .hbm, ⟨43, _⟩ => ⟨S16x24576x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x1x128, .f32⟩
  | .hbm, ⟨50, _⟩ => ⟨S16x24576x128, .f32⟩
  | .hbm, ⟨51, _⟩ => ⟨S16x24576x128, .f32⟩
  | .hbm, ⟨52, _⟩ => ⟨S16x24576x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x1x128, .f32⟩
  | .hbm, ⟨59, _⟩ => ⟨S16x24576x128, .f32⟩
  | .hbm, ⟨60, _⟩ => ⟨S16x24576x128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x1x128, .f32⟩
  | .hbm, ⟨66, _⟩ => ⟨S16x24576x128, .f32⟩
  | .hbm, ⟨67, _⟩ => ⟨S16x24576x128, .f32⟩
  | .hbm, ⟨68, _⟩ => ⟨S1x1x128, .f32⟩
  | .hbm, ⟨69, _⟩ => ⟨S16x24576x128, .f32⟩
  | .hbm, ⟨70, _⟩ => ⟨S16x24576x128, .f32⟩
  | .hbm, ⟨71, _⟩ => ⟨S1x1x128, .f32⟩
  | .hbm, ⟨72, _⟩ => ⟨S16x24576x128, .f32⟩
  | .hbm, ⟨73, _⟩ => ⟨S16x24576x128, .f32⟩
  | .hbm, ⟨74, _⟩ => ⟨S16x24576x128, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_cst_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩

abbrev nD : Nat := 1
abbrev τ : Topo := Topo.v7x

variable {F : FTy → Type} [FloatOps F]

class Facts₀ : Prop where
  shapeCasts_S16x24576x2_S16x49152 : S16x24576x2.ShapeCasts S16x49152
  bcast_S16x49152_S16x49152x1_0_1 : S16x49152.BroadcastsInDim S16x49152x1 (![0, 1] : Fin 2 → Fin S16x49152x1.rank)
  bcast_S_S16x49152x1 : S_.BroadcastsInDim S16x49152x1 (![] : Fin 0 → Fin S16x49152x1.rank)
  bcast_S1_S1x1x1_2 : S1.BroadcastsInDim S1x1x1 (![2] : Fin 1 → Fin S1x1x1.rank)
  bcast_S1x1x1_S16x49152x1_0_1_2 : S1x1x1.BroadcastsInDim S16x49152x1 (![0, 1, 2] : Fin 3 → Fin S16x49152x1.rank)
  reducesTo_S16x49152x1_S16x49152_d2 : S16x49152x1.ReducesTo [2] S16x49152
  h_S_ : 0 < S_.numel
  bcast_S16x49152_S16x49152x64_0_1 : S16x49152.BroadcastsInDim S16x49152x64 (![0, 1] : Fin 2 → Fin S16x49152x64.rank)
  bcast_S_S16x49152x64 : S_.BroadcastsInDim S16x49152x64 (![] : Fin 0 → Fin S16x49152x64.rank)
  shapeCasts_S16x49152x64_S16x24576x128 : S16x49152x64.ShapeCasts S16x24576x128
  reducesTo_S16x24576x128_S16x128_d1 : S16x24576x128.ReducesTo [1] S16x128
  bcast_S16x128_S16x1x128_0_2 : S16x128.BroadcastsInDim S16x1x128 (![0, 2] : Fin 2 → Fin S16x1x128.rank)
  bcast_S_S16x1x128 : S_.BroadcastsInDim S16x1x128 (![] : Fin 0 → Fin S16x1x128.rank)
  bcast_S16x1x128_S16x24576x128_0_1_2 : S16x1x128.BroadcastsInDim S16x24576x128 (![0, 1, 2] : Fin 3 → Fin S16x24576x128.rank)
  bcast_S128_S1x1x128_2 : S128.BroadcastsInDim S1x1x128 (![2] : Fin 1 → Fin S1x1x128.rank)
  bcast_S1x1x128_S16x24576x128_0_1_2 : S1x1x128.BroadcastsInDim S16x24576x128 (![0, 1, 2] : Fin 3 → Fin S16x24576x128.rank)
  reducesTo_S16x24576x128_S128_d0_1 : S16x24576x128.ReducesTo [0, 1] S128
  bcast_S_S128 : S_.BroadcastsInDim S128 (![] : Fin 0 → Fin S128.rank)
  gather_S16x2048x64_S16x49152x1_S16x49152x64_2_1_0_0_1_2_1164_wf : GatherDims.WF S16x2048x64 S16x49152x1 S16x49152x64 [2] [1] [0] [1] [0] 2 ![1, 1, 64]
  dot_S16x24576x128_S128x128_S16x24576x128_2_0_01_1_n_n_wf : DotDims.WF S16x24576x128 S128x128 S16x24576x128 [2] [0] [0, 1] [1] [] []

variable [Facts₀]

def gather_S16x2048x64_S16x49152x1_S16x49152x64_2_1_0_0_1_2_1164 : GatherDims S16x2048x64 S16x49152x1 S16x49152x64 where
  offsetDims := [2]
  collapsedSliceDims := [1]
  operandBatchingDims := [0]
  startIndicesBatchingDims := [0]
  startIndexMap := [1]
  indexVectorDim := 2
  sliceSizes := ![1, 1, 64]
  wf := gather_S16x2048x64_S16x49152x1_S16x49152x64_2_1_0_0_1_2_1164_wf
def dot_S16x24576x128_S128x128_S16x24576x128_2_0_01_1_n_n : DotDims S16x24576x128 S128x128 S16x24576x128 where
  lhsContracting := [2]
  rhsContracting := [0]
  lhsNonContracting := [0, 1]
  rhsNonContracting := [1]
  lhsBatch := []
  rhsBatch := []
  wf := dot_S16x24576x128_S128x128_S16x24576x128_2_0_01_1_n_n_wf

class Facts : Prop extends Facts₀ where

variable [Facts]
-- ==== Proof.K.R0Runs.lean ====
/- Region 0 (the L1 denominator): what the three case runs of its body share — the windows' blocks at the region-entry contents, the two branch conditions in closed form over the grid, where the output window is idle, and the staging and scratch memrefs. -/
import proofs.«163788_j32392643347009_2_alg».proof.Proof.Gen.Kernel.Launch
import proofs.«163788_j32392643347009_2_alg».proof.Proof.Gen.Kernel.Skeleton
import proofs.«163788_j32392643347009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The first conditional's condition, from the grid coordinates: the tile index is 0. -/
abbrev cond0_0 (i : grid0.Coords) : Prop := (Scalar.cmpi .ne (Scalar.extui (Scalar.cmpi .eq (BitVec.ofNat 32 (i 1).val) 0#32)) 0#32) = 1#1
/-- It holds exactly at the points ≡ 0 (mod 3): the first tile of each batch. -/
theorem hcond0_0 : ∀ t : Fin cfg0.N, cond0_0 (grid0.coords t) ↔ t.val % 3 = 0 :=
  (by decide +kernel : ∀ t : Fin grid0.N, cond0_0 (grid0.coords t) ↔ t.val % 3 = 0)

/-- The second conditional's condition: the tile index is the last, 2. -/
abbrev cond0_1 (i : grid0.Coords) : Prop := k0_cond2 i = 1#1
/-- It holds exactly at the points ≡ 2 (mod 3): the last tile of each batch. -/
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

/-- The input window is never idle. -/
theorem liveAt0_0 : ∀ t : Fin cfg0.N, cfg0.idle 0 (grid0.coords t) = false := by decide +kernel
/-- First tile of a batch (case A): the output window is idle, -/
theorem idleAt0_1_A : ∀ t : Fin cfg0.N, cond0_0 (grid0.coords t) → ¬cond0_1 (grid0.coords t) → cfg0.idle 1 (grid0.coords t) = true := by decide +kernel
/-- and not written back. -/
theorem noFlush0_1_A : ∀ t : Fin cfg0.N, cond0_0 (grid0.coords t) → ¬cond0_1 (grid0.coords t) → (cfg0.win 1).flush t = false := by decide +kernel
/-- Middle tile (case B): the output window is idle, -/
theorem idleAt0_1_B : ∀ t : Fin cfg0.N, ¬cond0_0 (grid0.coords t) → ¬cond0_1 (grid0.coords t) → cfg0.idle 1 (grid0.coords t) = true := by decide +kernel
/-- and not written back. -/
theorem noFlush0_1_B : ∀ t : Fin cfg0.N, ¬cond0_0 (grid0.coords t) → ¬cond0_1 (grid0.coords t) → (cfg0.win 1).flush t = false := by decide +kernel
/-- Last tile (case C): the output window is live. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated (the choice does not matter). -/
abbrev VO0_1 : View sig .tc .vmem S1x1x128 .f32 := (Memref.whole cc0_stg1_0 : Memref sig .tc .vmem S1x1x128 .f32).view
/-- Each window's current staging memref at point `t`, and its wholeness. -/
abbrev ms0_0 (t : Fin cfg0.N) : Memref sig .tc .vmem S1x8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x128 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S128 .f32 := Memref.whole cc0_scratch0
/-- The same as a view: what it holds between points is stated through it. -/
abbrev VS0_0 : View sig .tc .vmem S128 .f32 := scM0_0.view

/-- The scoped rest of region 0 as: the scratch accumulator owned at some contents, every other scoped buffer that
    is no staging buffer of this region at some contents, and the generator register at some state. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The region invariant the launch hands over, with the scratch accumulator as a memref owned at some contents:
    what the body obligation hands the run and takes back. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.Kernel.Hand

end
-- ==== Proof.K.R0A.lean ====
/- Region 0, case A (first tile of a batch): the body's run on whole memrefs. The scratch is reset to zero and the tile's column sums of absolute values are added; nothing is stored into the output block. The pieces each buffer ends with are found by running the body. -/
import proofs.«163788_j32392643347009_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the pieces the body's stores leave in the output's staging memref (none) and in the scratch, with the
    body's triple on whole memrefs: the input at its contents `x0`, the idle output at contents `xi1` handed back
    untouched, the scratch at anything. -/
noncomputable def kernelRun0_A (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : cond0_0 i) (hc1 : ¬cond0_1 i)
    (x0 : Vec F S1x8192x128 .bf16) :
    Σ' (L1 : List (View.Piece (Elt F) S1x1x128 .f32)), { LS0 : List (View.Piece (Elt F) S128 .f32) //
      ∀ (xi1 : Vec F S1x1x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨[], ?_, fun xi1 E K => ?run⟩
  case run =>
    simp only [cc0__denom_kernel_eq_skeleton]; unfold cc0__denom_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.R0B.lean ====
/- Region 0, case B (middle tile of a batch): the body's run on whole memrefs. The tile's column sums of absolute values are added to the scratch; nothing is stored into the output block. -/
import proofs.«163788_j32392643347009_2_alg».proof.Proof.K.R0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: as case A, the scratch at the contents `xs0` the point before left. -/
noncomputable def kernelRun0_B (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : ¬cond0_1 i)
    (x0 : Vec F S1x8192x128 .bf16) (xs0 : Vec F S128 .f32) :
    Σ' (L1 : List (View.Piece (Elt F) S1x1x128 .f32)), { LS0 : List (View.Piece (Elt F) S128 .f32) //
      ∀ (xi1 : Vec F S1x1x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨[], ?_, fun xi1 E K => ?run⟩
  case run =>
    simp only [cc0__denom_kernel_eq_skeleton]; unfold cc0__denom_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.R0C.lean ====
/- Region 0, case C (last tile of a batch): the body's run on whole memrefs. The tile's column sums of absolute values are added to the scratch, and the scratch is then stored to the output block. -/
import proofs.«163788_j32392643347009_2_alg».proof.Proof.K.R0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the output's staging memref at anything, the scratch at the contents `xs0` the point before left. -/
noncomputable def kernelRun0_C (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i)
    (x0 : Vec F S1x8192x128 .bf16) (xs0 : Vec F S128 .f32) :
    Σ' (L1 : List (View.Piece (Elt F) S1x1x128 .f32)), { LS0 : List (View.Piece (Elt F) S128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨?_, ?_, fun E K => ?run⟩
  case run =>
    simp only [cc0__denom_kernel_eq_skeleton]; unfold cc0__denom_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K.R0.lean ====
/- Region 0 (the L1 denominator) at the region-entry contents V: what the output block and the scratch accumulator hold case by case and point by point, the proof data, the body obligation at every point, and the invariant's two ends. -/
import proofs.«163788_j32392643347009_2_alg».proof.Proof.K.R0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each case leaves: the found pieces read back -/

/-- Case A stores nothing into the output block: a placeholder nothing consults (the window is idle there). -/
def out0_A_1 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : cond0_0 i) (hc1 : ¬cond0_1 i) (x0 : Vec F S1x8192x128 .bf16) : Vec F S1x1x128 .f32 :=
  VO0_1.read (Elt F) (VO0_1.writes (Elt F) VO0_1.junk (kernelRun0_A c i arg2 harg2 arg3 harg3 arg4 harg4 hc0 hc1 x0).1)
/-- Case A's pieces for the scratch tile it, so they cover it. -/
theorem scover0_A_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : cond0_0 i) (hc1 : ¬cond0_1 i) (x0 : Vec F S1x8192x128 .bf16) (y : S128.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S128.size (by sl_kernel_rfl) y
/-- What case A leaves in the scratch. -/
def sout0_A_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : cond0_0 i) (hc1 : ¬cond0_1 i) (x0 : Vec F S1x8192x128 .bf16) : Vec F S128 .f32 :=
  VS0_0.read (Elt F) (VS0_0.writes (Elt F) VS0_0.junk (kernelRun0_A c i arg2 harg2 arg3 harg3 arg4 harg4 hc0 hc1 x0).2.1)

/-- Case B stores nothing into the output block either. -/
def out0_B_1 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : ¬cond0_1 i) (x0 : Vec F S1x8192x128 .bf16) (xs0 : Vec F S128 .f32) : Vec F S1x1x128 .f32 :=
  VO0_1.read (Elt F) (VO0_1.writes (Elt F) VO0_1.junk (kernelRun0_B c i arg2 harg2 arg3 harg3 arg4 harg4 hc0 hc1 x0 xs0).1)
theorem scover0_B_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : ¬cond0_1 i) (x0 : Vec F S1x8192x128 .bf16) (xs0 : Vec F S128 .f32) (y : S128.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S128.size (by sl_kernel_rfl) y
/-- What case B leaves in the scratch. -/
def sout0_B_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : ¬cond0_1 i) (x0 : Vec F S1x8192x128 .bf16) (xs0 : Vec F S128 .f32) : Vec F S128 .f32 :=
  VS0_0.read (Elt F) (VS0_0.writes (Elt F) VS0_0.junk (kernelRun0_B c i arg2 harg2 arg3 harg3 arg4 harg4 hc0 hc1 x0 xs0).2.1)

/-- Case C's one store into the output block covers it. -/
theorem cover0_C_1 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) (y : S1x1x128.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1x128.size (by sl_kernel_rfl) y
/-- What case C leaves in the output block. -/
def out0_C_1 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) : Vec F S1x1x128 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) (y : S128.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S128.size (by sl_kernel_rfl) y
/-- What case C leaves in the scratch. -/
def sout0_C_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) : Vec F S128 .f32 :=
  VS0_0.read (Elt F) (VS0_0.writes (Elt F) VS0_0.junk (kernelRun0_C c i arg2 harg2 arg3 harg3 arg4 harg4 hc0 hc1 x0 xs0).2.1)

/-! ## What the output block and the scratch hold after each point -/

/-- THE ACCUMULATION: the pair (output block's staging buffer, scratch) after the body at position `n`, by recursion on
    the point: the case the point is in, run on the point's input block and on the scratch the point before left. -/
def outsAt0 (c : Dev nD) : (n : ℕ) → n < cfg0.N → Vec F S1x1x128 .f32 × Vec F S128 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 3 = 0 then
      if h1 : (n + 1) % 3 = 2 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 3 = 2 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at a point of case A. -/
theorem outsAt0_A (c : Dev nD) (t : Fin cfg0.N) (h0 : t.val % 3 = 0) (h1 : ¬t.val % 3 = 2) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B, over what the point before left. -/
theorem outsAt0_B (c : Dev nD) (t : Fin cfg0.N) (h0 : ¬t.val % 3 = 0) (h1 : ¬t.val % 3 = 2) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C, over what the point before left. -/
theorem outsAt0_C (c : Dev nD) (t : Fin cfg0.N) (h0 : ¬t.val % 3 = 0) (h1 : t.val % 3 = 2) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the same with the scratch at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The proof data -/

/-- The proof data of region 0 on core `c`: the arrays at the region-entry contents; after the body at point `t` the
    input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which case the point is in; the
    invariant hands the body the scratch at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 48 := lt_of_lt_of_eq t.isLt (show cfg0.N = 48 from N_0)
  by_cases h0 : t.val % 3 = 0
  · by_cases h1 : t.val % 3 = 2
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
      · rw [PhiS0_castSucc V c t, PhiS0_pos V c _ _ hz]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
  · by_cases h1 : t.val % 3 = 2
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _)
            iexact HR
          iexact Hg
        isplitl [Ho]; · iexact Ho
        isplitl [H0]; · iexact H0
        iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 48 := N_0; omega)

end Region0

end Cert.Kernel.Hand

end
-- ==== Proof.K.R1Run.lean ====
/- Region 1 (the batch-norm statistics kernel): what its three cases share — the branch conditions decided over the grid, where
   the output windows are idle, the staging and scratch memrefs, the class invariant with the two scratch buffers split out — and
   the body's run in each case. -/
import proofs.«163788_j32392643347009_2_alg».proof.Proof.Gen.Kernel.Launch
import proofs.«163788_j32392643347009_2_alg».proof.Proof.Gen.Kernel.Skeleton
import proofs.«163788_j32392643347009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 3). -/
theorem hcond1_0 : ∀ t : Fin cfg1.N, cond1_0 (grid1.coords t) ↔ t.val % 3 = 0 :=
  (by decide +kernel : ∀ t : Fin grid1.N, cond1_0 (grid1.coords t) ↔ t.val % 3 = 0)
/-- The condition of the body's second conditional. -/
abbrev cond1_1 (i : grid1.Coords) : Prop := k1_cond2 i = 1#1
/-- It holds at the points ≡ 2 (mod 3). -/
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the points of case A the configuration calls output 2 idle, and the pipeline does not write its block back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At the points of case A the configuration calls output 3 idle, and the pipeline does not write its block back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the points of case B the configuration calls output 2 idle, and the pipeline does not write its block back. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the points of case B the configuration calls output 3 idle, and the pipeline does not write its block back. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points of case C output 2 is live. -/
theorem liveAt1_2_C : ∀ t : Fin cfg1.N, ¬cond1_0 (grid1.coords t) → cond1_1 (grid1.coords t) → cfg1.idle 2 (grid1.coords t) = false := by decide +kernel
/-- At the points of case C output 3 is live. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of each output window, through which its contents are stated. -/
abbrev VO1_2 : View sig .tc .vmem S1x1x128 .f32 := (Memref.whole cc1_stg2_0 : Memref sig .tc .vmem S1x1x128 .f32).view
abbrev VO1_3 : View sig .tc .vmem S1x1x128 .f32 := (Memref.whole cc1_stg3_0 : Memref sig .tc .vmem S1x1x128 .f32).view
/-- Each window's current staging memref at point `t`, as the pipeline passes it, and its wholeness. -/
abbrev ms1_0 (t : Fin cfg1.N) : Memref sig .tc .vmem S1x8192x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
/-- The two scratch operands: whole scoped buffers of the kernel's own, both carried between points. -/
abbrev scM1_0 : Memref sig .tc .vmem S128 .f32 := Memref.whole cc1_scratch0
abbrev scM1_1 : Memref sig .tc .vmem S128 .f32 := Memref.whole cc1_scratch1
abbrev VS1_0 : View sig .tc .vmem S128 .f32 := scM1_0.view
abbrev VS1_1 : View sig .tc .vmem S128 .f32 := scM1_1.view

/-! ## The region's invariant with the two scratch buffers split out -/

/-- A scoped buffer of the core, whole at some contents. -/
abbrev anyAt1 (c : Dev nD) (b : Ref sig .tc) : sProp 𝕄 :=
  iprop(∃ f : Buf (Elt F) ((c : Thread nD τ).loc b), ((c : Thread nD τ).loc b) ↦{fullShare} f)

/-- The scoped buffers listed after the two scratch buffers, each at some contents. -/
def scopedTail1 (c : Dev nD) : sProp 𝕄 :=
  iprop(anyAt1 c cc2_stg0_0 ∗ anyAt1 c cc2_stg0_1 ∗ anyAt1 c cc2_stg1_0 ∗ anyAt1 c cc2_stg1_1 ∗ anyAt1 c cc2_stg2_0 ∗ anyAt1 c cc2_stg3_0 ∗ anyAt1 c cc2_stg4_0 ∗ anyAt1 c cc2_stg5_0 ∗ anyAt1 c cc2_stg5_1)

/-- The core's scoped buffers that are no staging buffer of this region, the two scratch buffers at `P0`, `P1` and every
    other one at some contents. -/
def scopedWith1 (c : Dev nD) (P0 P1 : sProp 𝕄) : sProp 𝕄 :=
  iprop(anyAt1 c cc0_stg0_0 ∗ anyAt1 c cc0_stg0_1 ∗ anyAt1 c cc0_stg1_0 ∗ anyAt1 c cc0_stg1_1 ∗ anyAt1 c cc0_scratch0 ∗ P0 ∗ P1 ∗ scopedTail1 c)

/-- The class invariant with the scratch operands as memrefs owned at some contents. -/
theorem PhiA1_eq (c : Dev nD) :
    (Pipeline.ΦA spec1 c : sProp 𝕄)
      = iprop(scopedWith1 c iprop(∃ d, owns (c : Thread nD τ) scM1_0 fullShare d) iprop(∃ d, owns (c : Thread nD τ) scM1_1 fullShare d) ∗ (∃ r, prngReg c r)) := by
  unfold Pipeline.ΦA scopedWith1 scopedTail1; rw [scopedRest1_eq]; simp only [scM1_0, scM1_1, owns_whole]; try rfl

set_option maxHeartbeats 1000000 in
/-- The body IN CASE A (first conditional taken, second not: the points ≡ 0 mod 3): on whole staging memrefs — the inputs' at their
    contents, the two outputs' (idle there) at contents handed back untouched, both scratch buffers at anything — it runs to the
    continuation holding the inputs' as they were and each scratch buffer with its pieces written. The pieces are the witness the
    run finds. -/
noncomputable def kernelRun1_A (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) :
    Σ' (L2 : List (View.Piece (Elt F) S1x1x128 .f32)) (L3 : List (View.Piece (Elt F) S1x1x128 .f32)) (LS0 : List (View.Piece (Elt F) S128 .f32)), { LS1 : List (View.Piece (Elt F) S128 .f32) //
      ∀ (xi2 : Vec F S1x1x128 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨[], [], ?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- The body IN CASE B (neither conditional taken: the points ≡ 1 mod 3): the inputs' memrefs at their contents, the two outputs'
    (idle there) handed back untouched, both scratch buffers at what the point before left. -/
noncomputable def kernelRun1_B (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) :
    Σ' (L2 : List (View.Piece (Elt F) S1x1x128 .f32)) (L3 : List (View.Piece (Elt F) S1x1x128 .f32)) (LS0 : List (View.Piece (Elt F) S128 .f32)), { LS1 : List (View.Piece (Elt F) S128 .f32) //
      ∀ (xi2 : Vec F S1x1x128 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨[], [], ?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- The body IN CASE C (first conditional not taken, second taken: the points ≡ 2 mod 3): the inputs' memrefs at their contents,
    the two outputs' at anything, both scratch buffers at what the point before left; every output and scratch buffer ends with its
    pieces written. -/
noncomputable def kernelRun1_C (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) :
    Σ' (L2 : List (View.Piece (Elt F) S1x1x128 .f32)) (L3 : List (View.Piece (Elt F) S1x1x128 .f32)) (LS0 : List (View.Piece (Elt F) S128 .f32)), { LS1 : List (View.Piece (Elt F) S128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.K.R1.lean ====
/- Region 1 (the batch-norm statistics kernel) at the entry contents `V`: what its outputs and its two scratch buffers hold case
   by case and point by point, the proof data, the body obligation, and the invariant's two ends. -/
import proofs.«163788_j32392643347009_2_alg».proof.Proof.K.R1Run

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose array
    is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A stores nothing into output 2 (idle at its points and not written back there): a placeholder nothing consults. -/
def out1_A_2 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) : Vec F S1x1x128 .f32 :=
  VO1_2.read (Elt F) (VO1_2.writes (Elt F) VO1_2.junk (kernelRun1_A c i arg2 harg2 arg3 harg3 arg4 harg4 arg5 harg5 arg6 harg6 arg7 harg7 hc0 hc1 x0 x1).1)

/-- Case A stores nothing into output 3 (idle at its points and not written back there): a placeholder nothing consults. -/
def out1_A_3 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) : Vec F S1x1x128 .f32 :=
  VO1_3.read (Elt F) (VO1_3.writes (Elt F) VO1_3.junk (kernelRun1_A c i arg2 harg2 arg3 harg3 arg4 harg4 arg5 harg5 arg6 harg6 arg7 harg7 hc0 hc1 x0 x1).2.1)

/-- Case A's pieces for scratch buffer 0 cover it. -/
theorem scover1_A_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) (y : S128.Idx) :
    ∃ pc ∈ (kernelRun1_A c i arg2 harg2 arg3 harg3 arg4 harg4 arg5 harg5 arg6 harg6 arg7 harg7 hc0 hc1 x0 x1).2.2.1, y ∈ pc.1.set :=
  View.cover_of_tiledL (kernelRun1_A c i arg2 harg2 arg3 harg3 arg4 harg4 arg5 harg5 arg6 harg6 arg7 harg7 hc0 hc1 x0 x1).2.2.1 S128.size (by sl_kernel_rfl) y

/-- What case A leaves in scratch buffer 0: its pieces read back over junk. -/
def sout1_A_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) : Vec F S128 .f32 :=
  VS1_0.read (Elt F) (VS1_0.writes (Elt F) VS1_0.junk (kernelRun1_A c i arg2 harg2 arg3 harg3 arg4 harg4 arg5 harg5 arg6 harg6 arg7 harg7 hc0 hc1 x0 x1).2.2.1)

/-- Case A's pieces for scratch buffer 1 cover it. -/
theorem scover1_A_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) (y : S128.Idx) :
    ∃ pc ∈ (kernelRun1_A c i arg2 harg2 arg3 harg3 arg4 harg4 arg5 harg5 arg6 harg6 arg7 harg7 hc0 hc1 x0 x1).2.2.2.1, y ∈ pc.1.set :=
  View.cover_of_tiledL (kernelRun1_A c i arg2 harg2 arg3 harg3 arg4 harg4 arg5 harg5 arg6 harg6 arg7 harg7 hc0 hc1 x0 x1).2.2.2.1 S128.size (by sl_kernel_rfl) y

/-- What case A leaves in scratch buffer 1: its pieces read back over junk. -/
def sout1_A_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) : Vec F S128 .f32 :=
  VS1_1.read (Elt F) (VS1_1.writes (Elt F) VS1_1.junk (kernelRun1_A c i arg2 harg2 arg3 harg3 arg4 harg4 arg5 harg5 arg6 harg6 arg7 harg7 hc0 hc1 x0 x1).2.2.2.1)

/-- Case B stores nothing into output 2 (idle at its points and not written back there): a placeholder nothing consults. -/
def out1_B_2 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) : Vec F S1x1x128 .f32 :=
  VO1_2.read (Elt F) (VO1_2.writes (Elt F) VO1_2.junk (kernelRun1_B c i arg2 harg2 arg3 harg3 arg4 harg4 arg5 harg5 arg6 harg6 arg7 harg7 hc0 hc1 x0 x1 xs0 xs1).1)

/-- Case B stores nothing into output 3 (idle at its points and not written back there): a placeholder nothing consults. -/
def out1_B_3 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) : Vec F S1x1x128 .f32 :=
  VO1_3.read (Elt F) (VO1_3.writes (Elt F) VO1_3.junk (kernelRun1_B c i arg2 harg2 arg3 harg3 arg4 harg4 arg5 harg5 arg6 harg6 arg7 harg7 hc0 hc1 x0 x1 xs0 xs1).2.1)

/-- Case B's pieces for scratch buffer 0 cover it. -/
theorem scover1_B_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) (y : S128.Idx) :
    ∃ pc ∈ (kernelRun1_B c i arg2 harg2 arg3 harg3 arg4 harg4 arg5 harg5 arg6 harg6 arg7 harg7 hc0 hc1 x0 x1 xs0 xs1).2.2.1, y ∈ pc.1.set :=
  View.cover_of_tiledL (kernelRun1_B c i arg2 harg2 arg3 harg3 arg4 harg4 arg5 harg5 arg6 harg6 arg7 harg7 hc0 hc1 x0 x1 xs0 xs1).2.2.1 S128.size (by sl_kernel_rfl) y

/-- What case B leaves in scratch buffer 0: its pieces read back over junk. -/
def sout1_B_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) : Vec F S128 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1).2.2.1)

/-- Case B's pieces for scratch buffer 1 cover it. -/
theorem scover1_B_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) (y : S128.Idx) :
    ∃ pc ∈ (kernelRun1_B c i arg2 harg2 arg3 harg3 arg4 harg4 arg5 harg5 arg6 harg6 arg7 harg7 hc0 hc1 x0 x1 xs0 xs1).2.2.2.1, y ∈ pc.1.set :=
  View.cover_of_tiledL (kernelRun1_B c i arg2 harg2 arg3 harg3 arg4 harg4 arg5 harg5 arg6 harg6 arg7 harg7 hc0 hc1 x0 x1 xs0 xs1).2.2.2.1 S128.size (by sl_kernel_rfl) y

/-- What case B leaves in scratch buffer 1: its pieces read back over junk. -/
def sout1_B_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) : Vec F S128 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1).2.2.2.1)

/-- Case C's pieces for output 2 tile its block, so they cover it. -/
theorem cover1_C_2 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) (y : S1x1x128.Idx) :
    ∃ pc ∈ (kernelRun1_C c i arg2 harg2 arg3 harg3 arg4 harg4 arg5 harg5 arg6 harg6 arg7 harg7 hc0 hc1 x0 x1 xs0 xs1).1, y ∈ pc.1.set :=
  View.cover_of_tiledL (kernelRun1_C c i arg2 harg2 arg3 harg3 arg4 harg4 arg5 harg5 arg6 harg6 arg7 harg7 hc0 hc1 x0 x1 xs0 xs1).1 S1x1x128.size (by sl_kernel_rfl) y

/-- What case C leaves in output 2's staging buffer: its pieces read back over junk. -/
def out1_C_2 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) : Vec F S1x1x128 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1).1)

/-- Case C's pieces for output 3 tile its block, so they cover it. -/
theorem cover1_C_3 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) (y : S1x1x128.Idx) :
    ∃ pc ∈ (kernelRun1_C c i arg2 harg2 arg3 harg3 arg4 harg4 arg5 harg5 arg6 harg6 arg7 harg7 hc0 hc1 x0 x1 xs0 xs1).2.1, y ∈ pc.1.set :=
  View.cover_of_tiledL (kernelRun1_C c i arg2 harg2 arg3 harg3 arg4 harg4 arg5 harg5 arg6 harg6 arg7 harg7 hc0 hc1 x0 x1 xs0 xs1).2.1 S1x1x128.size (by sl_kernel_rfl) y

/-- What case C leaves in output 3's staging buffer: its pieces read back over junk. -/
def out1_C_3 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) : Vec F S1x1x128 .f32 :=
  VO1_3.read (Elt F) (VO1_3.writes (Elt F) VO1_3.junk (kernelRun1_C c i arg2 harg2 arg3 harg3 arg4 harg4 arg5 harg5 arg6 harg6 arg7 harg7 hc0 hc1 x0 x1 xs0 xs1).2.1)

/-- Case C's pieces for scratch buffer 0 cover it. -/
theorem scover1_C_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) (y : S128.Idx) :
    ∃ pc ∈ (kernelRun1_C c i arg2 harg2 arg3 harg3 arg4 harg4 arg5 harg5 arg6 harg6 arg7 harg7 hc0 hc1 x0 x1 xs0 xs1).2.2.1, y ∈ pc.1.set :=
  View.cover_of_tiledL (kernelRun1_C c i arg2 harg2 arg3 harg3 arg4 harg4 arg5 harg5 arg6 harg6 arg7 harg7 hc0 hc1 x0 x1 xs0 xs1).2.2.1 S128.size (by sl_kernel_rfl) y

/-- What case C leaves in scratch buffer 0: its pieces read back over junk. -/
def sout1_C_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) : Vec F S128 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1).2.2.1)

/-- Case C's pieces for scratch buffer 1 cover it. -/
theorem scover1_C_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) (y : S128.Idx) :
    ∃ pc ∈ (kernelRun1_C c i arg2 harg2 arg3 harg3 arg4 harg4 arg5 harg5 arg6 harg6 arg7 harg7 hc0 hc1 x0 x1 xs0 xs1).2.2.2.1, y ∈ pc.1.set :=
  View.cover_of_tiledL (kernelRun1_C c i arg2 harg2 arg3 harg3 arg4 harg4 arg5 harg5 arg6 harg6 arg7 harg7 hc0 hc1 x0 x1 xs0 xs1).2.2.2.1 S128.size (by sl_kernel_rfl) y

/-- What case C leaves in scratch buffer 1: its pieces read back over junk. -/
def sout1_C_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) : Vec F S128 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1).2.2.2.1)

/-! ## What the outputs and the scratch buffers hold after each point -/

/-- What the two outputs' staging buffers and the two scratch buffers hold after the body at position `n` (a tuple: output 2,
    output 3, scratch 0, scratch 1): the case the closed forms select at `n`, run at the point's memrefs and input blocks, the
    scratch buffers it reads before covering at what the point before left. -/
def outsAt1 (c : Dev nD) : (n : ℕ) → n < cfg1.N → Vec F S1x1x128 .f32 × Vec F S1x1x128 .f32 × Vec F S128 .f32 × Vec F S128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 3 = 0 then
      if h1 : (n + 1) % 3 = 2 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 3 = 2 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 3 = 0) (h1 : ¬t.val % 3 = 2) :
    outsAt1 V c t.val t.isLt = (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 3 = 0) (h1 : ¬t.val % 3 = 2) :
    outsAt1 V c t.val t.isLt = (out1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 3 = 0) (h1 : t.val % 3 = 2) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch buffer at anything); afterwards the
    scoped rest with the two scratch buffers at what the point before left in them, and the generator register at some state. -/
def PhiS1 (c : Dev nD) : (n : ℕ) → n ≤ cfg1.N → sProp 𝕄
  | 0, _ => Pipeline.ΦA spec1 c
  | n + 1, hn => iprop(scopedWith1 c (owns (c : Thread nD τ) scM1_0 fullShare (outsAt1 V c n hn).2.2.1) (owns (c : Thread nD τ) scM1_1 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(scopedWith1 c (owns (c : Thread nD τ) scM1_0 fullShare (outsAt1 V c n hn).2.2.1) (owns (c : Thread nD τ) scM1_1 fullShare (outsAt1 V c n hn).2.2.2) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(scopedWith1 c (owns (c : Thread nD τ) scM1_0 fullShare (outsAt1 V c (n - 1) (by omega)).2.2.1) (owns (c : Thread nD τ) scM1_1 fullShare (outsAt1 V c (n - 1) (by omega)).2.2.2) ∗ (∃ r, prngReg c r)) := by
  cases n with
  | zero => exact absurd rfl hz
  | succ n => rfl

/-! ## The pipeline's proof data -/

/-- The proof data of the region's pipeline on core `c`: the arrays as the region finds them (`V`); after the body at point `t`
    each input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the invariant
    hands the body the two scratch buffers at what the point before left (at anything at the first point) and takes them back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 48 := lt_of_lt_of_eq t.isLt (show cfg1.N = 48 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  by_cases h0 : t.val % 3 = 0
  · by_cases h1 : t.val % 3 = 2
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        unfold scopedWith1
        iintro ⟨⟨⟨Hb1, Hb2, Hb3, Hb4, Hb5, HS0, HS1, HT⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [Hb1 Hb2 Hb3 Hb4 Hb5 HS0 HS1 HT Hg]
        · isplitl [Hb1 Hb2 Hb3 Hb4 Hb5 HS0 HS1 HT]
          · isplitl [Hb1]; · iexact Hb1
            isplitl [Hb2]; · iexact Hb2
            isplitl [Hb3]; · iexact Hb3
            isplitl [Hb4]; · iexact Hb4
            isplitl [Hb5]; · iexact Hb5
            isplitl [HS0]
            · unfold owns; iexists _; isplitr
              swap; · iexact HS0
              ipureintro; exact View.read_writes_of_cover _ _ _ _ _ (scover1_A_0 c _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _)
            iexact HT
          iexact Hg
        isplitl [Ho]; · iexact Ho
        isplitl [H0]; · iexact H0
        isplitl [H1]; · iexact H1
        isplitl [H2]; · iexists _; iexact H2
        iexists _; iexact H3
      · rw [PhiS1_castSucc V c t, PhiS1_pos V c _ _ hz]
        unfold scopedWith1
        iintro ⟨⟨⟨Hb1, Hb2, Hb3, Hb4, Hb5, HS0, HS1, HT⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [Hb1 Hb2 Hb3 Hb4 Hb5 HS0 HS1 HT Hg]
        · isplitl [Hb1 Hb2 Hb3 Hb4 Hb5 HS0 HS1 HT]
          · isplitl [Hb1]; · iexact Hb1
            isplitl [Hb2]; · iexact Hb2
            isplitl [Hb3]; · iexact Hb3
            isplitl [Hb4]; · iexact Hb4
            isplitl [Hb5]; · iexact Hb5
            isplitl [HS0]
            · unfold owns; iexists _; isplitr
              swap; · iexact HS0
              ipureintro; exact View.read_writes_of_cover _ _ _ _ _ (scover1_A_0 c _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _)
            iexact HT
          iexact Hg
        isplitl [Ho]; · iexact Ho
        isplitl [H0]; · iexact H0
        isplitl [H1]; · iexact H1
        isplitl [H2]; · iexists _; iexact H2
        iexists _; iexact H3
  · by_cases h1 : t.val % 3 = 2
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_2 out1_C_3 sout1_C_0 sout1_C_1; (try dsimp only)
      have hz : t.val ≠ 0 := by omega
      rw [PhiS1_castSucc V c t, PhiS1_pos V c _ _ hz]
      unfold scopedWith1
      iintro ⟨⟨⟨Hb1, Hb2, Hb3, Hb4, Hb5, HS0, HS1, HT⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [Hb1 Hb2 Hb3 Hb4 Hb5 HS0 HS1 HT Hg]
      · isplitl [Hb1 Hb2 Hb3 Hb4 Hb5 HS0 HS1 HT]
        · isplitl [Hb1]; · iexact Hb1
          isplitl [Hb2]; · iexact Hb2
          isplitl [Hb3]; · iexact Hb3
          isplitl [Hb4]; · iexact Hb4
          isplitl [Hb5]; · iexact Hb5
          isplitl [HS0]
          · unfold owns; iexists _; isplitr
            swap; · iexact HS0
            ipureintro; exact View.read_writes_of_cover _ _ _ _ _ (scover1_C_0 c _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _)
          iexact HT
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      have hz : t.val ≠ 0 := by omega
      rw [PhiS1_castSucc V c t, PhiS1_pos V c _ _ hz]
      unfold scopedWith1
      iintro ⟨⟨⟨Hb1, Hb2, Hb3, Hb4, Hb5, HS0, HS1, HT⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [Hb1 Hb2 Hb3 Hb4 Hb5 HS0 HS1 HT Hg]
      · isplitl [Hb1 Hb2 Hb3 Hb4 Hb5 HS0 HS1 HT]
        · isplitl [Hb1]; · iexact Hb1
          isplitl [Hb2]; · iexact Hb2
          isplitl [Hb3]; · iexact Hb3
          isplitl [Hb4]; · iexact Hb4
          isplitl [Hb5]; · iexact Hb5
          isplitl [HS0]
          · unfold owns; iexists _; isplitr
            swap; · iexact HS0
            ipureintro; exact View.read_writes_of_cover _ _ _ _ _ (scover1_B_0 c _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _)
          iexact HT
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scopedWith1
  iintro ⟨⟨Hb1, Hb2, Hb3, Hb4, Hb5, HS0, HS1, HT⟩, Hg⟩
  isplitl [Hb1 Hb2 Hb3 Hb4 Hb5 HS0 HS1 HT]
  · isplitl [Hb1]; · iexact Hb1
    isplitl [Hb2]; · iexact Hb2
    isplitl [Hb3]; · iexact Hb3
    isplitl [Hb4]; · iexact Hb4
    isplitl [Hb5]; · iexact Hb5
    isplitl [HS0]; · iexists _; iexact HS0
    isplitl [HS1]; · iexists _; iexact HS1
    iexact HT
  iexact Hg

/-- The same after the last point. -/
theorem hout1 (c : Dev nD) : (dat1 V c).Φ (Fin.last cfg1.N) ⊢ Pipeline.ΦA spec1 c :=
  Phi_out1 V c _ (by rw [Fin.val_last]; have : cfg1.N = 48 := N_1; omega)

end Cert.Kernel.Hand

end
-- ==== Proof.K.R2.lean ====
/-
  Region 2: the final kernel, at any entry contents of the TensorCore's buffers.

  At grid point t (batch t / 3, tile t % 3) the body reads five blocks — the tile's 8192 rows x of the batch
  (8192 × 128), the batch's matrix w' (128 × 128), and the bias, scale and shift rows (128 each) — and makes ONE
  store over the whole 8192 × 128 output tile:  tanh((x · w' + bias) · scale + shift),  the bias, scale and shift
  broadcast down the rows.  The output's staging buffer is read once before it is overwritten and the value read is
  never used, so the body's triple takes that buffer at ANY contents and leaves it at the stored tile, the five
  input buffers as found.  An input's staging buffer holds its block at every point, fetched there or not: where it
  is not fetched its block index has not moved.  The region's invariant is the scoped buffers no window stages
  and the generator register, untouched; nothing is owed and every array is held whole.
-/
import proofs.«163788_j32392643347009_2_alg».proof.Proof.Gen.Kernel.Launch
import proofs.«163788_j32392643347009_2_alg».proof.Proof.Gen.Kernel.Skeleton
import proofs.«163788_j32392643347009_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 of @main: custom_call 2, the final kernel (pipeline 2), at the entry contents `V` -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x8192x128 := Rect.unit (s := S1x8192x128) ![0, 0, 0] S1x8192x128.size inb_S1x8192x128_S1x8192x128_0_0_0
abbrev r2_1 : Rect S1x128x128 := Rect.unit (s := S1x128x128) ![0, 0, 0] S1x128x128.size inb_S1x128x128_S1x128x128_0_0_0
abbrev r2_2 : Rect S128 := Rect.unit (s := S128) ![0] S128.size inb_S128_S128_0

/-- Window 5's staging buffer after the body, from the input windows' blocks: its one store as a piece. -/
def out2_5 (x0 : Vec F S1x8192x128 .bf16) (x1 : Vec F S1x128x128 .bf16) (x2 x3 x4 : Vec F S128 .f32) : Vec F S1x8192x128 .f32 :=
  View.canon [⟨r2_0, k2_pay1 (View.ld x0 r2_0) (View.ld x1 r2_1) (View.ld x2 r2_2) (View.ld x3 r2_2) (View.ld x4 r2_2)⟩]

/-- The store tiles the buffer, so it covers it. -/
theorem cover2_5 (p0 : Vec F S1x8192x128 .f32) (y : S1x8192x128.Idx) :
    ∃ pc ∈ ([⟨r2_0, p0⟩] : List (View.Piece (Elt F) S1x8192x128 .f32)), y ∈ pc.1.set :=
  View.cover_of_tiled [⟨r2_0, p0⟩] S1x8192x128.size (by rfl) y

set_option maxHeartbeats 1000000 in
/-- The kernel body on whole staging memrefs, the inputs' at read contents and the output's at anything (it is
    loaded once, the value unused, before it is stored), runs to the continuation holding the inputs' as they were
    and the output's at `out2_5` of the inputs'. -/
theorem sound_kernel2 (c : Dev nD) (E : Set ℕ) (i : grid2.Coords)
    (arg0 : Memref sig .tc .vmem S1x8192x128 .bf16) (harg0 : arg0.IsWhole) (arg1 : Memref sig .tc .vmem S1x128x128 .bf16) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S1x8192x128 .f32) (harg5 : arg5.IsWhole)
    (x0 : Vec F S1x8192x128 .bf16) (x1 : Vec F S1x128x128 .bf16) (x2 x3 x4 : Vec F S128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__final_kernel i arg0 harg0 arg1 harg1 arg2 harg2 arg3 harg3 arg4 harg4 arg5 harg5) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The region's invariant at its first point is what the launch hands. -/
theorem hin2 (c : Dev nD) : Pipeline.ΦA spec2 c ⊢ (dat2 V c).Φ 0 := BI.Entails.refl _

/-- The region's invariant at its last point is what the launch takes back. -/
theorem hout2 (c : Dev nD) : (dat2 V c).Φ (Fin.last cfg2.N) ⊢ Pipeline.ΦA spec2 c := BI.Entails.refl _

end Region2

end Cert.Kernel.Hand

end
-- ==== Proof.K.Run.lean ====
/-
  The run of @main: eight segments from the launch to the return.

  @main is three stretches of host operations, region 0, a stretch, region 1, a stretch, region 2.  The contents of
  the TensorCore's buffers at each of the nine boundaries are a fold from the launch memory: after a host stretch,
  the stretch's operations applied to the contents before it; after a region, the region's arrays at what its
  write-backs leave (an input as entered, an output with each written-back block laid over it in point order) and
  every other buffer as entered.  Each region is entered from every unscoped buffer held whole at its boundary's
  contents beside the generator register and a core that owes nothing, and is left in the same form at the next
  boundary's contents.  Chained, the segments give: every weakly fair execution terminates without fault and the
  final memory holds every unscoped buffer at the last boundary's contents.  No host operation writes an argument
  and no region changes one (one argument is an input of region 2, read and never written), so the arguments end
  as launched; a region's output array ends at the fold of its write-backs.
-/
import proofs.«163788_j32392643347009_2_alg».proof.Proof.K.R0
import proofs.«163788_j32392643347009_2_alg».proof.Proof.K.R1
import proofs.«163788_j32392643347009_2_alg».proof.Proof.K.R2
import proofs.«163788_j32392643347009_2_alg».proof.Proof.Gen.Kernel.Regions

set_option maxRecDepth 16384

noncomputable section

namespace Cert.Kernel.Hand

open Cert.Kernel
open Cert.Kernel.Gen hiding V0 V1 V2 V3 V4 V5 V6 V7 V8 segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's items from the launch to the return

## The buffer contents at each item boundary: a fold through @main -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer the stretch does not write is as before it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- A buffer the stretch does not write is as before it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- A buffer the stretch does not write is as before it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- After region 0: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- A buffer the stretch does not write is as before it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

/-- After region 1: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- A buffer the stretch does not write is as before it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

/-- After region 2: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### What the value reader walks: each region's outputs at what its write-backs leave -/

theorem W4_main_v5 (c : Dev nD) : W4 m ρ c (Proc.devRef .tc main_v5) = (dat0 (V3 m ρ) c).arrAt 1 cfg0.N := W4_arr m ρ c 1
theorem W6_main_v17_0 (c : Dev nD) : W6 m ρ c (Proc.devRef .tc main_v17_0) = (dat1 (V5 m ρ) c).arrAt 2 cfg1.N := W6_arr m ρ c 2
theorem W6_main_v17_1 (c : Dev nD) : W6 m ρ c (Proc.devRef .tc main_v17_1) = (dat1 (V5 m ρ) c).arrAt 3 cfg1.N := W6_arr m ρ c 3
theorem W8_main_v37 (c : Dev nD) : W8 m ρ c (Proc.devRef .tc main_v37) = (dat2 (V7 m ρ) c).arrAt 5 cfg2.N := W8_arr m ρ c 5

/-! ### The arguments end as launched -/

/-- `main_arg0` reaches the end as launched: no host stretch writes it, no region changes it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

/-- `main_arg1` reaches the end as launched: no host stretch writes it, no region changes it. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

/-- `main_arg2` reaches the end as launched: no host stretch writes it, no region changes it. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl

/-- `main_arg3` reaches the end as launched: no host stretch writes it, no region changes it. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := (W8_arr m ρ c 2).trans (((dat2 (V7 m ρ) c).arrAt_in 2 rfl _).trans (A_eq2 (V7 m ρ) c 2))
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl

/-- `main_arg4` reaches the end as launched: no host stretch writes it, no region changes it. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl

/-- `main_arg5` reaches the end as launched: no host stretch writes it, no region changes it. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The class invariant and what the launch hands a region -/

/-- The generator register, the prefetched tables (none read) and the scoped buffers no window stages make the
    class invariant. -/
theorem phiA_of_launch {gr W : Nat} (spec : Fin W → Pipeline.WinSpec sig gr) (c : Dev nD) (P : sProp 𝕄) :
    iprop((∃ r, prngReg c r) ∗ P ∗ Pipeline.scopedRest spec c) ⊢ (Pipeline.ΦA spec c : sProp 𝕄) := by
  unfold Pipeline.ΦA
  iintro ⟨Hp, -, Hr⟩
  isplitl [Hr]; · iexact Hr
  iexact Hp

/-- The class invariant gives back the generator register and those scoped buffers. -/
theorem launch_of_phiA {gr W : Nat} (spec : Fin W → Pipeline.WinSpec sig gr) (c : Dev nD) :
    (Pipeline.ΦA spec c : sProp 𝕄) ⊢ iprop((∃ r, prngReg c r) ∗ BI.emp ∗ Pipeline.scopedRest spec c) := by
  unfold Pipeline.ΦA
  iintro ⟨Hr, Hp⟩
  isplitl [Hp]; · iexact Hp
  isplitr; · iempintro
  iexact Hr

/-! ## The regions as segments -/

set_option backward.isDefEq.respectTransparency.types false in
/-- Region 0 (custom_call 0) over the thread state: entered from every unscoped buffer at `W3`, its arrays
    split out of the unscoped buffers and put back at the exit contents; the generator register into the region's
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of_launch spec0 c _).trans (hin0 (V3 m ρ) c)
  hout c := by
    rw [Pipeline.ownSems0_none]
    exact (hout0 (V3 m ρ) c).trans (launch_of_phiA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom_call 1) over the thread state: entered from every unscoped buffer at `W5`, its arrays
    split out of the unscoped buffers and put back at the exit contents; the generator register into the region's
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of_launch spec1 c _).trans (hin1 (V5 m ρ) c)
  hout c := by
    rw [Pipeline.ownSems0_none]
    exact (hout1 (V5 m ρ) c).trans (launch_of_phiA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (custom_call 2) over the thread state: entered from every unscoped buffer at `W7`, its arrays
    split out of the unscoped buffers and put back at the exit contents; the generator register into the region's
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of_launch spec2 c _).trans (hin2 (V7 m ρ) c)
  hout c := by
    rw [Pipeline.ownSems0_none]
    exact (hout2 (V7 m ρ) c).trans (launch_of_phiA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]

set_option backward.isDefEq.respectTransparency.types false in
/-- From the launch memory with zero counters every weakly fair execution of @main on the TensorCores terminates,
    nothing faulting, and every final memory holds each unscoped buffer at the last boundary's contents; any post
    those readings give holds of every final state. -/
theorem run_post (Q : PUnit × MemSt nD τ sig (Elt F) → Prop)
    (hQ : ∀ s : MemSt nD τ sig (Elt F), (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- Every final memory holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  run_post m ρ _ fun _ h => h

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_post m ρ _ fun s h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩

/-- info: 'Cert.Kernel.Hand.frame' depends on axioms: [propext, Classical.choice, Quot.sound] -/
#guard_msgs in #print axioms frame

end Cert.Kernel.Hand

end
-- ==== Proof.KI.R0Runs.lean ====
/- Region 0 (the L1 denominator): what the three case runs of its body share — the windows' blocks at the region-entry contents, the two branch conditions in closed form over the grid, where the output window is idle, and the staging and scratch memrefs. -/
import proofs.«163788_j32392643347009_2_alg».proof.Proof.Gen.KernelIdeal.Launch
import proofs.«163788_j32392643347009_2_alg».proof.Proof.Gen.KernelIdeal.Skeleton
import proofs.«163788_j32392643347009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The first conditional's condition, from the grid coordinates: the tile index is 0. -/
abbrev cond0_0 (i : grid0.Coords) : Prop := (Scalar.cmpi .ne (Scalar.extui (Scalar.cmpi .eq (BitVec.ofNat 32 (i 1).val) 0#32)) 0#32) = 1#1
/-- It holds exactly at the points ≡ 0 (mod 3): the first tile of each batch. -/
theorem hcond0_0 : ∀ t : Fin cfg0.N, cond0_0 (grid0.coords t) ↔ t.val % 3 = 0 :=
  (by decide +kernel : ∀ t : Fin grid0.N, cond0_0 (grid0.coords t) ↔ t.val % 3 = 0)

/-- The second conditional's condition: the tile index is the last, 2. -/
abbrev cond0_1 (i : grid0.Coords) : Prop := k0_cond2 i = 1#1
/-- It holds exactly at the points ≡ 2 (mod 3): the last tile of each batch. -/
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

/-- The input window is never idle. -/
theorem liveAt0_0 : ∀ t : Fin cfg0.N, cfg0.idle 0 (grid0.coords t) = false := by decide +kernel
/-- First tile of a batch (case A): the output window is idle, -/
theorem idleAt0_1_A : ∀ t : Fin cfg0.N, cond0_0 (grid0.coords t) → ¬cond0_1 (grid0.coords t) → cfg0.idle 1 (grid0.coords t) = true := by decide +kernel
/-- and not written back. -/
theorem noFlush0_1_A : ∀ t : Fin cfg0.N, cond0_0 (grid0.coords t) → ¬cond0_1 (grid0.coords t) → (cfg0.win 1).flush t = false := by decide +kernel
/-- Middle tile (case B): the output window is idle, -/
theorem idleAt0_1_B : ∀ t : Fin cfg0.N, ¬cond0_0 (grid0.coords t) → ¬cond0_1 (grid0.coords t) → cfg0.idle 1 (grid0.coords t) = true := by decide +kernel
/-- and not written back. -/
theorem noFlush0_1_B : ∀ t : Fin cfg0.N, ¬cond0_0 (grid0.coords t) → ¬cond0_1 (grid0.coords t) → (cfg0.win 1).flush t = false := by decide +kernel
/-- Last tile (case C): the output window is live. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated (the choice does not matter). -/
abbrev VO0_1 : View sig .tc .vmem S1x1x128 .f32 := (Memref.whole cc0_stg1_0 : Memref sig .tc .vmem S1x1x128 .f32).view
/-- Each window's current staging memref at point `t`, and its wholeness. -/
abbrev ms0_0 (t : Fin cfg0.N) : Memref sig .tc .vmem S1x8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x128 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S128 .f32 := Memref.whole cc0_scratch0
/-- The same as a view: what it holds between points is stated through it. -/
abbrev VS0_0 : View sig .tc .vmem S128 .f32 := scM0_0.view

/-- The scoped rest of region 0 as: the scratch accumulator owned at some contents, every other scoped buffer that
    is no staging buffer of this region at some contents, and the generator register at some state. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The region invariant the launch hands over, with the scratch accumulator as a memref owned at some contents:
    what the body obligation hands the run and takes back. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.KernelIdeal.Hand

end
-- ==== Proof.KI.R0A.lean ====
/- Region 0, case A (first tile of a batch): the body's run on whole memrefs. The scratch is reset to zero and the tile's column sums of absolute values are added; nothing is stored into the output block. The pieces each buffer ends with are found by running the body. -/
import proofs.«163788_j32392643347009_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the pieces the body's stores leave in the output's staging memref (none) and in the scratch, with the
    body's triple on whole memrefs: the input at its contents `x0`, the idle output at contents `xi1` handed back
    untouched, the scratch at anything. -/
noncomputable def kernelRun0_A (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : cond0_0 i) (hc1 : ¬cond0_1 i)
    (x0 : Vec F S1x8192x128 .bf16) :
    Σ' (L1 : List (View.Piece (Elt F) S1x1x128 .f32)), { LS0 : List (View.Piece (Elt F) S128 .f32) //
      ∀ (xi1 : Vec F S1x1x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨[], ?_, fun xi1 E K => ?run⟩
  case run =>
    simp only [cc0__denom_kernel_eq_skeleton]; unfold cc0__denom_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.R0B.lean ====
/- Region 0, case B (middle tile of a batch): the body's run on whole memrefs. The tile's column sums of absolute values are added to the scratch; nothing is stored into the output block. -/
import proofs.«163788_j32392643347009_2_alg».proof.Proof.KI.R0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: as case A, the scratch at the contents `xs0` the point before left. -/
noncomputable def kernelRun0_B (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : ¬cond0_1 i)
    (x0 : Vec F S1x8192x128 .bf16) (xs0 : Vec F S128 .f32) :
    Σ' (L1 : List (View.Piece (Elt F) S1x1x128 .f32)), { LS0 : List (View.Piece (Elt F) S128 .f32) //
      ∀ (xi1 : Vec F S1x1x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨[], ?_, fun xi1 E K => ?run⟩
  case run =>
    simp only [cc0__denom_kernel_eq_skeleton]; unfold cc0__denom_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.R0C.lean ====
/- Region 0, case C (last tile of a batch): the body's run on whole memrefs. The tile's column sums of absolute values are added to the scratch, and the scratch is then stored to the output block. -/
import proofs.«163788_j32392643347009_2_alg».proof.Proof.KI.R0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the output's staging memref at anything, the scratch at the contents `xs0` the point before left. -/
noncomputable def kernelRun0_C (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i)
    (x0 : Vec F S1x8192x128 .bf16) (xs0 : Vec F S128 .f32) :
    Σ' (L1 : List (View.Piece (Elt F) S1x1x128 .f32)), { LS0 : List (View.Piece (Elt F) S128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__denom_kernel i arg2 harg2 arg3 harg3 arg4 harg4) K } := by
  refine ⟨?_, ?_, fun E K => ?run⟩
  case run =>
    simp only [cc0__denom_kernel_eq_skeleton]; unfold cc0__denom_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI.R0.lean ====
/- Region 0 (the L1 denominator) at the region-entry contents V: what the output block and the scratch accumulator hold case by case and point by point, the proof data, the body obligation at every point, and the invariant's two ends. -/
import proofs.«163788_j32392643347009_2_alg».proof.Proof.KI.R0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each case leaves: the found pieces read back -/

/-- Case A stores nothing into the output block: a placeholder nothing consults (the window is idle there). -/
def out0_A_1 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : cond0_0 i) (hc1 : ¬cond0_1 i) (x0 : Vec F S1x8192x128 .bf16) : Vec F S1x1x128 .f32 :=
  VO0_1.read (Elt F) (VO0_1.writes (Elt F) VO0_1.junk (kernelRun0_A c i arg2 harg2 arg3 harg3 arg4 harg4 hc0 hc1 x0).1)
/-- Case A's pieces for the scratch tile it, so they cover it. -/
theorem scover0_A_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : cond0_0 i) (hc1 : ¬cond0_1 i) (x0 : Vec F S1x8192x128 .bf16) (y : S128.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S128.size (by sl_kernel_rfl) y
/-- What case A leaves in the scratch. -/
def sout0_A_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : cond0_0 i) (hc1 : ¬cond0_1 i) (x0 : Vec F S1x8192x128 .bf16) : Vec F S128 .f32 :=
  VS0_0.read (Elt F) (VS0_0.writes (Elt F) VS0_0.junk (kernelRun0_A c i arg2 harg2 arg3 harg3 arg4 harg4 hc0 hc1 x0).2.1)

/-- Case B stores nothing into the output block either. -/
def out0_B_1 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : ¬cond0_1 i) (x0 : Vec F S1x8192x128 .bf16) (xs0 : Vec F S128 .f32) : Vec F S1x1x128 .f32 :=
  VO0_1.read (Elt F) (VO0_1.writes (Elt F) VO0_1.junk (kernelRun0_B c i arg2 harg2 arg3 harg3 arg4 harg4 hc0 hc1 x0 xs0).1)
theorem scover0_B_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : ¬cond0_1 i) (x0 : Vec F S1x8192x128 .bf16) (xs0 : Vec F S128 .f32) (y : S128.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S128.size (by sl_kernel_rfl) y
/-- What case B leaves in the scratch. -/
def sout0_B_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : ¬cond0_1 i) (x0 : Vec F S1x8192x128 .bf16) (xs0 : Vec F S128 .f32) : Vec F S128 .f32 :=
  VS0_0.read (Elt F) (VS0_0.writes (Elt F) VS0_0.junk (kernelRun0_B c i arg2 harg2 arg3 harg3 arg4 harg4 hc0 hc1 x0 xs0).2.1)

/-- Case C's one store into the output block covers it. -/
theorem cover0_C_1 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) (y : S1x1x128.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x1x128.size (by sl_kernel_rfl) y
/-- What case C leaves in the output block. -/
def out0_C_1 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) : Vec F S1x1x128 .f32 :=
  VO0_1.read (Elt F) (VO0_1.writes (Elt F) VO0_1.junk (kernelRun0_C c i arg2 harg2 arg3 harg3 arg4 harg4 hc0 hc1 x0 xs0).1)
theorem scover0_C_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) (y : S128.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S128.size (by sl_kernel_rfl) y
/-- What case C leaves in the scratch. -/
def sout0_C_0 (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) : Vec F S128 .f32 :=
  VS0_0.read (Elt F) (VS0_0.writes (Elt F) VS0_0.junk (kernelRun0_C c i arg2 harg2 arg3 harg3 arg4 harg4 hc0 hc1 x0 xs0).2.1)

/-! ## What the output block and the scratch hold after each point -/

/-- THE ACCUMULATION: the pair (output block's staging buffer, scratch) after the body at position `n`, by recursion on
    the point: the case the point is in, run on the point's input block and on the scratch the point before left. -/
def outsAt0 (c : Dev nD) : (n : ℕ) → n < cfg0.N → Vec F S1x1x128 .f32 × Vec F S128 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 3 = 0 then
      if h1 : (n + 1) % 3 = 2 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 3 = 2 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at a point of case A. -/
theorem outsAt0_A (c : Dev nD) (t : Fin cfg0.N) (h0 : t.val % 3 = 0) (h1 : ¬t.val % 3 = 2) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a point of case B, over what the point before left. -/
theorem outsAt0_B (c : Dev nD) (t : Fin cfg0.N) (h0 : ¬t.val % 3 = 0) (h1 : ¬t.val % 3 = 2) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C, over what the point before left. -/
theorem outsAt0_C (c : Dev nD) (t : Fin cfg0.N) (h0 : ¬t.val % 3 = 0) (h1 : t.val % 3 = 2) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the same with the scratch at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The proof data -/

/-- The proof data of region 0 on core `c`: the arrays at the region-entry contents; after the body at point `t` the
    input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which case the point is in; the
    invariant hands the body the scratch at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 48 := lt_of_lt_of_eq t.isLt (show cfg0.N = 48 from N_0)
  by_cases h0 : t.val % 3 = 0
  · by_cases h1 : t.val % 3 = 2
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
      · rw [PhiS0_castSucc V c t, PhiS0_pos V c _ _ hz]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
  · by_cases h1 : t.val % 3 = 2
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _)
            iexact HR
          iexact Hg
        isplitl [Ho]; · iexact Ho
        isplitl [H0]; · iexact H0
        iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 48 := N_0; omega)

end Region0

end Cert.KernelIdeal.Hand

end
-- ==== Proof.KI.R1Run.lean ====
/- Region 1 (the batch-norm statistics kernel): what its three cases share — the branch conditions decided over the grid, where
   the output windows are idle, the staging and scratch memrefs, the class invariant with the two scratch buffers split out — and
   the body's run in each case. -/
import proofs.«163788_j32392643347009_2_alg».proof.Proof.Gen.KernelIdeal.Launch
import proofs.«163788_j32392643347009_2_alg».proof.Proof.Gen.KernelIdeal.Skeleton
import proofs.«163788_j32392643347009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The condition of the body's first conditional, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 3). -/
theorem hcond1_0 : ∀ t : Fin cfg1.N, cond1_0 (grid1.coords t) ↔ t.val % 3 = 0 :=
  (by decide +kernel : ∀ t : Fin grid1.N, cond1_0 (grid1.coords t) ↔ t.val % 3 = 0)
/-- The condition of the body's second conditional. -/
abbrev cond1_1 (i : grid1.Coords) : Prop := k1_cond2 i = 1#1
/-- It holds at the points ≡ 2 (mod 3). -/
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the points of case A the configuration calls output 2 idle, and the pipeline does not write its block back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At the points of case A the configuration calls output 3 idle, and the pipeline does not write its block back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the points of case B the configuration calls output 2 idle, and the pipeline does not write its block back. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the points of case B the configuration calls output 3 idle, and the pipeline does not write its block back. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points of case C output 2 is live. -/
theorem liveAt1_2_C : ∀ t : Fin cfg1.N, ¬cond1_0 (grid1.coords t) → cond1_1 (grid1.coords t) → cfg1.idle 2 (grid1.coords t) = false := by decide +kernel
/-- At the points of case C output 3 is live. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of each output window, through which its contents are stated. -/
abbrev VO1_2 : View sig .tc .vmem S1x1x128 .f32 := (Memref.whole cc1_stg2_0 : Memref sig .tc .vmem S1x1x128 .f32).view
abbrev VO1_3 : View sig .tc .vmem S1x1x128 .f32 := (Memref.whole cc1_stg3_0 : Memref sig .tc .vmem S1x1x128 .f32).view
/-- Each window's current staging memref at point `t`, as the pipeline passes it, and its wholeness. -/
abbrev ms1_0 (t : Fin cfg1.N) : Memref sig .tc .vmem S1x8192x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
/-- The two scratch operands: whole scoped buffers of the kernel's own, both carried between points. -/
abbrev scM1_0 : Memref sig .tc .vmem S128 .f32 := Memref.whole cc1_scratch0
abbrev scM1_1 : Memref sig .tc .vmem S128 .f32 := Memref.whole cc1_scratch1
abbrev VS1_0 : View sig .tc .vmem S128 .f32 := scM1_0.view
abbrev VS1_1 : View sig .tc .vmem S128 .f32 := scM1_1.view

/-! ## The region's invariant with the two scratch buffers split out -/

/-- A scoped buffer of the core, whole at some contents. -/
abbrev anyAt1 (c : Dev nD) (b : Ref sig .tc) : sProp 𝕄 :=
  iprop(∃ f : Buf (Elt F) ((c : Thread nD τ).loc b), ((c : Thread nD τ).loc b) ↦{fullShare} f)

/-- The scoped buffers listed after the two scratch buffers, each at some contents. -/
def scopedTail1 (c : Dev nD) : sProp 𝕄 :=
  iprop(anyAt1 c cc2_stg0_0 ∗ anyAt1 c cc2_stg0_1 ∗ anyAt1 c cc2_stg1_0 ∗ anyAt1 c cc2_stg1_1 ∗ anyAt1 c cc2_stg2_0 ∗ anyAt1 c cc2_stg3_0 ∗ anyAt1 c cc2_stg4_0 ∗ anyAt1 c cc2_stg5_0 ∗ anyAt1 c cc2_stg5_1)

/-- The core's scoped buffers that are no staging buffer of this region, the two scratch buffers at `P0`, `P1` and every
    other one at some contents. -/
def scopedWith1 (c : Dev nD) (P0 P1 : sProp 𝕄) : sProp 𝕄 :=
  iprop(anyAt1 c cc0_stg0_0 ∗ anyAt1 c cc0_stg0_1 ∗ anyAt1 c cc0_stg1_0 ∗ anyAt1 c cc0_stg1_1 ∗ anyAt1 c cc0_scratch0 ∗ P0 ∗ P1 ∗ scopedTail1 c)

/-- The class invariant with the scratch operands as memrefs owned at some contents. -/
theorem PhiA1_eq (c : Dev nD) :
    (Pipeline.ΦA spec1 c : sProp 𝕄)
      = iprop(scopedWith1 c iprop(∃ d, owns (c : Thread nD τ) scM1_0 fullShare d) iprop(∃ d, owns (c : Thread nD τ) scM1_1 fullShare d) ∗ (∃ r, prngReg c r)) := by
  unfold Pipeline.ΦA scopedWith1 scopedTail1; rw [scopedRest1_eq]; simp only [scM1_0, scM1_1, owns_whole]; try rfl

set_option maxHeartbeats 1000000 in
/-- The body IN CASE A (first conditional taken, second not: the points ≡ 0 mod 3): on whole staging memrefs — the inputs' at their
    contents, the two outputs' (idle there) at contents handed back untouched, both scratch buffers at anything — it runs to the
    continuation holding the inputs' as they were and each scratch buffer with its pieces written. The pieces are the witness the
    run finds. -/
noncomputable def kernelRun1_A (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) :
    Σ' (L2 : List (View.Piece (Elt F) S1x1x128 .f32)) (L3 : List (View.Piece (Elt F) S1x1x128 .f32)) (LS0 : List (View.Piece (Elt F) S128 .f32)), { LS1 : List (View.Piece (Elt F) S128 .f32) //
      ∀ (xi2 : Vec F S1x1x128 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨[], [], ?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- The body IN CASE B (neither conditional taken: the points ≡ 1 mod 3): the inputs' memrefs at their contents, the two outputs'
    (idle there) handed back untouched, both scratch buffers at what the point before left. -/
noncomputable def kernelRun1_B (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) :
    Σ' (L2 : List (View.Piece (Elt F) S1x1x128 .f32)) (L3 : List (View.Piece (Elt F) S1x1x128 .f32)) (LS0 : List (View.Piece (Elt F) S128 .f32)), { LS1 : List (View.Piece (Elt F) S128 .f32) //
      ∀ (xi2 : Vec F S1x1x128 .f32) (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨[], [], ?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- The body IN CASE C (first conditional not taken, second taken: the points ≡ 2 mod 3): the inputs' memrefs at their contents,
    the two outputs' at anything, both scratch buffers at what the point before left; every output and scratch buffer ends with its
    pieces written. -/
noncomputable def kernelRun1_C (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) :
    Σ' (L2 : List (View.Piece (Elt F) S1x1x128 .f32)) (L3 : List (View.Piece (Elt F) S1x1x128 .f32)) (LS0 : List (View.Piece (Elt F) S128 .f32)), { LS1 : List (View.Piece (Elt F) S128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stats_kernel i arg2 harg2 arg3 harg3 arg4 harg4 arg5 harg5 arg6 harg6 arg7 harg7) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.R1.lean ====
/- Region 1 (the batch-norm statistics kernel) at the entry contents `V`: what its outputs and its two scratch buffers hold case
   by case and point by point, the proof data, the body obligation, and the invariant's two ends. -/
import proofs.«163788_j32392643347009_2_alg».proof.Proof.KI.R1Run

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose array
    is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A stores nothing into output 2 (idle at its points and not written back there): a placeholder nothing consults. -/
def out1_A_2 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) : Vec F S1x1x128 .f32 :=
  VO1_2.read (Elt F) (VO1_2.writes (Elt F) VO1_2.junk (kernelRun1_A c i arg2 harg2 arg3 harg3 arg4 harg4 arg5 harg5 arg6 harg6 arg7 harg7 hc0 hc1 x0 x1).1)

/-- Case A stores nothing into output 3 (idle at its points and not written back there): a placeholder nothing consults. -/
def out1_A_3 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) : Vec F S1x1x128 .f32 :=
  VO1_3.read (Elt F) (VO1_3.writes (Elt F) VO1_3.junk (kernelRun1_A c i arg2 harg2 arg3 harg3 arg4 harg4 arg5 harg5 arg6 harg6 arg7 harg7 hc0 hc1 x0 x1).2.1)

/-- Case A's pieces for scratch buffer 0 cover it. -/
theorem scover1_A_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) (y : S128.Idx) :
    ∃ pc ∈ (kernelRun1_A c i arg2 harg2 arg3 harg3 arg4 harg4 arg5 harg5 arg6 harg6 arg7 harg7 hc0 hc1 x0 x1).2.2.1, y ∈ pc.1.set :=
  View.cover_of_tiledL (kernelRun1_A c i arg2 harg2 arg3 harg3 arg4 harg4 arg5 harg5 arg6 harg6 arg7 harg7 hc0 hc1 x0 x1).2.2.1 S128.size (by sl_kernel_rfl) y

/-- What case A leaves in scratch buffer 0: its pieces read back over junk. -/
def sout1_A_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) : Vec F S128 .f32 :=
  VS1_0.read (Elt F) (VS1_0.writes (Elt F) VS1_0.junk (kernelRun1_A c i arg2 harg2 arg3 harg3 arg4 harg4 arg5 harg5 arg6 harg6 arg7 harg7 hc0 hc1 x0 x1).2.2.1)

/-- Case A's pieces for scratch buffer 1 cover it. -/
theorem scover1_A_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) (y : S128.Idx) :
    ∃ pc ∈ (kernelRun1_A c i arg2 harg2 arg3 harg3 arg4 harg4 arg5 harg5 arg6 harg6 arg7 harg7 hc0 hc1 x0 x1).2.2.2.1, y ∈ pc.1.set :=
  View.cover_of_tiledL (kernelRun1_A c i arg2 harg2 arg3 harg3 arg4 harg4 arg5 harg5 arg6 harg6 arg7 harg7 hc0 hc1 x0 x1).2.2.2.1 S128.size (by sl_kernel_rfl) y

/-- What case A leaves in scratch buffer 1: its pieces read back over junk. -/
def sout1_A_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) : Vec F S128 .f32 :=
  VS1_1.read (Elt F) (VS1_1.writes (Elt F) VS1_1.junk (kernelRun1_A c i arg2 harg2 arg3 harg3 arg4 harg4 arg5 harg5 arg6 harg6 arg7 harg7 hc0 hc1 x0 x1).2.2.2.1)

/-- Case B stores nothing into output 2 (idle at its points and not written back there): a placeholder nothing consults. -/
def out1_B_2 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) : Vec F S1x1x128 .f32 :=
  VO1_2.read (Elt F) (VO1_2.writes (Elt F) VO1_2.junk (kernelRun1_B c i arg2 harg2 arg3 harg3 arg4 harg4 arg5 harg5 arg6 harg6 arg7 harg7 hc0 hc1 x0 x1 xs0 xs1).1)

/-- Case B stores nothing into output 3 (idle at its points and not written back there): a placeholder nothing consults. -/
def out1_B_3 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) : Vec F S1x1x128 .f32 :=
  VO1_3.read (Elt F) (VO1_3.writes (Elt F) VO1_3.junk (kernelRun1_B c i arg2 harg2 arg3 harg3 arg4 harg4 arg5 harg5 arg6 harg6 arg7 harg7 hc0 hc1 x0 x1 xs0 xs1).2.1)

/-- Case B's pieces for scratch buffer 0 cover it. -/
theorem scover1_B_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) (y : S128.Idx) :
    ∃ pc ∈ (kernelRun1_B c i arg2 harg2 arg3 harg3 arg4 harg4 arg5 harg5 arg6 harg6 arg7 harg7 hc0 hc1 x0 x1 xs0 xs1).2.2.1, y ∈ pc.1.set :=
  View.cover_of_tiledL (kernelRun1_B c i arg2 harg2 arg3 harg3 arg4 harg4 arg5 harg5 arg6 harg6 arg7 harg7 hc0 hc1 x0 x1 xs0 xs1).2.2.1 S128.size (by sl_kernel_rfl) y

/-- What case B leaves in scratch buffer 0: its pieces read back over junk. -/
def sout1_B_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) : Vec F S128 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1).2.2.1)

/-- Case B's pieces for scratch buffer 1 cover it. -/
theorem scover1_B_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) (y : S128.Idx) :
    ∃ pc ∈ (kernelRun1_B c i arg2 harg2 arg3 harg3 arg4 harg4 arg5 harg5 arg6 harg6 arg7 harg7 hc0 hc1 x0 x1 xs0 xs1).2.2.2.1, y ∈ pc.1.set :=
  View.cover_of_tiledL (kernelRun1_B c i arg2 harg2 arg3 harg3 arg4 harg4 arg5 harg5 arg6 harg6 arg7 harg7 hc0 hc1 x0 x1 xs0 xs1).2.2.2.1 S128.size (by sl_kernel_rfl) y

/-- What case B leaves in scratch buffer 1: its pieces read back over junk. -/
def sout1_B_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 : Vec F S128 .f32) (xs1 : Vec F S128 .f32) : Vec F S128 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1).2.2.2.1)

/-- Case C's pieces for output 2 tile its block, so they cover it. -/
theorem cover1_C_2 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) (y : S1x1x128.Idx) :
    ∃ pc ∈ (kernelRun1_C c i arg2 harg2 arg3 harg3 arg4 harg4 arg5 harg5 arg6 harg6 arg7 harg7 hc0 hc1 x0 x1 xs0 xs1).1, y ∈ pc.1.set :=
  View.cover_of_tiledL (kernelRun1_C c i arg2 harg2 arg3 harg3 arg4 harg4 arg5 harg5 arg6 harg6 arg7 harg7 hc0 hc1 x0 x1 xs0 xs1).1 S1x1x128.size (by sl_kernel_rfl) y

/-- What case C leaves in output 2's staging buffer: its pieces read back over junk. -/
def out1_C_2 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) : Vec F S1x1x128 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1).1)

/-- Case C's pieces for output 3 tile its block, so they cover it. -/
theorem cover1_C_3 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) (y : S1x1x128.Idx) :
    ∃ pc ∈ (kernelRun1_C c i arg2 harg2 arg3 harg3 arg4 harg4 arg5 harg5 arg6 harg6 arg7 harg7 hc0 hc1 x0 x1 xs0 xs1).2.1, y ∈ pc.1.set :=
  View.cover_of_tiledL (kernelRun1_C c i arg2 harg2 arg3 harg3 arg4 harg4 arg5 harg5 arg6 harg6 arg7 harg7 hc0 hc1 x0 x1 xs0 xs1).2.1 S1x1x128.size (by sl_kernel_rfl) y

/-- What case C leaves in output 3's staging buffer: its pieces read back over junk. -/
def out1_C_3 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) : Vec F S1x1x128 .f32 :=
  VO1_3.read (Elt F) (VO1_3.writes (Elt F) VO1_3.junk (kernelRun1_C c i arg2 harg2 arg3 harg3 arg4 harg4 arg5 harg5 arg6 harg6 arg7 harg7 hc0 hc1 x0 x1 xs0 xs1).2.1)

/-- Case C's pieces for scratch buffer 0 cover it. -/
theorem scover1_C_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) (y : S128.Idx) :
    ∃ pc ∈ (kernelRun1_C c i arg2 harg2 arg3 harg3 arg4 harg4 arg5 harg5 arg6 harg6 arg7 harg7 hc0 hc1 x0 x1 xs0 xs1).2.2.1, y ∈ pc.1.set :=
  View.cover_of_tiledL (kernelRun1_C c i arg2 harg2 arg3 harg3 arg4 harg4 arg5 harg5 arg6 harg6 arg7 harg7 hc0 hc1 x0 x1 xs0 xs1).2.2.1 S128.size (by sl_kernel_rfl) y

/-- What case C leaves in scratch buffer 0: its pieces read back over junk. -/
def sout1_C_0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) : Vec F S128 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1).2.2.1)

/-- Case C's pieces for scratch buffer 1 cover it. -/
theorem scover1_C_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) (y : S128.Idx) :
    ∃ pc ∈ (kernelRun1_C c i arg2 harg2 arg3 harg3 arg4 harg4 arg5 harg5 arg6 harg6 arg7 harg7 hc0 hc1 x0 x1 xs0 xs1).2.2.2.1, y ∈ pc.1.set :=
  View.cover_of_tiledL (kernelRun1_C c i arg2 harg2 arg3 harg3 arg4 harg4 arg5 harg5 arg6 harg6 arg7 harg7 hc0 hc1 x0 x1 xs0 xs1).2.2.2.1 S128.size (by sl_kernel_rfl) y

/-- What case C leaves in scratch buffer 1: its pieces read back over junk. -/
def sout1_C_1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 : Vec F S128 .f32) (xs1 : Vec F S128 .f32) : Vec F S128 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1).2.2.2.1)

/-! ## What the outputs and the scratch buffers hold after each point -/

/-- What the two outputs' staging buffers and the two scratch buffers hold after the body at position `n` (a tuple: output 2,
    output 3, scratch 0, scratch 1): the case the closed forms select at `n`, run at the point's memrefs and input blocks, the
    scratch buffers it reads before covering at what the point before left. -/
def outsAt1 (c : Dev nD) : (n : ℕ) → n < cfg1.N → Vec F S1x1x128 .f32 × Vec F S1x1x128 .f32 × Vec F S128 .f32 × Vec F S128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 3 = 0 then
      if h1 : (n + 1) % 3 = 2 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 3 = 2 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 3 = 0) (h1 : ¬t.val % 3 = 2) :
    outsAt1 V c t.val t.isLt = (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 3 = 0) (h1 : ¬t.val % 3 = 2) :
    outsAt1 V c t.val t.isLt = (out1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 3 = 0) (h1 : t.val % 3 = 2) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch buffer at anything); afterwards the
    scoped rest with the two scratch buffers at what the point before left in them, and the generator register at some state. -/
def PhiS1 (c : Dev nD) : (n : ℕ) → n ≤ cfg1.N → sProp 𝕄
  | 0, _ => Pipeline.ΦA spec1 c
  | n + 1, hn => iprop(scopedWith1 c (owns (c : Thread nD τ) scM1_0 fullShare (outsAt1 V c n hn).2.2.1) (owns (c : Thread nD τ) scM1_1 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(scopedWith1 c (owns (c : Thread nD τ) scM1_0 fullShare (outsAt1 V c n hn).2.2.1) (owns (c : Thread nD τ) scM1_1 fullShare (outsAt1 V c n hn).2.2.2) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(scopedWith1 c (owns (c : Thread nD τ) scM1_0 fullShare (outsAt1 V c (n - 1) (by omega)).2.2.1) (owns (c : Thread nD τ) scM1_1 fullShare (outsAt1 V c (n - 1) (by omega)).2.2.2) ∗ (∃ r, prngReg c r)) := by
  cases n with
  | zero => exact absurd rfl hz
  | succ n => rfl

/-! ## The pipeline's proof data -/

/-- The proof data of the region's pipeline on core `c`: the arrays as the region finds them (`V`); after the body at point `t`
    each input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the invariant
    hands the body the two scratch buffers at what the point before left (at anything at the first point) and takes them back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 48 := lt_of_lt_of_eq t.isLt (show cfg1.N = 48 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  by_cases h0 : t.val % 3 = 0
  · by_cases h1 : t.val % 3 = 2
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        unfold scopedWith1
        iintro ⟨⟨⟨Hb1, Hb2, Hb3, Hb4, Hb5, HS0, HS1, HT⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [Hb1 Hb2 Hb3 Hb4 Hb5 HS0 HS1 HT Hg]
        · isplitl [Hb1 Hb2 Hb3 Hb4 Hb5 HS0 HS1 HT]
          · isplitl [Hb1]; · iexact Hb1
            isplitl [Hb2]; · iexact Hb2
            isplitl [Hb3]; · iexact Hb3
            isplitl [Hb4]; · iexact Hb4
            isplitl [Hb5]; · iexact Hb5
            isplitl [HS0]
            · unfold owns; iexists _; isplitr
              swap; · iexact HS0
              ipureintro; exact View.read_writes_of_cover _ _ _ _ _ (scover1_A_0 c _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _)
            iexact HT
          iexact Hg
        isplitl [Ho]; · iexact Ho
        isplitl [H0]; · iexact H0
        isplitl [H1]; · iexact H1
        isplitl [H2]; · iexists _; iexact H2
        iexists _; iexact H3
      · rw [PhiS1_castSucc V c t, PhiS1_pos V c _ _ hz]
        unfold scopedWith1
        iintro ⟨⟨⟨Hb1, Hb2, Hb3, Hb4, Hb5, HS0, HS1, HT⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [Hb1 Hb2 Hb3 Hb4 Hb5 HS0 HS1 HT Hg]
        · isplitl [Hb1 Hb2 Hb3 Hb4 Hb5 HS0 HS1 HT]
          · isplitl [Hb1]; · iexact Hb1
            isplitl [Hb2]; · iexact Hb2
            isplitl [Hb3]; · iexact Hb3
            isplitl [Hb4]; · iexact Hb4
            isplitl [Hb5]; · iexact Hb5
            isplitl [HS0]
            · unfold owns; iexists _; isplitr
              swap; · iexact HS0
              ipureintro; exact View.read_writes_of_cover _ _ _ _ _ (scover1_A_0 c _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _)
            iexact HT
          iexact Hg
        isplitl [Ho]; · iexact Ho
        isplitl [H0]; · iexact H0
        isplitl [H1]; · iexact H1
        isplitl [H2]; · iexists _; iexact H2
        iexists _; iexact H3
  · by_cases h1 : t.val % 3 = 2
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_2 out1_C_3 sout1_C_0 sout1_C_1; (try dsimp only)
      have hz : t.val ≠ 0 := by omega
      rw [PhiS1_castSucc V c t, PhiS1_pos V c _ _ hz]
      unfold scopedWith1
      iintro ⟨⟨⟨Hb1, Hb2, Hb3, Hb4, Hb5, HS0, HS1, HT⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [Hb1 Hb2 Hb3 Hb4 Hb5 HS0 HS1 HT Hg]
      · isplitl [Hb1 Hb2 Hb3 Hb4 Hb5 HS0 HS1 HT]
        · isplitl [Hb1]; · iexact Hb1
          isplitl [Hb2]; · iexact Hb2
          isplitl [Hb3]; · iexact Hb3
          isplitl [Hb4]; · iexact Hb4
          isplitl [Hb5]; · iexact Hb5
          isplitl [HS0]
          · unfold owns; iexists _; isplitr
            swap; · iexact HS0
            ipureintro; exact View.read_writes_of_cover _ _ _ _ _ (scover1_C_0 c _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _)
          iexact HT
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      have hz : t.val ≠ 0 := by omega
      rw [PhiS1_castSucc V c t, PhiS1_pos V c _ _ hz]
      unfold scopedWith1
      iintro ⟨⟨⟨Hb1, Hb2, Hb3, Hb4, Hb5, HS0, HS1, HT⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [Hb1 Hb2 Hb3 Hb4 Hb5 HS0 HS1 HT Hg]
      · isplitl [Hb1 Hb2 Hb3 Hb4 Hb5 HS0 HS1 HT]
        · isplitl [Hb1]; · iexact Hb1
          isplitl [Hb2]; · iexact Hb2
          isplitl [Hb3]; · iexact Hb3
          isplitl [Hb4]; · iexact Hb4
          isplitl [Hb5]; · iexact Hb5
          isplitl [HS0]
          · unfold owns; iexists _; isplitr
            swap; · iexact HS0
            ipureintro; exact View.read_writes_of_cover _ _ _ _ _ (scover1_B_0 c _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _)
          iexact HT
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scopedWith1
  iintro ⟨⟨Hb1, Hb2, Hb3, Hb4, Hb5, HS0, HS1, HT⟩, Hg⟩
  isplitl [Hb1 Hb2 Hb3 Hb4 Hb5 HS0 HS1 HT]
  · isplitl [Hb1]; · iexact Hb1
    isplitl [Hb2]; · iexact Hb2
    isplitl [Hb3]; · iexact Hb3
    isplitl [Hb4]; · iexact Hb4
    isplitl [Hb5]; · iexact Hb5
    isplitl [HS0]; · iexists _; iexact HS0
    isplitl [HS1]; · iexists _; iexact HS1
    iexact HT
  iexact Hg

/-- The same after the last point. -/
theorem hout1 (c : Dev nD) : (dat1 V c).Φ (Fin.last cfg1.N) ⊢ Pipeline.ΦA spec1 c :=
  Phi_out1 V c _ (by rw [Fin.val_last]; have : cfg1.N = 48 := N_1; omega)

end Cert.KernelIdeal.Hand

end
-- ==== Proof.KI.R2.lean ====
/-
  Region 2: the final kernel, at any entry contents of the TensorCore's buffers.

  At grid point t (batch t / 3, tile t % 3) the body reads five blocks — the tile's 8192 rows x of the batch
  (8192 × 128), the batch's matrix w' (128 × 128), and the bias, scale and shift rows (128 each) — and makes ONE
  store over the whole 8192 × 128 output tile:  tanh((x · w' + bias) · scale + shift),  the bias, scale and shift
  broadcast down the rows.  The output's staging buffer is read once before it is overwritten and the value read is
  never used, so the body's triple takes that buffer at ANY contents and leaves it at the stored tile, the five
  input buffers as found.  An input's staging buffer holds its block at every point, fetched there or not: where it
  is not fetched its block index has not moved.  The region's invariant is the scoped buffers no window stages
  and the generator register, untouched; nothing is owed and every array is held whole.
-/
import proofs.«163788_j32392643347009_2_alg».proof.Proof.Gen.KernelIdeal.Launch
import proofs.«163788_j32392643347009_2_alg».proof.Proof.Gen.KernelIdeal.Skeleton
import proofs.«163788_j32392643347009_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 of @main: custom_call 2, the final kernel (pipeline 2), at the entry contents `V` -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x8192x128 := Rect.unit (s := S1x8192x128) ![0, 0, 0] S1x8192x128.size inb_S1x8192x128_S1x8192x128_0_0_0
abbrev r2_1 : Rect S1x128x128 := Rect.unit (s := S1x128x128) ![0, 0, 0] S1x128x128.size inb_S1x128x128_S1x128x128_0_0_0
abbrev r2_2 : Rect S128 := Rect.unit (s := S128) ![0] S128.size inb_S128_S128_0

/-- Window 5's staging buffer after the body, from the input windows' blocks: its one store as a piece. -/
def out2_5 (x0 : Vec F S1x8192x128 .bf16) (x1 : Vec F S1x128x128 .bf16) (x2 x3 x4 : Vec F S128 .f32) : Vec F S1x8192x128 .f32 :=
  View.canon [⟨r2_0, k2_pay1 (View.ld x0 r2_0) (View.ld x1 r2_1) (View.ld x2 r2_2) (View.ld x3 r2_2) (View.ld x4 r2_2)⟩]

/-- The store tiles the buffer, so it covers it. -/
theorem cover2_5 (p0 : Vec F S1x8192x128 .f32) (y : S1x8192x128.Idx) :
    ∃ pc ∈ ([⟨r2_0, p0⟩] : List (View.Piece (Elt F) S1x8192x128 .f32)), y ∈ pc.1.set :=
  View.cover_of_tiled [⟨r2_0, p0⟩] S1x8192x128.size (by rfl) y

set_option maxHeartbeats 1000000 in
/-- The kernel body on whole staging memrefs, the inputs' at read contents and the output's at anything (it is
    loaded once, the value unused, before it is stored), runs to the continuation holding the inputs' as they were
    and the output's at `out2_5` of the inputs'. -/
theorem sound_kernel2 (c : Dev nD) (E : Set ℕ) (i : grid2.Coords)
    (arg0 : Memref sig .tc .vmem S1x8192x128 .bf16) (harg0 : arg0.IsWhole) (arg1 : Memref sig .tc .vmem S1x128x128 .bf16) (harg1 : arg1.IsWhole)
    (arg2 : Memref sig .tc .vmem S128 .f32) (harg2 : arg2.IsWhole) (arg3 : Memref sig .tc .vmem S128 .f32) (harg3 : arg3.IsWhole)
    (arg4 : Memref sig .tc .vmem S128 .f32) (harg4 : arg4.IsWhole) (arg5 : Memref sig .tc .vmem S1x8192x128 .f32) (harg5 : arg5.IsWhole)
    (x0 : Vec F S1x8192x128 .bf16) (x1 : Vec F S1x128x128 .bf16) (x2 x3 x4 : Vec F S128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__final_kernel i arg0 harg0 arg1 harg1 arg2 harg2 arg3 harg3 arg4 harg4 arg5 harg5) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The region's invariant at its first point is what the launch hands. -/
theorem hin2 (c : Dev nD) : Pipeline.ΦA spec2 c ⊢ (dat2 V c).Φ 0 := BI.Entails.refl _

/-- The region's invariant at its last point is what the launch takes back. -/
theorem hout2 (c : Dev nD) : (dat2 V c).Φ (Fin.last cfg2.N) ⊢ Pipeline.ΦA spec2 c := BI.Entails.refl _

end Region2

end Cert.KernelIdeal.Hand

end
-- ==== Proof.KI.Run.lean ====
/-
  The run of @main: eight segments from the launch to the return.

  @main is three stretches of host operations, region 0, a stretch, region 1, a stretch, region 2.  The contents of
  the TensorCore's buffers at each of the nine boundaries are a fold from the launch memory: after a host stretch,
  the stretch's operations applied to the contents before it; after a region, the region's arrays at what its
  write-backs leave (an input as entered, an output with each written-back block laid over it in point order) and
  every other buffer as entered.  Each region is entered from every unscoped buffer held whole at its boundary's
  contents beside the generator register and a core that owes nothing, and is left in the same form at the next
  boundary's contents.  Chained, the segments give: every weakly fair execution terminates without fault and the
  final memory holds every unscoped buffer at the last boundary's contents.  No host operation writes an argument
  and no region changes one (one argument is an input of region 2, read and never written), so the arguments end
  as launched; a region's output array ends at the fold of its write-backs.
-/
import proofs.«163788_j32392643347009_2_alg».proof.Proof.KI.R0
import proofs.«163788_j32392643347009_2_alg».proof.Proof.KI.R1
import proofs.«163788_j32392643347009_2_alg».proof.Proof.KI.R2
import proofs.«163788_j32392643347009_2_alg».proof.Proof.Gen.KernelIdeal.Regions

set_option maxRecDepth 16384

noncomputable section

namespace Cert.KernelIdeal.Hand

open Cert.KernelIdeal
open Cert.KernelIdeal.Gen hiding V0 V1 V2 V3 V4 V5 V6 V7 V8 segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's items from the launch to the return

## The buffer contents at each item boundary: a fold through @main -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer the stretch does not write is as before it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- A buffer the stretch does not write is as before it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- A buffer the stretch does not write is as before it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- After region 0: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- A buffer the stretch does not write is as before it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

/-- After region 1: its arrays at what the pipeline leaves (the inputs as entered, each output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host stretch `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- A buffer the stretch does not write is as before it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

/-- After region 2: its arrays at what the pipeline leaves (the inputs as entered, each output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### What the value reader walks: each region's outputs at what its write-backs leave -/

theorem W4_main_v5 (c : Dev nD) : W4 m ρ c (Proc.devRef .tc main_v5) = (dat0 (V3 m ρ) c).arrAt 1 cfg0.N := W4_arr m ρ c 1
theorem W6_main_v17_0 (c : Dev nD) : W6 m ρ c (Proc.devRef .tc main_v17_0) = (dat1 (V5 m ρ) c).arrAt 2 cfg1.N := W6_arr m ρ c 2
theorem W6_main_v17_1 (c : Dev nD) : W6 m ρ c (Proc.devRef .tc main_v17_1) = (dat1 (V5 m ρ) c).arrAt 3 cfg1.N := W6_arr m ρ c 3
theorem W8_main_v37 (c : Dev nD) : W8 m ρ c (Proc.devRef .tc main_v37) = (dat2 (V7 m ρ) c).arrAt 5 cfg2.N := W8_arr m ρ c 5

/-! ### The arguments end as launched -/

/-- `main_arg0` reaches the end as launched: no host stretch writes it, no region changes it. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

/-- `main_arg1` reaches the end as launched: no host stretch writes it, no region changes it. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

/-- `main_arg2` reaches the end as launched: no host stretch writes it, no region changes it. -/
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl

/-- `main_arg3` reaches the end as launched: no host stretch writes it, no region changes it. -/
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := (W8_arr m ρ c 2).trans (((dat2 (V7 m ρ) c).arrAt_in 2 rfl _).trans (A_eq2 (V7 m ρ) c 2))
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl

/-- `main_arg4` reaches the end as launched: no host stretch writes it, no region changes it. -/
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl

/-- `main_arg5` reaches the end as launched: no host stretch writes it, no region changes it. -/
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The class invariant and what the launch hands a region -/

/-- The generator register, the prefetched tables (none read) and the scoped buffers no window stages make the
    class invariant. -/
theorem phiA_of_launch {gr W : Nat} (spec : Fin W → Pipeline.WinSpec sig gr) (c : Dev nD) (P : sProp 𝕄) :
    iprop((∃ r, prngReg c r) ∗ P ∗ Pipeline.scopedRest spec c) ⊢ (Pipeline.ΦA spec c : sProp 𝕄) := by
  unfold Pipeline.ΦA
  iintro ⟨Hp, -, Hr⟩
  isplitl [Hr]; · iexact Hr
  iexact Hp

/-- The class invariant gives back the generator register and those scoped buffers. -/
theorem launch_of_phiA {gr W : Nat} (spec : Fin W → Pipeline.WinSpec sig gr) (c : Dev nD) :
    (Pipeline.ΦA spec c : sProp 𝕄) ⊢ iprop((∃ r, prngReg c r) ∗ BI.emp ∗ Pipeline.scopedRest spec c) := by
  unfold Pipeline.ΦA
  iintro ⟨Hr, Hp⟩
  isplitl [Hp]; · iexact Hp
  isplitr; · iempintro
  iexact Hr

/-! ## The regions as segments -/

set_option backward.isDefEq.respectTransparency.types false in
/-- Region 0 (custom_call 0) over the thread state: entered from every unscoped buffer at `W3`, its arrays
    split out of the unscoped buffers and put back at the exit contents; the generator register into the region's
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of_launch spec0 c _).trans (hin0 (V3 m ρ) c)
  hout c := by
    rw [Pipeline.ownSems0_none]
    exact (hout0 (V3 m ρ) c).trans (launch_of_phiA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom_call 1) over the thread state: entered from every unscoped buffer at `W5`, its arrays
    split out of the unscoped buffers and put back at the exit contents; the generator register into the region's
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of_launch spec1 c _).trans (hin1 (V5 m ρ) c)
  hout c := by
    rw [Pipeline.ownSems0_none]
    exact (hout1 (V5 m ρ) c).trans (launch_of_phiA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (custom_call 2) over the thread state: entered from every unscoped buffer at `W7`, its arrays
    split out of the unscoped buffers and put back at the exit contents; the generator register into the region's
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of_launch spec2 c _).trans (hin2 (V7 m ρ) c)
  hout c := by
    rw [Pipeline.ownSems0_none]
    exact (hout2 (V7 m ρ) c).trans (launch_of_phiA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]

set_option backward.isDefEq.respectTransparency.types false in
/-- From the launch memory with zero counters every weakly fair execution of @main on the TensorCores terminates,
    nothing faulting, and every final memory holds each unscoped buffer at the last boundary's contents; any post
    those readings give holds of every final state. -/
theorem run_post (Q : PUnit × MemSt nD τ sig (Elt F) → Prop)
    (hQ : ∀ s : MemSt nD τ sig (Elt F), (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

/-- Every final memory holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  run_post m ρ _ fun _ h => h

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_post m ρ _ fun s h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩

/-- info: 'Cert.KernelIdeal.Hand.frame' depends on axioms: [propext, Classical.choice, Quot.sound] -/
#guard_msgs in #print axioms frame

end Cert.KernelIdeal.Hand

end
-- ==== Proof.Spec.lean ====
/-
  The two results as functions of the arrays, index by index, on the extended reals.

  X is the array of edge-pair features, [16 batches, 24576 edges, 128 channels] (whatever the gather
  produced: its entries may be any extended reals); W the weight matrix [128, 128]; bias, gamma, beta
  vectors of 128.  Both programs first form the L1 column sums  S(b,c) = Σ_e |X(b,e,c)|  and the floored
  denominators  d(b,c) = max(S(b,c), ε₁).

  The reference divides every entry by its denominator, multiplies by W, adds the bias, and batch-normalises
  with the mean and the (biased) variance over all 16·24576 rows:  tanh((y - mean)·rsqrt(var + ε₂)·γ + β).

  The kernel folds the reciprocal 1/d into the weights, W'(b,c,k) = (1/d(b,c))·W(c,k), forms
  z = X·W' (no bias), accumulates Σ z and Σ z², and normalises by
  scale = γ·rsqrt(max(Σz²/n - (Σz/n)², 0) + ε₂),  shift = β - (Σz/n + bias)·scale:
  tanh((z + bias)·scale + shift).
-/
import Idealize.ShloMosaic.PureOps.Ideal

noncomputable section

namespace Cert.Spec

open Idealize.ShloMosaic

/-- The floor of the L1 denominator (the word of 1e-12). -/
def epsL1 : EReal := Ideal.ofBits .f32 0x2B8CBCCC#32
/-- The batch-norm epsilon (the word of 1e-5). -/
def epsBN : EReal := Ideal.ofBits .f32 0x3727C5AC#32
/-- The number of rows 16 · 24576 = 393216, as both programs spell it. -/
def cnt : EReal := Ideal.ofBits .f32 0x48C00000#32
/-- The numerator of the kernel's reciprocal (the word of 1.0). -/
def oneW : EReal := Ideal.ofBits .f32 0x3F800000#32

variable (X : Fin 16 → Fin 24576 → Fin 128 → EReal) (W : Fin 128 → Fin 128 → EReal)
  (bias gamma beta : Fin 128 → EReal)

/-- The L1 column sum of batch b, channel c. -/
def colSum (b : Fin 16) (c : Fin 128) : EReal := ∑ e : Fin 24576, max (X b e c) (-(X b e c))
/-- The floored denominator. -/
def den (b : Fin 16) (c : Fin 128) : EReal := max (colSum X b c) epsL1

/-! ### The reference -/

/-- The normalised entry. -/
def xn (b : Fin 16) (e : Fin 24576) (c : Fin 128) : EReal := Ideal.div (X b e c) (den X b c)
/-- The linear layer with its bias. -/
def yR (b : Fin 16) (e : Fin 24576) (k : Fin 128) : EReal := (∑ c : Fin 128, xn X b e c * W c k) + bias k
/-- The mean over all rows. -/
def meanR (k : Fin 128) : EReal := Ideal.div (∑ b : Fin 16, ∑ e : Fin 24576, yR X W bias b e k) cnt
/-- The biased variance over all rows. -/
def varR (k : Fin 128) : EReal :=
  Ideal.div (∑ b : Fin 16, ∑ e : Fin 24576,
    (yR X W bias b e k - meanR X W bias k) * (yR X W bias b e k - meanR X W bias k)) cnt
/-- The reference's result. -/
def outR (b : Fin 16) (e : Fin 24576) (k : Fin 128) : EReal :=
  Ideal.tanh (((yR X W bias b e k - meanR X W bias k) * Ideal.rsqrt (varR X W bias k + epsBN)) * gamma k + beta k)

/-! ### The kernel -/

/-- The reciprocal denominator. -/
def invd (b : Fin 16) (c : Fin 128) : EReal := Ideal.div oneW (den X b c)
/-- The weights with the reciprocal folded in. -/
def wp (b : Fin 16) (c k : Fin 128) : EReal := invd X b c * W c k
/-- The bias-free linear layer. -/
def zK (b : Fin 16) (e : Fin 24576) (k : Fin 128) : EReal := ∑ c : Fin 128, X b e c * wp X W b c k
/-- The two accumulated statistics. -/
def s1 (k : Fin 128) : EReal := ∑ b : Fin 16, ∑ e : Fin 24576, zK X W b e k
def s2 (k : Fin 128) : EReal := ∑ b : Fin 16, ∑ e : Fin 24576, zK X W b e k * zK X W b e k
def meanZ (k : Fin 128) : EReal := Ideal.div (s1 X W k) cnt
def varK (k : Fin 128) : EReal := max (Ideal.div (s2 X W k) cnt - meanZ X W k * meanZ X W k) 0
def scaleK (k : Fin 128) : EReal := gamma k * Ideal.rsqrt (varK X W k + epsBN)
def shiftK (k : Fin 128) : EReal := beta k - (meanZ X W k + bias k) * scaleK X W gamma k
/-- The kernel's result. -/
def outK (b : Fin 16) (e : Fin 24576) (k : Fin 128) : EReal :=
  Ideal.tanh ((zK X W b e k + bias k) * scaleK X W gamma k + shiftK X W bias gamma beta k)

end Cert.Spec

end
-- ==== Proof.KI.Glue.lean ====
/-
  The host operations between the kernel's three regions, read at an index on the extended reals.

  Between the first and the second region the program forms, from the column sums v5[b,0,c], the reciprocal
  denominators 1 / max(v5[b,0,c], ε₁) and folds them into the weights: W'[b,c,k] = (1 / max(v5[b,0,c], ε₁)) · W[c,k].
  Between the second and the third it forms, from the per-batch statistics sz[b,0,k] and sz2[b,0,k], the sums over the
  16 batches, the mean, the clamped variance, and the scale γ·rsqrt(var + ε₂) and shift β - (mean + bias)·scale.
-/
import proofs.«163788_j32392643347009_2_alg».proof.Proof.Gen.KernelIdeal
import proofs.«163788_j32392643347009_2_alg».proof.Proof.Spec
import Idealize.ShloMosaic.Lib.Pipeline.Value
import Idealize.ShloMosaic.Lib.ValueIdx
import Idealize.ShloMosaic.PureOps.Ideal.Laws

noncomputable section

namespace Cert.KernelIdeal.Glue

open Cert.KernelIdeal Cert.KernelIdeal.Gen Idealize.ShloMosaic Idealize.ShloMosaic.ValueIdx

/-- The weights with the reciprocal L1 denominator folded in, as the program's host operations build them from the
    column sums and the weight matrix. -/
def wpTerm (v5 : (⟨S16x1x128, .f32⟩ : BufTy).Contents (Elt Ideal)) (w : (⟨S128x128, .f32⟩ : BufTy).Contents (Elt Ideal)) :
    (⟨S16x128x128, .bf16⟩ : BufTy).Contents (Elt Ideal) :=
  truncf .bf16 (mulf
    (broadcastInDim S16x128x128 ![0, 1, 2] bcast_S16x128x1_S16x128x128_0_1_2
      (broadcastInDim S16x128x1 ![0, 1] bcast_S16x128_S16x128x1_0_1
        (shapeCast _ (Host.divf (broadcastInDim S16x1x128 ![] bcast_S_S16x1x128 (constant (F := Ideal) S_ .f32 0x3F800000#32))
            (maximumf v5 (broadcastInDim S16x1x128 ![] bcast_S_S16x1x128 (constant (F := Ideal) S_ .f32 0x2B8CBCCC#32))))
          shapeCasts_S16x1x128_S16x128)))
    (broadcastInDim S16x128x128 ![0, 1, 2] bcast_S1x128x128_S16x128x128_0_1_2
      (broadcastInDim S1x128x128 ![1, 2] bcast_S128x128_S1x128x128_1_2 w))) bitsLt_bf16_f32

theorem wpTerm_apply (v5 : (⟨S16x1x128, .f32⟩ : BufTy).Contents (Elt Ideal)) (w : (⟨S128x128, .f32⟩ : BufTy).Contents (Elt Ideal))
    (b : Fin 16) (c k : Fin 128) :
    (wpTerm v5 w : S16x128x128.Idx → EReal) (ix3 b c k)
      = Ideal.div Cert.Spec.oneW (max ((v5 : S16x1x128.Idx → EReal) (ix3 b 0 c)) Cert.Spec.epsL1) * (w : S128x128.Idx → EReal) (ix2 c k) := by
  unfold wpTerm
  rw [truncf_apply, mulf_apply,
    broadcastInDim_apply _ bcast_S16x128x1_S16x128x128_0_1_2 _ (ix3 b c k) (ix3 b c 0)
      (fun a => match a with
        | ⟨0, _⟩ => by show b.val = if (16 : Nat) = 1 then 0 else b.val; rw [if_neg (by decide)]
        | ⟨1, _⟩ => by show c.val = if (128 : Nat) = 1 then 0 else c.val; rw [if_neg (by decide)]
        | ⟨2, _⟩ => by show 0 = if (1 : Nat) = 1 then 0 else k.val; rw [if_pos rfl]),
    broadcastInDim_apply _ bcast_S16x128_S16x128x1_0_1 _ (ix3 b c 0) (ix2 b c)
      (fun a => match a with
        | ⟨0, _⟩ => by show b.val = if (16 : Nat) = 1 then 0 else b.val; rw [if_neg (by decide)]
        | ⟨1, _⟩ => by show c.val = if (128 : Nat) = 1 then 0 else c.val; rw [if_neg (by decide)]),
    shapeCast_apply _ shapeCasts_S16x1x128_S16x128 (ix2 b c) (ix3 b 0 c)
      (by rewrite [Shape.rowMajor_val_three, Shape.rowMajor_val_two]; show (b.val * 1 + 0) * 128 + c.val = b.val * 128 + c.val; omega),
    broadcastInDim_apply _ bcast_S1x128x128_S16x128x128_0_1_2 _ (ix3 b c k) (ix3 0 c k)
      (fun a => match a with
        | ⟨0, _⟩ => by show 0 = if (1 : Nat) = 1 then 0 else b.val; rw [if_pos rfl]
        | ⟨1, _⟩ => by show c.val = if (128 : Nat) = 1 then 0 else c.val; rw [if_neg (by decide)]
        | ⟨2, _⟩ => by show k.val = if (128 : Nat) = 1 then 0 else k.val; rw [if_neg (by decide)]),
    broadcastInDim_apply _ bcast_S128x128_S1x128x128_1_2 _ (ix3 0 c k) (ix2 c k)
      (fun a => match a with
        | ⟨0, _⟩ => by show c.val = if (128 : Nat) = 1 then 0 else c.val; rw [if_neg (by decide)]
        | ⟨1, _⟩ => by show k.val = if (128 : Nat) = 1 then 0 else k.val; rw [if_neg (by decide)])]
  rfl

/-! ### The statistics, the scale and the shift -/

/-- The sum over the 16 batches of a per-batch statistic [16,1,128]. -/
def sumB (s : (⟨S16x1x128, .f32⟩ : BufTy).Contents (Elt Ideal)) : (⟨S128, .f32⟩ : BufTy).Contents (Elt Ideal) :=
  Host.reduceAdd (shapeCast _ s shapeCasts_S16x1x128_S16x128) (constant (F := Ideal) S_ .f32 0x00000000#32) reducesTo_S16x128_S128_d0 h_S_

/-- That sum divided by the number of rows. -/
def meanT (s : (⟨S16x1x128, .f32⟩ : BufTy).Contents (Elt Ideal)) : (⟨S128, .f32⟩ : BufTy).Contents (Elt Ideal) :=
  Host.divf (sumB s) (broadcastInDim S128 ![] bcast_S_S128 (constant (F := Ideal) S_ .f32 0x48C00000#32))

/-- The clamped variance from the two statistics. -/
def varT (sz sz2 : (⟨S16x1x128, .f32⟩ : BufTy).Contents (Elt Ideal)) : (⟨S128, .f32⟩ : BufTy).Contents (Elt Ideal) :=
  maximumf (subf (meanT sz2) (mulf (meanT sz) (meanT sz))) (broadcastInDim S128 ![] bcast_S_S128 (constant (F := Ideal) S_ .f32 0x00000000#32))

def scaleTerm (sz sz2 : (⟨S16x1x128, .f32⟩ : BufTy).Contents (Elt Ideal)) (gamma : (⟨S128, .f32⟩ : BufTy).Contents (Elt Ideal)) :
    (⟨S128, .f32⟩ : BufTy).Contents (Elt Ideal) :=
  mulf gamma (Host.rsqrt (addf (varT sz sz2) (broadcastInDim S128 ![] bcast_S_S128 (constant (F := Ideal) S_ .f32 0x3727C5AC#32))))

def shiftTerm (sz sz2 : (⟨S16x1x128, .f32⟩ : BufTy).Contents (Elt Ideal)) (bias gamma beta : (⟨S128, .f32⟩ : BufTy).Contents (Elt Ideal)) :
    (⟨S128, .f32⟩ : BufTy).Contents (Elt Ideal) :=
  subf (F := Ideal) (s := S128) (φ := .f32) beta (mulf (F := Ideal) (s := S128) (φ := .f32) (addf (F := Ideal) (s := S128) (φ := .f32) (meanT sz) bias) (scaleTerm sz sz2 gamma))

theorem sumB_apply (s : (⟨S16x1x128, .f32⟩ : BufTy).Contents (Elt Ideal)) (k : Fin 128) :
    (sumB s : S128.Idx → EReal) (ix1 k) = ∑ b : Fin 16, (s : S16x1x128.Idx → EReal) (ix3 b 0 k) := by
  unfold sumB
  generalize hy : shapeCast S16x128 s shapeCasts_S16x1x128_S16x128 = y
  simp only [Host.reduceAdd, Ideal.hostReduceAdd_def]
  rw [Ideal.hostReduceAdd_single reducesTo_S16x128_S128_d0 (by decide)]
  show Ideal.ofBits .f32 0x00000000#32 + _ = _
  rw [Ideal.ofBits_zero_f32, zero_add]
  refine Finset.sum_congr rfl fun b _ => ?_
  subst hy
  exact shapeCast_apply _ shapeCasts_S16x1x128_S16x128 _ (ix3 b 0 k)
    (by rewrite [Shape.rowMajor_val_three, Shape.rowMajor_val_two]; show (b.val * 1 + 0) * 128 + k.val = b.val * 128 + k.val; omega)

theorem bcast_cst_apply (w : BitVec 32) (k : Fin 128) :
    (broadcastInDim S128 ![] bcast_S_S128 (constant (F := Ideal) S_ .f32 w) : S128.Idx → EReal) (ix1 k) = Ideal.ofBits .f32 w := rfl

theorem meanT_apply (s : (⟨S16x1x128, .f32⟩ : BufTy).Contents (Elt Ideal)) (k : Fin 128) :
    (meanT s : S128.Idx → EReal) (ix1 k) = Ideal.div (∑ b : Fin 16, (s : S16x1x128.Idx → EReal) (ix3 b 0 k)) Cert.Spec.cnt := by
  unfold meanT
  show Ideal.div ((sumB s : S128.Idx → EReal) (ix1 k)) _ = _
  rw [sumB_apply]; rfl

theorem varT_apply (sz sz2 : (⟨S16x1x128, .f32⟩ : BufTy).Contents (Elt Ideal)) (k : Fin 128) :
    (varT sz sz2 : S128.Idx → EReal) (ix1 k)
      = max (Ideal.div (∑ b : Fin 16, (sz2 : S16x1x128.Idx → EReal) (ix3 b 0 k)) Cert.Spec.cnt
          - Ideal.div (∑ b : Fin 16, (sz : S16x1x128.Idx → EReal) (ix3 b 0 k)) Cert.Spec.cnt
            * Ideal.div (∑ b : Fin 16, (sz : S16x1x128.Idx → EReal) (ix3 b 0 k)) Cert.Spec.cnt) 0 := by
  unfold varT
  show max ((meanT sz2 : S128.Idx → EReal) (ix1 k) - (meanT sz : S128.Idx → EReal) (ix1 k) * (meanT sz : S128.Idx → EReal) (ix1 k))
    (Ideal.ofBits .f32 0x00000000#32) = _
  rw [meanT_apply, meanT_apply, Ideal.ofBits_zero_f32]

theorem scaleTerm_apply (sz sz2 : (⟨S16x1x128, .f32⟩ : BufTy).Contents (Elt Ideal)) (gamma : (⟨S128, .f32⟩ : BufTy).Contents (Elt Ideal)) (k : Fin 128) :
    (scaleTerm sz sz2 gamma : S128.Idx → EReal) (ix1 k)
      = (gamma : S128.Idx → EReal) (ix1 k) * Ideal.rsqrt ((varT sz sz2 : S128.Idx → EReal) (ix1 k) + Cert.Spec.epsBN) := rfl

theorem shiftTerm_apply (sz sz2 : (⟨S16x1x128, .f32⟩ : BufTy).Contents (Elt Ideal)) (bias gamma beta : (⟨S128, .f32⟩ : BufTy).Contents (Elt Ideal)) (k : Fin 128) :
    (shiftTerm sz sz2 bias gamma beta : S128.Idx → EReal) (ix1 k)
      = (beta : S128.Idx → EReal) (ix1 k) - ((meanT sz : S128.Idx → EReal) (ix1 k) + (bias : S128.Idx → EReal) (ix1 k))
          * (scaleTerm sz sz2 gamma : S128.Idx → EReal) (ix1 k) := rfl

end Cert.KernelIdeal.Glue

end
-- ==== Proof.KI.Gather.lean ====
/-
  The edge-pair features both programs start from: the index pairs flattened to [16, 49152], each index
  normalised (a negative one moved up by 2048), rows of the atom table gathered along axis 1, a row whose index is
  out of range replaced by the fill value, and the result regrouped as [16, 24576, 128].  The kernel's program and
  the reference apply these same operations to the same two arguments; the term is named once here and never
  opened: what the two results have in common is that they are functions of it.
-/
import proofs.«163788_j32392643347009_2_alg».proof.Proof.Gen.KernelIdeal
import Idealize.ShloMosaic.Lib.ValueIdx

set_option maxRecDepth 8192

noncomputable section

namespace Cert.KernelIdeal.Glue

open Cert.KernelIdeal Cert.KernelIdeal.Gen Idealize.ShloMosaic

/-- The gathered and regrouped features, as the kernel's program computes them on the host. -/
def gatheredK (a0 : (⟨S16x2048x64, .f32⟩ : BufTy).Contents (Elt Ideal)) (a1 : (⟨S16x24576x2, .i32⟩ : BufTy).Contents (Elt Ideal)) :
    (⟨S16x24576x128, .f32⟩ : BufTy).Contents (Elt Ideal) :=
  (shapeCast _ (select (broadcastInDim S16x49152x64 ![0, 1] bcast_S16x49152_S16x49152x64_0_1 (Host.reduce IntOp.andi (andi (cmpi .sge (select (cmpi .slt (broadcastInDim S16x49152x1 ![0, 1] bcast_S16x49152_S16x49152x1_0_1 (shapeCast _ (a1) shapeCasts_S16x24576x2_S16x49152)) (broadcastInDim S16x49152x1 ![] bcast_S_S16x49152x1 (constantI S_ 32 0#32))) (addi (broadcastInDim S16x49152x1 ![0, 1] bcast_S16x49152_S16x49152x1_0_1 (shapeCast _ (a1) shapeCasts_S16x24576x2_S16x49152)) (broadcastInDim S16x49152x1 ![] bcast_S_S16x49152x1 (constantI S_ 32 2048#32))) (broadcastInDim S16x49152x1 ![0, 1] bcast_S16x49152_S16x49152x1_0_1 (shapeCast _ (a1) shapeCasts_S16x24576x2_S16x49152))) (broadcastInDim S16x49152x1 ![] bcast_S_S16x49152x1 (constantI S_ 32 0#32))) (cmpi .sle (select (cmpi .slt (broadcastInDim S16x49152x1 ![0, 1] bcast_S16x49152_S16x49152x1_0_1 (shapeCast _ (a1) shapeCasts_S16x24576x2_S16x49152)) (broadcastInDim S16x49152x1 ![] bcast_S_S16x49152x1 (constantI S_ 32 0#32))) (addi (broadcastInDim S16x49152x1 ![0, 1] bcast_S16x49152_S16x49152x1_0_1 (shapeCast _ (a1) shapeCasts_S16x24576x2_S16x49152)) (broadcastInDim S16x49152x1 ![] bcast_S_S16x49152x1 (constantI S_ 32 2048#32))) (broadcastInDim S16x49152x1 ![0, 1] bcast_S16x49152_S16x49152x1_0_1 (shapeCast _ (a1) shapeCasts_S16x24576x2_S16x49152))) (broadcastInDim S16x49152x1 ![0, 1, 2] bcast_S1x1x1_S16x49152x1_0_1_2 (broadcastInDim S1x1x1 ![2] bcast_S1_S1x1x1_2 (constantI S1 32 2047#32))))) (constantI S_ 1 1#1) reducesTo_S16x49152x1_S16x49152_d2 h_S_)) (Host.gather gather_S16x2048x64_S16x49152x1_S16x49152x64_2_1_0_0_1_2_1164 (a0) (select (cmpi .slt (broadcastInDim S16x49152x1 ![0, 1] bcast_S16x49152_S16x49152x1_0_1 (shapeCast _ (a1) shapeCasts_S16x24576x2_S16x49152)) (broadcastInDim S16x49152x1 ![] bcast_S_S16x49152x1 (constantI S_ 32 0#32))) (addi (broadcastInDim S16x49152x1 ![0, 1] bcast_S16x49152_S16x49152x1_0_1 (shapeCast _ (a1) shapeCasts_S16x24576x2_S16x49152)) (broadcastInDim S16x49152x1 ![] bcast_S_S16x49152x1 (constantI S_ 32 2048#32))) (broadcastInDim S16x49152x1 ![0, 1] bcast_S16x49152_S16x49152x1_0_1 (shapeCast _ (a1) shapeCasts_S16x24576x2_S16x49152)))) (broadcastInDim S16x49152x64 ![] bcast_S_S16x49152x64 (constant (F := Ideal) S_ .f32 0x7FC00000#32))) shapeCasts_S16x49152x64_S16x24576x128)

end Cert.KernelIdeal.Glue

end
-- ==== Proof.LibTypedRef.lean ====
/-
  A typed reference carries a proof that its buffer's type is the tensor value's type, and moves contents between the
  two types along that proof.  Moving a value to the buffer's type and back gives the value again: the two moves are
  transports along an equation and its inverse.  General in the signature, the type and the values.
-/
import Idealize.ShloMosaic.Lib.StableHlo

namespace Cert.Lib.TypedRef

open Idealize.ShloMosaic Idealize.ShloMosaic.StableHlo

/-- Contents moved to the buffer's own type and back are unchanged. -/
theorem ofBuf_toBuf {sig : RefSig} {T : BufTy} {Val : EltTy → Type} (x : TRef sig T) (v : T.Contents Val) :
    x.ofBuf (x.toBuf v) = v := by
  obtain ⟨r, h, _, _⟩ := x
  subst h
  rfl

end Cert.Lib.TypedRef
-- ==== Proof.KI.Chain.lean ====
/-
  What the kernel's program holds in the buffers its three regions and the host operations between them read,
  on the extended reals: the features (the shared gather, cast to the narrower float format — the identity here),
  the weights with the reciprocal denominators folded in, the scale and the shift, each as a function of the
  arguments and of what the earlier regions wrote; and the arguments themselves, which nothing writes.
-/
import proofs.«163788_j32392643347009_2_alg».proof.Proof.KI.Run
import proofs.«163788_j32392643347009_2_alg».proof.Proof.KI.Glue
import proofs.«163788_j32392643347009_2_alg».proof.Proof.KI.Gather
import proofs.«163788_j32392643347009_2_alg».proof.Proof.LibTypedRef

set_option maxRecDepth 16384

noncomputable section

namespace Cert.KernelIdeal.HandVal

open Idealize.ShloMosaic Idealize.ShloMosaic.TcCoe Idealize.ShloMosaic.StableHlo
open Idealize.SL Idealize.SL.Sem
open Cert.KernelIdeal Cert.KernelIdeal.Hand Cert.KernelIdeal.Glue
open Cert.KernelIdeal.Gen hiding V0 V1 V2 V3 V4 V5 V6 V7 V8 segs
open Idealize.ShloMosaic.Pipeline (Dat)

variable (m : (ℓ : Loc nD τ sig) → Buf (Elt Ideal) ℓ) (ρ : Dev nD → PrngReg)

/-- The features as the regions stage them. -/
def xArr (c : Dev nD) : FVec Ideal S16x24576x128 .bf16 :=
  truncf (F := Ideal) (s := S16x24576x128) (φ := .f32) .bf16
    (gatheredK (m ((c : Thread nD τ).loc main_arg0)) (m ((c : Thread nD τ).loc main_arg1))) bitsLt_bf16_f32

/-! ### The arguments are never written -/

theorem W3_arg (c : Dev nD) (r : Ref sig .tc) (h1 : r ∉ hostOps0_W) (h2 : r ∉ hostOps0_1_W) (h3 : r ∉ hostOps0_2_W) :
    W3 m ρ c (Proc.devRef .tc r) = m ((c : Thread nD τ).loc r) :=
  (W3_of m ρ c r h3).trans ((W2_of m ρ c r h2).trans ((W1_of m ρ c r h1).trans rfl))

theorem W4_main_arg2 (c : Dev nD) : W4 m ρ c (Proc.devRef .tc main_arg2) = m ((c : Thread nD τ).loc main_arg2) :=
  (W4_of_ne m ρ c main_arg2 (by decide)).trans (W3_arg m ρ c main_arg2 (by decide) (by decide) (by decide))

theorem W6_arg (c : Dev nD) (r : Ref sig .tc) (h1 : r ∉ hostOps0_W) (h2 : r ∉ hostOps0_1_W) (h3 : r ∉ hostOps0_2_W)
    (h4 : ∀ w, Pipeline.arrRef spec0 w ≠ r) (h5 : r ∉ hostOps1_W) (h6 : ∀ w, Pipeline.arrRef spec1 w ≠ r) :
    W6 m ρ c (Proc.devRef .tc r) = m ((c : Thread nD τ).loc r) :=
  (W6_of_ne m ρ c r h6).trans ((W5_of m ρ c r h5).trans ((W4_of_ne m ρ c r h4).trans (W3_arg m ρ c r h1 h2 h3)))

/-! ### The features -/

set_option maxHeartbeats 2000000 in
theorem W3_main_v4 (c : Dev nD) : W3 m ρ c (Proc.devRef .tc main_v4) = xArr m c := by
  show StableHlo.after hostOps0_2 (StableHlo.after hostOps0_1 (StableHlo.after hostOps0 (W0 m ρ c))) (Proc.devRef .tc main_v4) = _
  after_results_simp
  simp only [Cert.Lib.TypedRef.ofBuf_toBuf]
  simp only [TRef.ofBuf, TRef.toBuf, cast_eq]
  rfl

theorem W4_main_v4 (c : Dev nD) : W4 m ρ c (Proc.devRef .tc main_v4) = xArr m c :=
  (W4_arr m ρ c 0).trans (((dat0 (V3 m ρ) c).arrAt_in 0 rfl _).trans ((A_eq0 (V3 m ρ) c 0).trans (W3_main_v4 m ρ c)))

theorem W5_main_v4 (c : Dev nD) : W5 m ρ c (Proc.devRef .tc main_v4) = xArr m c :=
  (W5_of m ρ c main_v4 (by decide)).trans (W4_main_v4 m ρ c)

theorem W6_main_v4 (c : Dev nD) : W6 m ρ c (Proc.devRef .tc main_v4) = xArr m c :=
  (W6_arr m ρ c 0).trans (((dat1 (V5 m ρ) c).arrAt_in 0 rfl _).trans ((A_eq1 (V5 m ρ) c 0).trans (W5_main_v4 m ρ c)))

theorem W7_main_v4 (c : Dev nD) : W7 m ρ c (Proc.devRef .tc main_v4) = xArr m c :=
  (W7_of m ρ c main_v4 (by decide)).trans (W6_main_v4 m ρ c)

/-! ### The folded weights -/

theorem W5_main_v16 (c : Dev nD) :
    W5 m ρ c (Proc.devRef .tc main_v16) = wpTerm (W4 m ρ c (Proc.devRef .tc main_v5)) (m ((c : Thread nD τ).loc main_arg2)) := by
  rw [← W4_main_arg2 m ρ c]
  show StableHlo.after hostOps1 (W4 m ρ c) (Proc.devRef .tc main_v16) = _
  after_results
  rfl

theorem W6_main_v16 (c : Dev nD) :
    W6 m ρ c (Proc.devRef .tc main_v16) = wpTerm (W4 m ρ c (Proc.devRef .tc main_v5)) (m ((c : Thread nD τ).loc main_arg2)) :=
  (W6_arr m ρ c 1).trans (((dat1 (V5 m ρ) c).arrAt_in 1 rfl _).trans ((A_eq1 (V5 m ρ) c 1).trans (W5_main_v16 m ρ c)))

theorem W7_main_v16 (c : Dev nD) :
    W7 m ρ c (Proc.devRef .tc main_v16) = wpTerm (W4 m ρ c (Proc.devRef .tc main_v5)) (m ((c : Thread nD τ).loc main_arg2)) :=
  (W7_of m ρ c main_v16 (by decide)).trans (W6_main_v16 m ρ c)

/-! ### The scale and the shift -/

theorem W7_main_arg3 (c : Dev nD) : W7 m ρ c (Proc.devRef .tc main_arg3) = m ((c : Thread nD τ).loc main_arg3) :=
  (W7_of m ρ c main_arg3 (by decide)).trans (W6_arg m ρ c main_arg3 (by decide) (by decide) (by decide) (by decide) (by decide) (by decide))

set_option maxHeartbeats 2000000 in
theorem W7_main_v34 (c : Dev nD) :
    W7 m ρ c (Proc.devRef .tc main_v34)
      = scaleTerm (W6 m ρ c (Proc.devRef .tc main_v17_0)) (W6 m ρ c (Proc.devRef .tc main_v17_1)) (m ((c : Thread nD τ).loc main_arg4)) := by
  rw [← W6_arg m ρ c main_arg4 (by decide) (by decide) (by decide) (by decide) (by decide) (by decide)]
  show StableHlo.after hostOps2 (W6 m ρ c) (Proc.devRef .tc main_v34) = _
  after_results
  rfl

set_option maxHeartbeats 2000000 in
theorem W7_main_v36 (c : Dev nD) :
    W7 m ρ c (Proc.devRef .tc main_v36)
      = shiftTerm (W6 m ρ c (Proc.devRef .tc main_v17_0)) (W6 m ρ c (Proc.devRef .tc main_v17_1)) (m ((c : Thread nD τ).loc main_arg3))
          (m ((c : Thread nD τ).loc main_arg4)) (m ((c : Thread nD τ).loc main_arg5)) := by
  rw [← W6_arg m ρ c main_arg3 (by decide) (by decide) (by decide) (by decide) (by decide) (by decide),
    ← W6_arg m ρ c main_arg4 (by decide) (by decide) (by decide) (by decide) (by decide) (by decide),
    ← W6_arg m ρ c main_arg5 (by decide) (by decide) (by decide) (by decide) (by decide) (by decide)]
  show StableHlo.after hostOps2 (W6 m ρ c) (Proc.devRef .tc main_v36) = _
  after_results
  rfl

end Cert.KernelIdeal.HandVal

end
-- ==== Proof.KI.Pieces0.lean ====
/- Region 0: what each case of the body leaves in the scratch accumulator and in the output block, as the body's arithmetic (the skeleton's payloads) of the point's input block and of what the scratch held before; then the scratch after every point as a recursion over the points, and the output block at the last tile of a batch. -/
import proofs.«163788_j32392643347009_2_alg».proof.Proof.KI.R0
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HandVal

open Cert.KernelIdeal Cert.KernelIdeal.Gen Cert.KernelIdeal.Hand
open Idealize.ShloMosaic.ValueIdx

variable {F : FTy → Type} [FloatOps F]

theorem hz1 : (![0] : Fin 1 → Nat) = fun _ => 0 := funext fun a => by fin_cases a <;> rfl
theorem hz3 : (![0, 0, 0] : Fin 3 → Nat) = fun _ => 0 := funext fun a => by fin_cases a <;> rfl

/-- First tile: the scratch is reset, then the tile's column sums are added to the reset value. -/
theorem soutA_eq (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : cond0_0 i) (hc1 : ¬cond0_1 i) (x0 : Vec F S1x8192x128 .bf16) :
    sout0_A_0 c i arg2 harg2 arg3 harg3 arg4 harg4 hc0 hc1 x0 = k0_pay2 (k0_pay1 (F := F)) x0 := by
  unfold sout0_A_0
  rw [View.read_writes_eq_canon _ _ _ (scover0_A_0 c i arg2 harg2 arg3 harg3 arg4 harg4 hc0 hc1 x0)]
  unfold kernelRun0_A
  dsimp only
  try sl_unfold_words
  rw [View.canon_cons_unit_zero (S := S128) hz1, View.readCov_unit_zero (S := S128) _ hz1]
  simp only [View.readAt_eq_ld, harg2.read_unread, View.ld_unit_zero (S := S1x8192x128) hz3]

/-- Middle tile: the tile's column sums are added to what the scratch held. -/
theorem soutB_eq (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : ¬cond0_1 i) (x0 : Vec F S1x8192x128 .bf16) (xs0 : Vec F S128 .f32) :
    sout0_B_0 c i arg2 harg2 arg3 harg3 arg4 harg4 hc0 hc1 x0 xs0 = k0_pay2 xs0 x0 := by
  unfold sout0_B_0
  rw [View.read_writes_eq_canon _ _ _ (scover0_B_0 c i arg2 harg2 arg3 harg3 arg4 harg4 hc0 hc1 x0 xs0)]
  unfold kernelRun0_B
  dsimp only
  try sl_unfold_words
  rw [View.canon_unit_zero hz1]
  simp only [View.readAt_eq_ld, harg2.read_unread, harg4.read_unread, View.ld_unit_zero (S := S1x8192x128) hz3, View.ld_unit_zero (S := S128) hz1]

/-- Last tile: the same in the scratch, -/
theorem soutC_eq (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) :
    sout0_C_0 c i arg2 harg2 arg3 harg3 arg4 harg4 hc0 hc1 x0 xs0 = k0_pay2 xs0 x0 := by
  unfold sout0_C_0
  rw [View.read_writes_eq_canon _ _ _ (scover0_C_0 c i arg2 harg2 arg3 harg3 arg4 harg4 hc0 hc1 x0 xs0)]
  unfold kernelRun0_C
  dsimp only
  try sl_unfold_words
  rw [View.canon_unit_zero hz1]
  simp only [View.readAt_eq_ld, harg2.read_unread, harg4.read_unread, View.ld_unit_zero (S := S1x8192x128) hz3, View.ld_unit_zero (S := S128) hz1]

/-- and the scratch's new contents stored to the output block. -/
theorem outC_eq (c : Dev nD) (i : grid0.Coords) (arg2 : Memref sig .tc .vmem S1x8192x128 .bf16) (harg2 : arg2.IsWhole) (arg3 : Memref sig .tc .vmem S1x1x128 .f32) (harg3 : arg3.IsWhole) (arg4 : Memref sig .tc .vmem S128 .f32) (harg4 : arg4.IsWhole) (hc0 : ¬cond0_0 i) (hc1 : cond0_1 i) (x0 : Vec F S1x8192x128 .bf16) (xs0 : Vec F S128 .f32) :
    out0_C_1 c i arg2 harg2 arg3 harg3 arg4 harg4 hc0 hc1 x0 xs0 = k0_pay3 (k0_pay2 xs0 x0) := by
  unfold out0_C_1
  rw [View.read_writes_eq_canon _ _ _ (cover0_C_1 c i arg2 harg2 arg3 harg3 arg4 harg4 hc0 hc1 x0 xs0)]
  unfold kernelRun0_C
  dsimp only
  try sl_unfold_words
  rw [View.canon_unit_zero hz3, View.readCov_unit_zero (S := S128) _ hz1]
  simp only [View.readAt_eq_ld, harg2.read_unread, harg4.read_unread, View.ld_unit_zero (S := S1x8192x128) hz3, View.ld_unit_zero (S := S128) hz1]

section Accumulation
variable (V : (c : Dev nD) → (b : Ref sig .tc) → Buf (Elt F) ((c : Thread nD τ).loc b))

/-- The scratch after point `n`, as the body's arithmetic: at the first tile of a batch the reset value plus the
    tile's column sums, at a later tile what the point before left plus the tile's column sums. -/
def acc0 (c : Dev nD) : (n : ℕ) → n < cfg0.N → Vec F S128 .f32
  | 0, h => k0_pay2 (k0_pay1 (F := F)) (iblk0 V c 0 ⟨0, h⟩)
  | n + 1, h => if (n + 1) % 3 = 0 then k0_pay2 (k0_pay1 (F := F)) (iblk0 V c 0 ⟨n + 1, h⟩)
      else k0_pay2 (acc0 c n (Nat.lt_of_succ_lt h)) (iblk0 V c 0 ⟨n + 1, h⟩)

theorem acc0_reset (c : Dev nD) (n : ℕ) (h : n < cfg0.N) (h0 : n % 3 = 0) :
    acc0 V c n h = k0_pay2 (k0_pay1 (F := F)) (iblk0 V c 0 ⟨n, h⟩) := by
  cases n with
  | zero => rfl
  | succ n => exact if_pos h0

theorem acc0_step (c : Dev nD) (n : ℕ) (h : n + 1 < cfg0.N) (h0 : ¬(n + 1) % 3 = 0) :
    acc0 V c (n + 1) h = k0_pay2 (acc0 V c n (Nat.lt_of_succ_lt h)) (iblk0 V c 0 ⟨n + 1, h⟩) :=
  if_neg h0

/-- The scratch component of the point-by-point contents IS that recursion: by induction on the point. -/
theorem scratch_eq (c : Dev nD) : ∀ (n : ℕ) (h : n < cfg0.N), (outsAt0 V c n h).2 = acc0 V c n h
  | 0, h => by
    have h0 : (⟨0, h⟩ : Fin cfg0.N).val % 3 = 0 := rfl
    have h1 : ¬(⟨0, h⟩ : Fin cfg0.N).val % 3 = 2 := by show ¬(0 % 3 = 2); decide
    exact (congrArg Prod.snd (outsAt0_A V c ⟨0, h⟩ h0 h1)).trans
      (soutA_eq c (grid0.coords ⟨0, h⟩) (ms0_0 ⟨0, h⟩) (hs0_0 ⟨0, h⟩) (ms0_1 ⟨0, h⟩) (hs0_1 ⟨0, h⟩) scM0_0 (Memref.isWhole_whole _) ((hcond0_0 ⟨0, h⟩).mpr h0) (fun h' => h1 ((hcond0_1 ⟨0, h⟩).mp h')) (iblk0 V c 0 ⟨0, h⟩))
  | n + 1, h => by
    by_cases h0 : (n + 1) % 3 = 0
    · have h1 : ¬(n + 1) % 3 = 2 := by omega
      refine (congrArg Prod.snd (outsAt0_A V c ⟨n + 1, h⟩ h0 h1)).trans ?_
      refine (soutA_eq c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) ((hcond0_0 ⟨n + 1, h⟩).mpr h0) (fun h' => h1 ((hcond0_1 ⟨n + 1, h⟩).mp h')) (iblk0 V c 0 ⟨n + 1, h⟩)).trans ?_
      exact (acc0_reset V c (n + 1) h h0).symm
    · by_cases h1 : (n + 1) % 3 = 2
      · refine (congrArg Prod.snd (outsAt0_C V c ⟨n + 1, h⟩ h0 h1)).trans ?_
        refine (soutC_eq c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) (fun h' => h0 ((hcond0_0 ⟨n + 1, h⟩).mp h')) ((hcond0_1 ⟨n + 1, h⟩).mpr h1) (iblk0 V c 0 ⟨n + 1, h⟩) _).trans ?_
        rw [acc0_step V c n h h0]
        exact congrArg (fun a => k0_pay2 a (iblk0 V c 0 ⟨n + 1, h⟩)) (scratch_eq c n _)
      · refine (congrArg Prod.snd (outsAt0_B V c ⟨n + 1, h⟩ h0 h1)).trans ?_
        refine (soutB_eq c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) (fun h' => h0 ((hcond0_0 ⟨n + 1, h⟩).mp h')) (fun h' => h1 ((hcond0_1 ⟨n + 1, h⟩).mp h')) (iblk0 V c 0 ⟨n + 1, h⟩) _).trans ?_
        rw [acc0_step V c n h h0]
        exact congrArg (fun a => k0_pay2 a (iblk0 V c 0 ⟨n + 1, h⟩)) (scratch_eq c n _)

/-- At the last tile of a batch the output block holds the scratch's new contents. -/
theorem out_last (c : Dev nD) (t : Fin cfg0.N) (h0 : ¬t.val % 3 = 0) (h1 : t.val % 3 = 2) :
    (outsAt0 V c t.val t.isLt).1 = k0_pay3 (acc0 V c t.val t.isLt) := by
  have e1 := congrArg Prod.fst (outsAt0_C V c t h0 h1)
  have e2 := congrArg Prod.snd (outsAt0_C V c t h0 h1)
  dsimp only at e1 e2
  rw [outC_eq] at e1
  rw [soutC_eq] at e2
  rw [e1, ← scratch_eq V c t.val t.isLt, e2]

end Accumulation

end Cert.KernelIdeal.HandVal

end
-- ==== Proof.LibBlockRuns.lean ====
/-
  Sums over `Fin (A·B)` taken as `A` runs of `B`, and the sum of a family that vanishes outside one run.

  A kernel that packs `A` small matrices into one block-diagonal matrix (a Kronecker product with the identity)
  contracts over every (block, lane) pair `k = a·B + r` with a factor that is zero unless `a` is the output's block:
  such a sum is the sum over the one surviving run.  Stated in any additive commutative monoid, so on the extended
  reals no finiteness is involved.  `N` is a separate variable with `hN : N = A * B`, so that the lemmas apply to a
  literal `Fin 2048` with `A B := 16 128` and `hN := rfl`.
-/
import Mathlib.Algebra.BigOperators.Fin
import Mathlib.Tactic.Linarith

namespace Cert.Lib.BlockRuns

/-- Position `r` of run `a`: the index `a·B + r` of `Fin N`, `N = A·B`. -/
def runIdx (A B N : ℕ) (hN : N = A * B) (a : Fin A) (r : Fin B) : Fin N :=
  ⟨a.val * B + r.val, by subst hN; have := a.isLt; have := r.isLt; nlinarith⟩

/-- A sum over `Fin (A·B)`, taken as `A` runs of `B`. -/
theorem sum_runs {M : Type*} [AddCommMonoid M] (A B N : ℕ) (hN : N = A * B) (f : Fin N → M) :
    ∑ k : Fin N, f k = ∑ a : Fin A, ∑ r : Fin B, f (runIdx A B N hN a r) := by
  subst hN
  rw [← Fintype.sum_prod_type' (f := fun (a : Fin A) (r : Fin B) => f (runIdx A B (A * B) rfl a r))]
  refine (Fintype.sum_equiv finProdFinEquiv.symm _ _ fun k => ?_)
  refine congrArg f (Fin.ext ?_)
  simp only [runIdx, finProdFinEquiv_symm_apply, Fin.coe_divNat, Fin.coe_modNat]
  exact (Nat.div_add_mod' k.val B).symm

/-- If only run `a0` carries anything — every other run's terms are zero — the sum is that run's. -/
theorem sum_one_run {M : Type*} [AddCommMonoid M] (A B N : ℕ) (hN : N = A * B) (f : Fin N → M) (g : Fin B → M) (a0 : Fin A)
    (hin : ∀ r : Fin B, f (runIdx A B N hN a0 r) = g r)
    (hout : ∀ (a : Fin A) (r : Fin B), a ≠ a0 → f (runIdx A B N hN a r) = 0) :
    ∑ k : Fin N, f k = ∑ r : Fin B, g r := by
  rw [sum_runs A B N hN f, Finset.sum_eq_single a0]
  · exact Finset.sum_congr rfl fun r _ => hin r
  · intro a _ ha
    exact Finset.sum_eq_zero fun r _ => hout a r ha
  · intro h; exact absurd (Finset.mem_univ a0) h

end Cert.Lib.BlockRuns
-- ==== Proof.KI.Val0.lean ====
/- Region 0 over the extended reals: the L1 denominator. The output array [16,1,128] ends holding, at (b, 0, ch), the sum over all 24576 rows e of batch b of |x (b, e, ch)|: the scratch starts at zero at the first tile of a batch and each of the batch's three tiles adds its 8192 rows' column sums; the three runs of 8192 rows regroup into one sum. -/
import proofs.«163788_j32392643347009_2_alg».proof.Proof.KI.Pieces0
import proofs.«163788_j32392643347009_2_alg».proof.Proof.LibBlockRuns
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HandVal

open Cert.KernelIdeal Cert.KernelIdeal.Gen Cert.KernelIdeal.Hand
open Idealize.ShloMosaic.ValueIdx

open Cert.Lib.BlockRuns

variable (V : (c : Dev nD) → (b : Ref sig .tc) → Buf (Elt Ideal) ((c : Thread nD τ).loc b))

/-- The region's input array `x` : bf16[16,24576,128] at the region-entry contents, as a function to the extended reals. -/
abbrev xin (c : Dev nD) : S16x24576x128.Idx → EReal := V c main_v4

/-! ## The body's arithmetic, read at an index -/

/-- The reset value is zero. -/
theorem pay1_apply (ch : Fin 128) : (k0_pay1 (F := Ideal) : S128.Idx → EReal) (ix1 ch) = 0 := by
  unfold k0_pay1
  refine (congrFun (shapeCast_self _ _) (ix1 ch)).trans ?_
  exact Ideal.ofBits_zero_f32

/-- The accumulation step at channel `ch`: what was there plus the sum over the tile's 8192 rows of |block|. -/
theorem pay2_apply (xs : FVec Ideal S128 .f32) (blk : FVec Ideal S1x8192x128 .bf16) (ch : Fin 128) :
    (k0_pay2 (F := Ideal) xs blk : S128.Idx → EReal) (ix1 ch)
      = xs (ix1 ch) + ∑ r : Fin 8192, max (blk (ix3 (0 : Fin 1) r ch)) (-(blk (ix3 (0 : Fin 1) r ch))) := by
  unfold k0_pay2
  refine (congrFun (shapeCast_self _ _) (ix1 ch)).trans ?_
  show xs (ix1 ch) + multiReduction (F := Ideal) .add [0] S128 _ 0x00000000#32 reduces_S8192x128_S128 (.inl rfl) rfl (ix1 ch) = _
  refine congrArg (fun z => xs (ix1 ch) + z) ?_
  refine (Ideal.multiReduction_add_single _ 0x00000000#32 reduces_S8192x128_S128 (.inl rfl) rfl (ix1 ch)).trans ?_
  show ∑ r : Fin 8192, _ = _
  refine Finset.sum_congr rfl fun r _ => ?_
  have e : reduces_S8192x128_S128.lift (ix1 ch) r = ix2 r ch := by
    funext a
    match a with
    | ⟨0, _⟩ => rfl
    | ⟨1, _⟩ => rfl
  show max (shapeCast S8192x128 blk shapeCasts_S1x8192x128_S8192x128 (reduces_S8192x128_S128.lift (ix1 ch) r))
      (-(shapeCast S8192x128 blk shapeCasts_S1x8192x128_S8192x128 (reduces_S8192x128_S128.lift (ix1 ch) r))) = _
  rw [e, shapeCast_1ab_ab_apply]

/-- The store to the output block only reshapes: entry (0, 0, ch) is the scratch's entry ch. -/
theorem pay3_apply (v : FVec Ideal S128 .f32) (u0 u1 : Fin 1) (ch : Fin 128) :
    (k0_pay3 (F := Ideal) v : S1x1x128.Idx → EReal) (ix3 u0 u1 ch) = v (ix1 ch) := by
  unfold k0_pay3
  refine shapeCast_apply v _ _ _ ?_
  rw [Shape.rowMajor_val_one, Shape.rowMajor_val_three]
  show ch.val = (u0.val * 1 + u1.val) * 128 + ch.val
  have := u0.isLt; have := u1.isLt; omega

/-! ## The windows' blocks in the arrays -/

/-- The printed index maps, decided over the grid: point `t` is tile `t % 3` of batch `t / 3`. -/
theorem idx_facts : ∀ t : Fin cfg0.N, win0_0.index t (0 : Fin 3) = t.val / 3 ∧ win0_0.index t (1 : Fin 3) = t.val % 3
    ∧ win0_0.index t (2 : Fin 3) = 0 ∧ win0_1.index t (0 : Fin 3) = t.val / 3 ∧ win0_1.index t (1 : Fin 3) = 0
    ∧ win0_1.index t (2 : Fin 3) = 0 :=
  (by decide +kernel : ∀ t : Fin grid0.N, _)

/-- The input block at tile `j` of batch `b`, row `r`, is the array's row `j·8192 + r` of batch `b`. -/
theorem iblk_apply (c : Dev nD) (t : Fin cfg0.N) (b : Fin 16) (j : Fin 3) (hb : t.val = 3 * b.val + j.val) (r : Fin 8192) (ch : Fin 128) :
    (iblk0 V c 0 t : S1x8192x128.Idx → EReal) (ix3 (0 : Fin 1) r ch)
      = xin V c (ix3 b (runIdx 3 8192 24576 rfl j r) ch) := by
  obtain ⟨e0, e1, e2, -⟩ := idx_facts t
  unfold iblk0
  rw [View.read_apply]
  show xin V c _ = xin V c _
  refine congrArg (xin V c) ?_
  funext a
  apply Fin.ext
  have := j.isLt
  match a with
  | ⟨0, _⟩ => show win0_0.index t (0 : Fin 3) * 1 + 1 * 0 = b.val; omega
  | ⟨1, _⟩ => show win0_0.index t (1 : Fin 3) * 8192 + 1 * r.val = j.val * 8192 + r.val; omega
  | ⟨2, _⟩ => show win0_0.index t (2 : Fin 3) * 128 + 1 * ch.val = ch.val; omega

/-! ## The sums -/

/-- The column sum of |x| over tile `j` of batch `b`. -/
def tileSum (x : S16x24576x128.Idx → EReal) (b : Fin 16) (j : Fin 3) (ch : Fin 128) : EReal :=
  ∑ r : Fin 8192, max (x (ix3 b (runIdx 3 8192 24576 rfl j r) ch)) (-(x (ix3 b (runIdx 3 8192 24576 rfl j r) ch)))

/-- The accumulation step at a point: what was there plus that tile's column sum. -/
theorem pay2_at (c : Dev nD) (t : Fin cfg0.N) (b : Fin 16) (j : Fin 3) (hb : t.val = 3 * b.val + j.val) (xs : FVec Ideal S128 .f32) (ch : Fin 128) :
    (k0_pay2 (F := Ideal) xs (iblk0 V c 0 t) : S128.Idx → EReal) (ix1 ch) = xs (ix1 ch) + tileSum (xin V c) b j ch := by
  refine (pay2_apply xs (iblk0 V c 0 t) ch).trans ?_
  refine congrArg (fun z => xs (ix1 ch) + z) ?_
  unfold tileSum
  refine Finset.sum_congr rfl fun r _ => ?_
  rw [iblk_apply V c t b j hb r ch]

/-- After the last tile of batch `b` the scratch holds the L1 column sum over all 24576 rows of the batch. -/
theorem acc_last (c : Dev nD) (n : ℕ) (hn : n < cfg0.N) (b : Fin 16) (hb : n = 3 * b.val + 2) (ch : Fin 128) :
    (acc0 V c n hn : S128.Idx → EReal) (ix1 ch)
      = ∑ e : Fin 24576, max (xin V c (ix3 b e ch)) (-(xin V c (ix3 b e ch))) := by
  subst hb
  have h1 : 3 * b.val + 1 < cfg0.N := Nat.lt_of_succ_lt hn
  have h0 : 3 * b.val < cfg0.N := Nat.lt_of_succ_lt h1
  have e2 : acc0 V c (3 * b.val + 2) hn = k0_pay2 (acc0 V c (3 * b.val + 1) h1) (iblk0 V c 0 ⟨3 * b.val + 2, hn⟩) :=
    acc0_step V c (3 * b.val + 1) hn (by omega)
  have e1 : acc0 V c (3 * b.val + 1) h1 = k0_pay2 (acc0 V c (3 * b.val) h0) (iblk0 V c 0 ⟨3 * b.val + 1, h1⟩) :=
    acc0_step V c (3 * b.val) h1 (by omega)
  have e0 : acc0 V c (3 * b.val) h0 = k0_pay2 (k0_pay1 (F := Ideal)) (iblk0 V c 0 ⟨3 * b.val, h0⟩) :=
    acc0_reset V c (3 * b.val) h0 (by omega)
  rw [e2, pay2_at V c ⟨3 * b.val + 2, hn⟩ b 2 rfl, e1, pay2_at V c ⟨3 * b.val + 1, h1⟩ b 1 rfl, e0,
    pay2_at V c ⟨3 * b.val, h0⟩ b 0 rfl, pay1_apply, zero_add]
  rw [sum_runs 3 8192 24576 rfl (fun e => max (xin V c (ix3 b e ch)) (-(xin V c (ix3 b e ch)))),
    Fin.sum_univ_three]
  rfl

/-! ## The output array -/

/-- The L1 denominator as one function of the input array. -/
def denomG (x : S16x24576x128.Idx → EReal) : S16x1x128.Idx → EReal :=
  fun i => ∑ e : Fin 24576, max (x (ix3 (n0 := 16) (n2 := 128) (i 0) e (i 2))) (-(x (ix3 (n0 := 16) (n2 := 128) (i 0) e (i 2))))

/-- Reading a write-back's block: contents `X` of the output block [1,1,128] at a last tile `t`, cut to the part moved
    (all of it), are block `t` of an array `G` as soon as entry (0, 0, ch) of `X` is entry (t / 3, 0, ch) of `G`. -/
theorem cut_read (t : Fin cfg0.N) (b : Fin 16) (hb : b.val = t.val / 3) (X : S1x1x128.Idx → EReal) (G : S16x1x128.Idx → EReal)
    (h : ∀ (u0 u1 : Fin 1) (ch : Fin 128), X (ix3 u0 u1 ch) = G (ix3 b (0 : Fin 1) ch)) :
    (cfg0.win 1).cut (grid0.coords t) X = ((cfg0.win 1).blk t).view.read (Elt Ideal) G := by
  obtain ⟨-, -, -, e3, e4, e5⟩ := idx_facts t
  funext j
  obtain ⟨u0, u1, ch, rfl⟩ : ∃ (u0 : Fin 1) (u1 : Fin 1) (ch : Fin 128), j = ix3 u0 u1 ch := ⟨j 0, j 1, j 2, eq_ix3 j⟩
  show X (ix3 u0 u1 ch) = G (((cfg0.win 1).blk t).view.emb (ix3 u0 u1 ch))
  have eemb : ((cfg0.win 1).blk t).view.emb (ix3 u0 u1 ch) = (ix3 b (0 : Fin 1) ch : S16x1x128.Idx) := by
    funext a
    apply Fin.ext
    have := u0.isLt; have := u1.isLt
    match a with
    | ⟨0, _⟩ => show win0_1.index t (0 : Fin 3) * 1 + 1 * u0.val = b.val; omega
    | ⟨1, _⟩ => show win0_1.index t (1 : Fin 3) * 1 + 1 * u1.val = 0; omega
    | ⟨2, _⟩ => show win0_1.index t (2 : Fin 3) * 128 + 1 * ch.val = ch.val; omega
  rw [eemb]
  exact h u0 u1 ch

/-- What a write-back (last tile of a batch) writes is its block of `denomG`. -/
theorem flushed_eq (c : Dev nD) (t : Fin cfg0.N) (hf : (cfg0.win 1).flush t = true) :
    (dat0 V c).flushed 1 t = ((cfg0.win 1).blk t).view.read (Elt Ideal) (denomG (xin V c)) := by
  have hN : t.val < 48 := lt_of_lt_of_eq t.isLt (show cfg0.N = 48 from N_0)
  have h1 : t.val % 3 = 2 := (flush0_1 t).mp hf
  have h0 : ¬t.val % 3 = 0 := by omega
  show (cfg0.win 1).cut (grid0.coords t) ((dat0 V c).after 1 t) = _
  rw [after0_1, out_last V c t h0 h1]
  refine cut_read t ⟨t.val / 3, by omega⟩ rfl _ _ fun u0 u1 ch => ?_
  rw [pay3_apply, acc_last V c t.val t.isLt ⟨t.val / 3, by omega⟩ (by dsimp only; omega) ch]
  rfl

/-- An index of the output array is in point `t`'s block iff each coordinate is in the block's range on its axis. -/
theorem mem_blk (t : Fin cfg0.N) (i : S16x1x128.Idx) :
    i ∈ ((cfg0.win 1).blk t).view.set ↔ ∀ a : Fin 3, win0_1.index t a * S1x1x128.size a ≤ (i a).val ∧ (i a).val < win0_1.index t a * S1x1x128.size a + S1x1x128.size a := by
  show i ∈ ((View.whole main_v5).slice (win0_1.rect t)).set ↔ _
  rw [View.set_slice_whole, Rect.mem_set_unit]
  exact Iff.rfl

/-- Row `b` of the output array is covered by the last tile of batch `b`, point `3b + 2`. -/
theorem cover (i : S16x1x128.Idx) : ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 128 := (i 2).isLt
  have hN : cfg0.N = 48 := N_0
  refine ⟨⟨3 * (i 0).val + 2, by omega⟩, (flush0_1 _).mpr (by dsimp only; omega), ?_⟩
  rw [mem_blk]
  obtain ⟨-, -, -, e3, e4, e5⟩ := idx_facts ⟨3 * (i 0).val + 2, by omega⟩
  dsimp only at e3 e4 e5
  intro a
  match a with
  | ⟨0, _⟩ => show win0_1.index _ (0 : Fin 3) * 1 ≤ (i 0).val ∧ (i 0).val < win0_1.index _ (0 : Fin 3) * 1 + 1; omega
  | ⟨1, _⟩ => show win0_1.index _ (1 : Fin 3) * 1 ≤ (i 1).val ∧ (i 1).val < win0_1.index _ (1 : Fin 3) * 1 + 1; omega
  | ⟨2, _⟩ => show win0_1.index _ (2 : Fin 3) * 128 ≤ (i 2).val ∧ (i 2).val < win0_1.index _ (2 : Fin 3) * 128 + 128; omega

/-- The output array after the region is the L1 denominator of the input array. -/
theorem denom_arr (c : Dev nD) : (dat0 (F := Ideal) V c).arrAt 1 cfg0.N = denomG (xin V c) :=
  (dat0 V c).arrAt_eq_of_cover 1 (denomG (xin V c)) (flushed_eq V c) cover

/-- Entry (b, 0, ch) of the output array: the sum over all 24576 rows of batch `b` of |x (b, e, ch)|. -/
theorem denom_value (c : Dev nD) (b : Fin 16) (ch : Fin 128) :
    ((dat0 (F := Ideal) V c).arrAt 1 cfg0.N : S16x1x128.Idx → EReal) (ix3 b 0 ch)
      = ∑ e : Fin 24576, max (xin V c (ix3 b e ch)) (-(xin V c (ix3 b e ch))) := by
  rw [denom_arr]
  rfl

end Cert.KernelIdeal.HandVal

end
-- ==== Proof.LibPlainDot.lean ====
/-
  A plain matrix product read at an entry.

  For dimension numbers of the plain form — operands `[a, K]` and `[K, b]`, result `[a, b]`, the left operand's axis 1
  contracted with the right operand's axis 0, no batch axis — the left operand's index at result entry `(p, q)` and
  contraction position `k` is `(p, k)` and the right operand's is `(k, q)`.  On the extended reals both the vector unit's
  `tpu.matmul` into a zero accumulator and the host's `dot_general` are then the plain sum
  `Σ_k x(p, k) · w(k, q)` over `k : Fin K`.  Stated from hypotheses on the six dimension lists, so that it applies to any
  printed record of this form, whatever the extents.
-/
import Idealize.ShloMosaic.Lib.ValueIdx
import Idealize.ShloMosaic.PureOps.Ideal.Laws

noncomputable section

namespace Cert.Lib.PlainDot

open Idealize.ShloMosaic Idealize.ShloMosaic.ValueIdx

variable {a K b : Nat} (d : DotDims ⟨2, ![a, K]⟩ ⟨2, ![K, b]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column coordinate. -/
theorem rhsIdx_col (hlb : d.lhsBatch = []) (hln : d.lhsNonContracting = [0]) (hrb : d.rhsBatch = [])
    (hrn : d.rhsNonContracting = [1])
    (j : (⟨2, ![a, b]⟩ : Shape).Idx) (k : d.contr.Idx) : (d.rhsIdx j k 1).val = (j 1).val := by
  unfold DotDims.rhsIdx
  have hb : (1 : Fin 2) ∉ d.rhsBatch := by rw [hrb]; exact List.not_mem_nil
  have hn : (1 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K)

include hlb hln hlc in
/-- The left operand is read at `(p, k)`. -/
theorem lhsIdx_plain (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(k, q)`. -/
theorem rhsIdx_plain (p : Fin a) (q : Fin b) (k : Fin K) :
    d.rhsIdx (ix2 p q) ((contrEquiv1 d K hr hs).symm k) = ix2 k q := by
  funext ax
  refine Fin.ext ?_
  match ax with
  | ⟨0, _⟩ =>
    show (d.rhsIdx (ix2 p q) ((contrEquiv1 d K hr hs).symm k) 0).val = k.val
    rw [DotDims.rhsIdx_val_of_single d hrc]
    exact contrEquiv1_symm_val d K hr hs k
  | ⟨1, _⟩ => exact rhsIdx_col d hlb hln hrb hrn (ix2 p q) _

include hlb hln hlc hrb hrn hrc hr hs in
/-- The vector unit's product into a zero accumulator, at `(p, q)`, is `Σ_k x(p, k) · w(k, q)`. -/
theorem matmul_zero_apply {φ₁ φ₂ : FTy} (prec : Option ContractPrecision)
    (x : FVec Ideal ⟨2, ![a, K]⟩ φ₁) (w : FVec Ideal ⟨2, ![K, b]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 k q) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_plain d hlb hln hlc hr hs, rhsIdx_plain d hlb hln hrb hrn hrc hr hs]

include hlb hln hlc hrb hrn hrc hr hs in
/-- The host's product, at `(p, q)`, is `Σ_k x(p, k) · w(k, q)`. -/
theorem dotGeneral_apply {φ₁ φ₂ : FTy} (prec : Option ContractPrecision)
    (x : FVec Ideal ⟨2, ![a, K]⟩ φ₁) (w : FVec Ideal ⟨2, ![K, b]⟩ φ₂) (p : Fin a) (q : Fin b) :
    (Host.dotGeneral (F := Ideal) d prec x w (ix2 p q) : EReal)
      = ∑ k : Fin K, (x (ix2 p k) : EReal) * w (ix2 k q) := by
  show FloatOps.dotGeneral d prec .single x w (ix2 p q) = _
  rw [Ideal.dotGeneral_apply, ← Equiv.sum_comp (contrEquiv1 d K hr hs).symm]
  exact Finset.sum_congr rfl fun k _ => by
    rw [lhsIdx_plain d hlb hln hlc hr hs, rhsIdx_plain d hlb hln hrb hrn hrc hr hs]

end Cert.Lib.PlainDot

end
-- ==== Proof.KI.Val1Pieces.lean ====
/- Region 1's value, first half: what each case's found pieces are as payloads of the blocks, the scratch buffers and outputs after a
   point from what the point before left, and the payloads read at an index on the extended reals. -/
import proofs.«163788_j32392643347009_2_alg».proof.Proof.KI.R1
import proofs.«163788_j32392643347009_2_alg».proof.Proof.LibPlainDot
import proofs.«163788_j32392643347009_2_alg».proof.Proof.LibBlockRuns
import Idealize.ShloMosaic.Lib.Pipeline.Value
import Idealize.ShloMosaic.Lib.ValueLayout

-- membership in a rectangle of production extents: the elaborator's structural look recurses once per coordinate
set_option maxRecDepth 16384

noncomputable section

namespace Cert.KernelIdeal.HandVal

open Cert.KernelIdeal.Hand Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzV1 : (![0] : Fin 1 → Nat) = fun _ => 0 := funext fun a => by fin_cases a <;> rfl
theorem hzV3 : (![0, 0, 0] : Fin 3 → Nat) = fun _ => 0 := funext fun a => by fin_cases a <;> rfl

/-! ## What each case's found pieces are, as payloads of the blocks -/

/-- Case A leaves in scratch buffer 0 the first accumulation into the zero vector it has just stored there. -/
theorem pieceA0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) :
    sout1_A_0 c i arg2 harg2 arg3 harg3 arg4 harg4 arg5 harg5 arg6 harg6 arg7 harg7 hc0 hc1 x0 x1 = k1_pay4 x0 x1 (k1_pay1 (F := F)) := by
  unfold sout1_A_0
  rw [View.read_writes_eq_canon _ _ _ (scover1_A_0 c i arg2 harg2 arg3 harg3 arg4 harg4 arg5 harg5 arg6 harg6 arg7 harg7 hc0 hc1 x0 x1)]
  unfold kernelRun1_A
  dsimp only
  try sl_unfold_words
  rw [View.canon_cons_unit_zero (S := S128) hzV1, View.readCov_unit_zero (S := S128) _ hzV1]
  simp only [View.readAt_eq_ld, harg2.read_unread, harg3.read_unread, harg6.read_unread, harg7.read_unread, View.ld_unit_zero (S := S1x8192x128) hzV3, View.ld_unit_zero (S := S1x128x128) hzV3, View.ld_unit_zero (S := S128) hzV1]

/-- Case A leaves in scratch buffer 1 the first accumulation into the zero vector it has just stored there. -/
theorem pieceA1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : cond1_0 i) (hc1 : ¬cond1_1 i)
    (x0 : Vec F S1x8192x128 .bf16) (x1 : Vec F S1x128x128 .bf16) :
    sout1_A_1 c i arg2 harg2 arg3 harg3 arg4 harg4 arg5 harg5 arg6 harg6 arg7 harg7 hc0 hc1 x0 x1 = k1_pay5 x0 x1 (k1_pay2 (F := F)) := by
  unfold sout1_A_1
  rw [View.read_writes_eq_canon _ _ _ (scover1_A_1 c i arg2 harg2 arg3 harg3 arg4 harg4 arg5 harg5 arg6 harg6 arg7 harg7 hc0 hc1 x0 x1)]
  unfold kernelRun1_A
  dsimp only
  try sl_unfold_words
  rw [View.canon_cons_unit_zero (S := S128) hzV1, View.readCov_unit_zero (S := S128) _ hzV1]
  simp only [View.readAt_eq_ld, harg2.read_unread, harg3.read_unread, harg6.read_unread, harg7.read_unread, View.ld_unit_zero (S := S1x8192x128) hzV3, View.ld_unit_zero (S := S1x128x128) hzV3, View.ld_unit_zero (S := S128) hzV1]

/-- Case B accumulates into scratch buffer 0 as the point before left it. -/
theorem pieceB0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 xs1 : Vec F S128 .f32) :
    sout1_B_0 c i arg2 harg2 arg3 harg3 arg4 harg4 arg5 harg5 arg6 harg6 arg7 harg7 hc0 hc1 x0 x1 xs0 xs1 = k1_pay4 x0 x1 xs0 := by
  unfold sout1_B_0
  rw [View.read_writes_eq_canon _ _ _ (scover1_B_0 c i arg2 harg2 arg3 harg3 arg4 harg4 arg5 harg5 arg6 harg6 arg7 harg7 hc0 hc1 x0 x1 xs0 xs1)]
  unfold kernelRun1_B
  dsimp only
  try sl_unfold_words
  rw [View.canon_unit_zero (S := S128) hzV1]
  simp only [View.readAt_eq_ld, harg2.read_unread, harg3.read_unread, harg6.read_unread, harg7.read_unread, View.ld_unit_zero (S := S1x8192x128) hzV3, View.ld_unit_zero (S := S1x128x128) hzV3, View.ld_unit_zero (S := S128) hzV1]

/-- Case B accumulates into scratch buffer 1 as the point before left it. -/
theorem pieceB1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : ¬cond1_1 i)
    (x0 : Vec F S1x8192x128 .bf16) (x1 : Vec F S1x128x128 .bf16) (xs0 xs1 : Vec F S128 .f32) :
    sout1_B_1 c i arg2 harg2 arg3 harg3 arg4 harg4 arg5 harg5 arg6 harg6 arg7 harg7 hc0 hc1 x0 x1 xs0 xs1 = k1_pay5 x0 x1 xs1 := by
  unfold sout1_B_1
  rw [View.read_writes_eq_canon _ _ _ (scover1_B_1 c i arg2 harg2 arg3 harg3 arg4 harg4 arg5 harg5 arg6 harg6 arg7 harg7 hc0 hc1 x0 x1 xs0 xs1)]
  unfold kernelRun1_B
  dsimp only
  try sl_unfold_words
  rw [View.canon_unit_zero (S := S128) hzV1]
  simp only [View.readAt_eq_ld, harg2.read_unread, harg3.read_unread, harg6.read_unread, harg7.read_unread, View.ld_unit_zero (S := S1x8192x128) hzV3, View.ld_unit_zero (S := S1x128x128) hzV3, View.ld_unit_zero (S := S128) hzV1]

/-- Case C accumulates into scratch buffer 0 as the point before left it. -/
theorem pieceC0 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 xs1 : Vec F S128 .f32) :
    sout1_C_0 c i arg2 harg2 arg3 harg3 arg4 harg4 arg5 harg5 arg6 harg6 arg7 harg7 hc0 hc1 x0 x1 xs0 xs1 = k1_pay4 x0 x1 xs0 := by
  unfold sout1_C_0
  rw [View.read_writes_eq_canon _ _ _ (scover1_C_0 c i arg2 harg2 arg3 harg3 arg4 harg4 arg5 harg5 arg6 harg6 arg7 harg7 hc0 hc1 x0 x1 xs0 xs1)]
  unfold kernelRun1_C
  dsimp only
  try sl_unfold_words
  rw [View.canon_unit_zero (S := S128) hzV1]
  simp only [View.readAt_eq_ld, harg2.read_unread, harg3.read_unread, harg6.read_unread, harg7.read_unread, View.ld_unit_zero (S := S1x8192x128) hzV3, View.ld_unit_zero (S := S1x128x128) hzV3, View.ld_unit_zero (S := S128) hzV1]

/-- Case C accumulates into scratch buffer 1 as the point before left it. -/
theorem pieceC1 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 xs1 : Vec F S128 .f32) :
    sout1_C_1 c i arg2 harg2 arg3 harg3 arg4 harg4 arg5 harg5 arg6 harg6 arg7 harg7 hc0 hc1 x0 x1 xs0 xs1 = k1_pay5 x0 x1 xs1 := by
  unfold sout1_C_1
  rw [View.read_writes_eq_canon _ _ _ (scover1_C_1 c i arg2 harg2 arg3 harg3 arg4 harg4 arg5 harg5 arg6 harg6 arg7 harg7 hc0 hc1 x0 x1 xs0 xs1)]
  unfold kernelRun1_C
  dsimp only
  try sl_unfold_words
  rw [View.canon_unit_zero (S := S128) hzV1]
  simp only [View.readAt_eq_ld, harg2.read_unread, harg3.read_unread, harg6.read_unread, harg7.read_unread, View.ld_unit_zero (S := S1x8192x128) hzV3, View.ld_unit_zero (S := S1x128x128) hzV3, View.ld_unit_zero (S := S128) hzV1]

/-- Case C then copies scratch buffer 0 into output 2. -/
theorem pieceC2 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 xs1 : Vec F S128 .f32) :
    out1_C_2 c i arg2 harg2 arg3 harg3 arg4 harg4 arg5 harg5 arg6 harg6 arg7 harg7 hc0 hc1 x0 x1 xs0 xs1 = k1_pay6 (k1_pay4 x0 x1 xs0) := by
  unfold out1_C_2
  rw [View.read_writes_eq_canon _ _ _ (cover1_C_2 c i arg2 harg2 arg3 harg3 arg4 harg4 arg5 harg5 arg6 harg6 arg7 harg7 hc0 hc1 x0 x1 xs0 xs1)]
  unfold kernelRun1_C
  dsimp only
  try sl_unfold_words
  rw [View.canon_unit_zero (S := S1x1x128) hzV3, View.readCov_unit_zero (S := S128) _ hzV1]
  simp only [View.readAt_eq_ld, harg2.read_unread, harg3.read_unread, harg6.read_unread, harg7.read_unread, View.ld_unit_zero (S := S1x8192x128) hzV3, View.ld_unit_zero (S := S1x128x128) hzV3, View.ld_unit_zero (S := S128) hzV1]

/-- Case C then copies scratch buffer 1 into output 3. -/
theorem pieceC3 (c : Dev nD) (i : grid1.Coords) (arg2 : Memref sig .tc .vmem S1x8192x128 .bf16) (harg2 : arg2.IsWhole) (arg3 : Memref sig .tc .vmem S1x128x128 .bf16) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S128 .f32) (harg6 : arg6.IsWhole) (arg7 : Memref sig .tc .vmem S128 .f32) (harg7 : arg7.IsWhole) (hc0 : ¬cond1_0 i) (hc1 : cond1_1 i)
    (x0 : Vec F S1x8192x128 .bf16) (x1 : Vec F S1x128x128 .bf16) (xs0 xs1 : Vec F S128 .f32) :
    out1_C_3 c i arg2 harg2 arg3 harg3 arg4 harg4 arg5 harg5 arg6 harg6 arg7 harg7 hc0 hc1 x0 x1 xs0 xs1 = k1_pay7 (k1_pay5 x0 x1 xs1) := by
  unfold out1_C_3
  rw [View.read_writes_eq_canon _ _ _ (cover1_C_3 c i arg2 harg2 arg3 harg3 arg4 harg4 arg5 harg5 arg6 harg6 arg7 harg7 hc0 hc1 x0 x1 xs0 xs1)]
  unfold kernelRun1_C
  dsimp only
  try sl_unfold_words
  rw [View.canon_unit_zero (S := S1x1x128) hzV3, View.readCov_unit_zero (S := S128) _ hzV1]
  simp only [View.readAt_eq_ld, harg2.read_unread, harg3.read_unread, harg6.read_unread, harg7.read_unread, View.ld_unit_zero (S := S1x8192x128) hzV3, View.ld_unit_zero (S := S1x128x128) hzV3, View.ld_unit_zero (S := S128) hzV1]

/-! ## The two scratch buffers and the two outputs after a point, from what the point before left -/

section Steps

variable (V : (c : Dev nD) → (b : Ref sig .tc) → Buf (Elt F) ((c : Thread nD τ).loc b))

/-- After a point ≡ 0 (mod 3) the scratch buffers hold the point's contribution added to the zero vectors. -/
theorem scratch_A (c : Dev nD) (t : Fin cfg1.N) (h0 : t.val % 3 = 0) (h1 : ¬t.val % 3 = 2) :
    (outsAt1 V c t.val t.isLt).2.2.1 = k1_pay4 (iblk1 V c 0 t) (iblk1 V c 1 t) (k1_pay1 (F := F))
    ∧ (outsAt1 V c t.val t.isLt).2.2.2 = k1_pay5 (iblk1 V c 0 t) (iblk1 V c 1 t) (k1_pay2 (F := F)) := by
  rw [outsAt1_A V c t h0 h1]
  exact ⟨pieceA0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), pieceA1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)⟩

/-- After a point ≡ 1 (mod 3) they hold the point's contribution added to what the point before left. -/
theorem scratch_B (c : Dev nD) (t : Fin cfg1.N) (h0 : ¬t.val % 3 = 0) (h1 : ¬t.val % 3 = 2) :
    (outsAt1 V c t.val t.isLt).2.2.1 = k1_pay4 (iblk1 V c 0 t) (iblk1 V c 1 t) (outsAt1 V c (t.val - 1) (Nat.lt_of_le_of_lt (Nat.sub_le _ _) t.isLt)).2.2.1
    ∧ (outsAt1 V c t.val t.isLt).2.2.2 = k1_pay5 (iblk1 V c 0 t) (iblk1 V c 1 t) (outsAt1 V c (t.val - 1) (Nat.lt_of_le_of_lt (Nat.sub_le _ _) t.isLt)).2.2.2 := by
  rw [outsAt1_B V c t h0 h1]
  exact ⟨pieceB0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, pieceB1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2⟩

set_option maxHeartbeats 1000000 in
/-- After a point ≡ 2 (mod 3) the outputs' staging buffers hold the scratch buffers' final contents. -/
theorem outs_C (c : Dev nD) (t : Fin cfg1.N) (h0 : ¬t.val % 3 = 0) (h1 : t.val % 3 = 2) :
    (outsAt1 V c t.val t.isLt).1 = k1_pay6 (k1_pay4 (iblk1 V c 0 t) (iblk1 V c 1 t) (outsAt1 V c (t.val - 1) (Nat.lt_of_le_of_lt (Nat.sub_le _ _) t.isLt)).2.2.1)
    ∧ (outsAt1 V c t.val t.isLt).2.1 = k1_pay7 (k1_pay5 (iblk1 V c 0 t) (iblk1 V c 1 t) (outsAt1 V c (t.val - 1) (Nat.lt_of_le_of_lt (Nat.sub_le _ _) t.isLt)).2.2.2) := by
  have h := outsAt1_C V c t h0 h1
  exact ⟨(congrArg (fun p => p.1) h).trans (pieceC2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2), (congrArg (fun p => p.2.1) h).trans (pieceC3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2)⟩

end Steps

/-! ## The payloads on the extended reals -/

/-- A rank-1 vector cast to `[1, 1, a]`, read at `(u, w, i)`, is the vector at `i`. -/
theorem shapeCast_a_11a_apply {α : Type} {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]; simp)

/-- One entry of a tile's projection: row `r` of the tile against column `k` of the batch's matrix. -/
def zblk (x0 : FVec Ideal S1x8192x128 .bf16) (x1 : FVec Ideal S1x128x128 .bf16) (r : Fin 8192) (k : Fin 128) : EReal :=
  ∑ c' : Fin 128, (x0 (ix3 (0 : Fin 1) r c') : EReal) * x1 (ix3 (0 : Fin 1) c' k)

/-- The matrix product into a zero accumulator, read at `(r, k)`. -/
theorem k1pay3_apply (x0 : FVec Ideal S1x8192x128 .bf16) (x1 : FVec Ideal S1x128x128 .bf16) (r : Fin 8192) (k : Fin 128) :
    (k1_pay3 (F := Ideal) x0 x1 (ix2 r k) : EReal) = zblk x0 x1 r k := by
  unfold k1_pay3 zblk
  refine (Cert.Lib.PlainDot.matmul_zero_apply dot_S8192x128_S128x128_S8192x128_1_0_0_1_n_n rfl rfl rfl rfl rfl rfl rfl rfl none _ _ r k).trans ?_
  exact Finset.sum_congr rfl fun c' _ => congrArg₂ (· * ·) (shapeCast_1ab_ab_apply _ _ r c') (shapeCast_1ab_ab_apply _ _ c' k)

/-- The reduced index with the row coordinate inserted. -/
theorem lift_row (r : Fin 8192) (k : Fin 128) : reduces_S8192x128_S128.lift (ix1 k) r = ix2 r k := by
  funext a; apply Fin.ext
  match a with
  | ⟨0, _⟩ => rfl
  | ⟨1, _⟩ => rfl

/-- The sum over the tile's rows, read at a channel. -/
theorem sumrows_apply (v : FVec Ideal S8192x128 .f32) (k : Fin 128) :
    (multiReduction (F := Ideal) .add [0] S128 v 0x00000000#32 reduces_S8192x128_S128 (.inl rfl) rfl (ix1 k) : EReal)
      = ∑ r : Fin 8192, (v (ix2 r k) : EReal) := by
  refine (Ideal.multiReduction_add_single v 0x00000000#32 reduces_S8192x128_S128 (.inl rfl) rfl (ix1 k)).trans ?_
  exact Finset.sum_congr rfl fun r _ => congrArg v (lift_row r k)

/-- The first accumulation: the accumulator plus the tile's row sum of the projection. -/
theorem k1pay4_apply (x0 : FVec Ideal S1x8192x128 .bf16) (x1 : FVec Ideal S1x128x128 .bf16) (acc : FVec Ideal S128 .f32) (k : Fin 128) :
    (k1_pay4 (F := Ideal) x0 x1 acc (ix1 k) : EReal) = acc (ix1 k) + ∑ r : Fin 8192, zblk x0 x1 r k := by
  unfold k1_pay4
  refine (congrFun (shapeCast_self _ _) (ix1 k)).trans ?_
  refine (addf_apply acc _ (ix1 k)).trans ?_
  refine congrArg (acc (ix1 k) + ·) ?_
  refine (sumrows_apply _ k).trans ?_
  exact Finset.sum_congr rfl fun r _ => k1pay3_apply x0 x1 r k

/-- The second accumulation: the accumulator plus the tile's row sum of the projection's square. -/
theorem k1pay5_apply (x0 : FVec Ideal S1x8192x128 .bf16) (x1 : FVec Ideal S1x128x128 .bf16) (acc : FVec Ideal S128 .f32) (k : Fin 128) :
    (k1_pay5 (F := Ideal) x0 x1 acc (ix1 k) : EReal) = acc (ix1 k) + ∑ r : Fin 8192, zblk x0 x1 r k * zblk x0 x1 r k := by
  unfold k1_pay5
  refine (congrFun (shapeCast_self _ _) (ix1 k)).trans ?_
  refine (addf_apply acc _ (ix1 k)).trans ?_
  refine congrArg (acc (ix1 k) + ·) ?_
  refine (sumrows_apply _ k).trans ?_
  exact Finset.sum_congr rfl fun r _ => (mulf_apply _ _ (ix2 r k)).trans (congrArg₂ (· * ·) (k1pay3_apply x0 x1 r k) (k1pay3_apply x0 x1 r k))

/-- The two zero vectors the first point of a batch stores. -/
theorem k1pay1_apply (k : Fin 128) : (k1_pay1 (F := Ideal) (ix1 k) : EReal) = 0 := by
  unfold k1_pay1
  refine (congrFun (shapeCast_self _ _) (ix1 k)).trans ?_
  exact Ideal.ofBits_zero_f32
theorem k1pay2_apply (k : Fin 128) : (k1_pay2 (F := Ideal) (ix1 k) : EReal) = 0 := by
  unfold k1_pay2
  refine (congrFun (shapeCast_self _ _) (ix1 k)).trans ?_
  exact Ideal.ofBits_zero_f32

/-- The copies into the outputs' blocks. -/
theorem k1pay6_apply (v : FVec Ideal S128 .f32) (u w : Fin 1) (k : Fin 128) : (k1_pay6 (F := Ideal) v (ix3 u w k) : EReal) = v (ix1 k) := by
  unfold k1_pay6
  exact shapeCast_a_11a_apply v _ u w k
theorem k1pay7_apply (v : FVec Ideal S128 .f32) (u w : Fin 1) (k : Fin 128) : (k1_pay7 (F := Ideal) v (ix3 u w k) : EReal) = v (ix1 k) := by
  unfold k1_pay7
  exact shapeCast_a_11a_apply v _ u w k

end Cert.KernelIdeal.HandVal

end
-- ==== Proof.KI.Val1.lean ====
/- Region 1's value: what the statistics kernel leaves in its two result arrays — per batch and output channel, the sum over all
   rows of the projected row and the sum of its square — read off the region's frame. -/
import proofs.«163788_j32392643347009_2_alg».proof.Proof.KI.Val1Pieces

-- membership in a rectangle of production extents: the elaborator's structural look recurses once per coordinate
set_option maxRecDepth 16384

noncomputable section

namespace Cert.KernelIdeal.HandVal

open Cert.KernelIdeal.Hand Idealize.ShloMosaic.ValueIdx Cert.Lib.BlockRuns

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The specification -/

/-- The projection: row `e` of batch `b` against column `k` of the batch's matrix. -/
def zOf (x : S16x24576x128.Idx → EReal) (wp : S16x128x128.Idx → EReal) (b : Fin 16) (e : Fin 24576) (k : Fin 128) : EReal :=
  ∑ c' : Fin 128, x (ix3 b e c') * wp (ix3 b c' k)

/-- The two operand arrays as the region finds them. -/
abbrev xOf (c : Dev nD) : S16x24576x128.Idx → EReal := V c main_v4
abbrev wOf (c : Dev nD) : S16x128x128.Idx → EReal := V c main_v16

/-- The two result arrays: per batch and channel the sum over all rows of the projection, and of its square. -/
def sumzOf (x : S16x24576x128.Idx → EReal) (wp : S16x128x128.Idx → EReal) : S16x1x128.Idx → EReal :=
  fun i => ∑ e : Fin 24576, zOf x wp (i 0) e (i 2)
def sumz2Of (x : S16x24576x128.Idx → EReal) (wp : S16x128x128.Idx → EReal) : S16x1x128.Idx → EReal :=
  fun i => ∑ e : Fin 24576, zOf x wp (i 0) e (i 2) * zOf x wp (i 0) e (i 2)

/-! ## The blocks in the arrays -/

/-- The printed index maps, decided over the grid: point `t` is tile `t % 3` of batch `t / 3`. -/
theorem idx_facts1 : ∀ t : Fin cfg1.N,
    win1_0.index t (0 : Fin 3) = t.val / 3 ∧ win1_0.index t (1 : Fin 3) = t.val % 3 ∧ win1_0.index t (2 : Fin 3) = 0
    ∧ win1_1.index t (0 : Fin 3) = t.val / 3 ∧ win1_1.index t (1 : Fin 3) = 0 ∧ win1_1.index t (2 : Fin 3) = 0
    ∧ win1_2.index t (0 : Fin 3) = t.val / 3 ∧ win1_2.index t (1 : Fin 3) = 0 ∧ win1_2.index t (2 : Fin 3) = 0
    ∧ win1_3.index t (0 : Fin 3) = t.val / 3 ∧ win1_3.index t (1 : Fin 3) = 0 ∧ win1_3.index t (2 : Fin 3) = 0 :=
  (by decide +kernel : ∀ t : Fin grid1.N, _)

/-- Row `r` of the tile at point `3b + j` is row `8192 j + r` of batch `b`. -/
theorem iblk0_apply (c : Dev nD) (t : Fin cfg1.N) (b : Fin 16) (j : Fin 3) (ht : t.val = 3 * b.val + j.val) (r : Fin 8192) (c' : Fin 128) :
    (iblk1 V c 0 t (ix3 (0 : Fin 1) r c') : EReal) = xOf V c (ix3 b (runIdx 3 8192 24576 rfl j r) c') := by
  obtain ⟨e0, e1, e2, -⟩ := idx_facts1 t
  have hj := j.isLt
  unfold iblk1
  rw [View.read_apply]
  show V c main_v4 _ = V c main_v4 _
  congr 1
  funext a; apply Fin.ext
  match a with
  | ⟨0, _⟩ => show win1_0.index t (0 : Fin 3) * 1 + 1 * 0 = b.val; rw [e0]; omega
  | ⟨1, _⟩ => show win1_0.index t (1 : Fin 3) * 8192 + 1 * r.val = j.val * 8192 + r.val; rw [e1]; omega
  | ⟨2, _⟩ => show win1_0.index t (2 : Fin 3) * 128 + 1 * c'.val = c'.val; rw [e2]; omega

/-- The matrix block at point `3b + j` is batch `b`'s matrix. -/
theorem iblk1_apply (c : Dev nD) (t : Fin cfg1.N) (b : Fin 16) (j : Fin 3) (ht : t.val = 3 * b.val + j.val) (c' k : Fin 128) :
    (iblk1 V c 1 t (ix3 (0 : Fin 1) c' k) : EReal) = wOf V c (ix3 b c' k) := by
  obtain ⟨-, -, -, e0, e1, e2, -⟩ := idx_facts1 t
  have hj := j.isLt
  unfold iblk1
  rw [View.read_apply]
  show V c main_v16 _ = V c main_v16 _
  congr 1
  funext a; apply Fin.ext
  match a with
  | ⟨0, _⟩ => show win1_1.index t (0 : Fin 3) * 1 + 1 * 0 = b.val; rw [e0]; omega
  | ⟨1, _⟩ => show win1_1.index t (1 : Fin 3) * 128 + 1 * c'.val = c'.val; rw [e1]; omega
  | ⟨2, _⟩ => show win1_1.index t (2 : Fin 3) * 128 + 1 * k.val = k.val; rw [e2]; omega

/-- So a tile's projection entry is the batch's. -/
theorem zblk_iblk (c : Dev nD) (t : Fin cfg1.N) (b : Fin 16) (j : Fin 3) (ht : t.val = 3 * b.val + j.val) (r : Fin 8192) (k : Fin 128) :
    zblk (iblk1 V c 0 t) (iblk1 V c 1 t) r k = zOf (xOf V c) (wOf V c) b (runIdx 3 8192 24576 rfl j r) k :=
  Finset.sum_congr rfl fun c' _ => congrArg₂ (· * ·) (iblk0_apply V c t b j ht r c') (iblk1_apply V c t b j ht c' k)

/-! ## The accumulators point by point -/

/-- What point `t` adds to channel `k` of the first accumulator, and of the second. -/
def contrib (c : Dev nD) (t : Fin cfg1.N) (k : Fin 128) : EReal := ∑ r : Fin 8192, zblk (iblk1 V c 0 t) (iblk1 V c 1 t) r k
def contribSq (c : Dev nD) (t : Fin cfg1.N) (k : Fin 128) : EReal :=
  ∑ r : Fin 8192, zblk (iblk1 V c 0 t) (iblk1 V c 1 t) r k * zblk (iblk1 V c 0 t) (iblk1 V c 1 t) r k

theorem scr_A (c : Dev nD) (t : Fin cfg1.N) (h0 : t.val % 3 = 0) (h1 : ¬t.val % 3 = 2) (k : Fin 128) :
    ((outsAt1 V c t.val t.isLt).2.2.1 (ix1 k) : EReal) = 0 + contrib V c t k
    ∧ ((outsAt1 V c t.val t.isLt).2.2.2 (ix1 k) : EReal) = 0 + contribSq V c t k := by
  obtain ⟨e0, e1⟩ := scratch_A V c t h0 h1
  rw [e0, e1]
  exact ⟨(k1pay4_apply (iblk1 V c 0 t) (iblk1 V c 1 t) _ k).trans (congrArg (· + contrib V c t k) (k1pay1_apply k)),
    (k1pay5_apply (iblk1 V c 0 t) (iblk1 V c 1 t) _ k).trans (congrArg (· + contribSq V c t k) (k1pay2_apply k))⟩

theorem scr_B (c : Dev nD) (t : Fin cfg1.N) (h0 : ¬t.val % 3 = 0) (h1 : ¬t.val % 3 = 2) (k : Fin 128) :
    ((outsAt1 V c t.val t.isLt).2.2.1 (ix1 k) : EReal) = (outsAt1 V c (t.val - 1) (Nat.lt_of_le_of_lt (Nat.sub_le _ _) t.isLt)).2.2.1 (ix1 k) + contrib V c t k
    ∧ ((outsAt1 V c t.val t.isLt).2.2.2 (ix1 k) : EReal) = (outsAt1 V c (t.val - 1) (Nat.lt_of_le_of_lt (Nat.sub_le _ _) t.isLt)).2.2.2 (ix1 k) + contribSq V c t k := by
  obtain ⟨e0, e1⟩ := scratch_B V c t h0 h1
  rw [e0, e1]
  exact ⟨k1pay4_apply (iblk1 V c 0 t) (iblk1 V c 1 t) _ k, k1pay5_apply (iblk1 V c 0 t) (iblk1 V c 1 t) _ k⟩

theorem out_C (c : Dev nD) (t : Fin cfg1.N) (h0 : ¬t.val % 3 = 0) (h1 : t.val % 3 = 2) (u w : Fin 1) (k : Fin 128) :
    ((outsAt1 V c t.val t.isLt).1 (ix3 u w k) : EReal) = (outsAt1 V c (t.val - 1) (Nat.lt_of_le_of_lt (Nat.sub_le _ _) t.isLt)).2.2.1 (ix1 k) + contrib V c t k
    ∧ ((outsAt1 V c t.val t.isLt).2.1 (ix3 u w k) : EReal) = (outsAt1 V c (t.val - 1) (Nat.lt_of_le_of_lt (Nat.sub_le _ _) t.isLt)).2.2.2 (ix1 k) + contribSq V c t k := by
  obtain ⟨e0, e1⟩ := outs_C V c t h0 h1
  rw [e0, e1]
  exact ⟨(k1pay6_apply _ u w k).trans (k1pay4_apply (iblk1 V c 0 t) (iblk1 V c 1 t) _ k), (k1pay7_apply _ u w k).trans (k1pay5_apply (iblk1 V c 0 t) (iblk1 V c 1 t) _ k)⟩

/-- After the last tile of batch `b` the two outputs' staging buffers hold the batch's sums over all its rows. -/
theorem out_batch (c : Dev nD) (t : Fin cfg1.N) (b : Fin 16) (ht : t.val = 3 * b.val + 2) (u w : Fin 1) (k : Fin 128) :
    ((outsAt1 V c t.val t.isLt).1 (ix3 u w k) : EReal) = ∑ e : Fin 24576, zOf (xOf V c) (wOf V c) b e k
    ∧ ((outsAt1 V c t.val t.isLt).2.1 (ix3 u w k) : EReal) = ∑ e : Fin 24576, zOf (xOf V c) (wOf V c) b e k * zOf (xOf V c) (wOf V c) b e k := by
  have hN : cfg1.N = 48 := N_1
  have hb := b.isLt
  have l1 : t.val - 1 < cfg1.N := by omega
  have l0 : t.val - 1 - 1 < cfg1.N := by omega
  obtain ⟨c2, d2⟩ := out_C V c t (by omega) (by omega) u w k
  obtain ⟨c1, d1⟩ := scr_B V c ⟨t.val - 1, l1⟩ (by show ¬(t.val - 1) % 3 = 0; omega) (by show ¬(t.val - 1) % 3 = 2; omega) k
  obtain ⟨c0, d0⟩ := scr_A V c ⟨t.val - 1 - 1, l0⟩ (by show (t.val - 1 - 1) % 3 = 0; omega) (by show ¬(t.val - 1 - 1) % 3 = 2; omega) k
  have hA0 : ∀ r : Fin 8192, zblk (iblk1 V c 0 ⟨t.val - 1 - 1, l0⟩) (iblk1 V c 1 ⟨t.val - 1 - 1, l0⟩) r k = zOf (xOf V c) (wOf V c) b (runIdx 3 8192 24576 rfl 0 r) k :=
    fun r => zblk_iblk V c ⟨t.val - 1 - 1, l0⟩ b 0 (by show t.val - 1 - 1 = 3 * b.val + 0; omega) r k
  have hA1 : ∀ r : Fin 8192, zblk (iblk1 V c 0 ⟨t.val - 1, l1⟩) (iblk1 V c 1 ⟨t.val - 1, l1⟩) r k = zOf (xOf V c) (wOf V c) b (runIdx 3 8192 24576 rfl 1 r) k :=
    fun r => zblk_iblk V c ⟨t.val - 1, l1⟩ b 1 (by show t.val - 1 = 3 * b.val + 1; omega) r k
  have hA2 : ∀ r : Fin 8192, zblk (iblk1 V c 0 t) (iblk1 V c 1 t) r k = zOf (xOf V c) (wOf V c) b (runIdx 3 8192 24576 rfl 2 r) k :=
    fun r => zblk_iblk V c t b 2 (by show t.val = 3 * b.val + 2; omega) r k
  constructor
  · refine (c2.trans (congrArg (· + contrib V c t k) (c1.trans (congrArg (· + contrib V c ⟨t.val - 1, l1⟩ k) c0)))).trans ?_
    unfold contrib
    rw [sum_runs 3 8192 24576 rfl (fun e => zOf (xOf V c) (wOf V c) b e k), Fin.sum_univ_three, zero_add]
    simp only [hA0, hA1, hA2]
  · refine (d2.trans (congrArg (· + contribSq V c t k) (d1.trans (congrArg (· + contribSq V c ⟨t.val - 1, l1⟩ k) d0)))).trans ?_
    unfold contribSq
    rw [sum_runs 3 8192 24576 rfl (fun e => zOf (xOf V c) (wOf V c) b e k * zOf (xOf V c) (wOf V c) b e k), Fin.sum_univ_three, zero_add]
    simp only [hA0, hA1, hA2]

/-! ## The two result arrays after the region -/

/-- A block of result array 0 read at a block index is the array at the embedded index. -/
theorem blkread1_2 (G : S16x1x128.Idx → EReal) (t : Fin cfg1.N) (j : S1x1x128.Idx) :
    ((cfg1.win 2).blk t).view.read (Elt Ideal) G j = G (((cfg1.win 2).blk t).view.emb j) := by
  rw [View.read_apply]; exact cast_eq _ _

/-- What a writing point writes back into result array 0 is its block of the array of sums. -/
theorem flushed1_2_eq (c : Dev nD) (t : Fin cfg1.N) (hf : (cfg1.win 2).flush t = true) :
    (dat1 V c).flushed 2 t = ((cfg1.win 2).blk t).view.read (Elt Ideal) (sumzOf (xOf V c) (wOf V c)) := by
  have hN : cfg1.N = 48 := N_1
  have h2 : t.val % 3 = 2 := (flush1_2 t).mp hf
  have hb : t.val / 3 < 16 := by have := t.isLt; omega
  obtain ⟨-, -, -, -, -, -, e0, e1, e2, -⟩ := idx_facts1 t
  show (cfg1.win 2).cut (grid1.coords t) ((dat1 V c).after 2 t) = _
  rw [after1_2]
  funext j
  obtain ⟨u, w, k, rfl⟩ : ∃ (u : Fin 1) (w : Fin 1) (k : Fin 128), j = ix3 u w k := ⟨j 0, j 1, j 2, eq_ix3 j⟩
  refine ((out_batch V c t ⟨t.val / 3, hb⟩ (by show t.val = 3 * (t.val / 3) + 2; omega) u w k).1).trans ?_
  refine Eq.trans ?_ (blkread1_2 (sumzOf (xOf V c) (wOf V c)) t (ix3 u w k)).symm
  have he : ((cfg1.win 2).blk t).view.emb (ix3 u w k) = ix3 (⟨t.val / 3, hb⟩ : Fin 16) (0 : Fin 1) k := by
    funext a; apply Fin.ext
    have hu : u.val = 0 := by omega
    have hw : w.val = 0 := by omega
    match a with
    | ⟨0, _⟩ => show win1_2.index t (0 : Fin 3) * 1 + 1 * u.val = t.val / 3; rw [e0]; omega
    | ⟨1, _⟩ => show win1_2.index t (1 : Fin 3) * 1 + 1 * w.val = 0; rw [e1]; omega
    | ⟨2, _⟩ => show win1_2.index t (2 : Fin 3) * 128 + 1 * k.val = k.val; rw [e2]; omega
  rw [he]
  rfl

/-- Every index of result array 0 is in the block some point writes back: the last tile of its batch. -/
theorem covered1_2 (c : Dev nD) (i : S16x1x128.Idx) :
    ∃ t : Fin cfg1.N, (cfg1.win 2).flush t = true ∧ i ∈ ((cfg1.win 2).blk t).view.set := by
  have hN : cfg1.N = 48 := N_1
  have hi0 : (i 0).val < 16 := (i 0).isLt
  have hi1 : (i 1).val < 1 := (i 1).isLt
  have hi2 : (i 2).val < 128 := (i 2).isLt
  have hlt : 3 * (i 0).val + 2 < cfg1.N := by omega
  refine ⟨⟨3 * (i 0).val + 2, hlt⟩, (flush1_2 _).mpr (by show (3 * (i 0).val + 2) % 3 = 2; omega), ?_⟩
  obtain ⟨-, -, -, -, -, -, e0, e1, e2, -⟩ := idx_facts1 ⟨3 * (i 0).val + 2, hlt⟩
  have q0 : win1_2.index ⟨3 * (i 0).val + 2, hlt⟩ (0 : Fin 3) = (i 0).val := e0.trans (by show (3 * (i 0).val + 2) / 3 = (i 0).val; omega)
  show i ∈ ((View.whole main_v17_0).slice (win1_2.rect ⟨3 * (i 0).val + 2, hlt⟩)).set
  rw [View.set_slice_whole, Rect.mem_set_unit]
  intro a
  match a with
  | ⟨0, _⟩ => show win1_2.index ⟨3 * (i 0).val + 2, hlt⟩ (0 : Fin 3) * 1 ≤ (i 0).val ∧ (i 0).val < win1_2.index ⟨3 * (i 0).val + 2, hlt⟩ (0 : Fin 3) * 1 + 1; rw [q0]; omega
  | ⟨1, _⟩ => show win1_2.index ⟨3 * (i 0).val + 2, hlt⟩ (1 : Fin 3) * 1 ≤ (i 1).val ∧ (i 1).val < win1_2.index ⟨3 * (i 0).val + 2, hlt⟩ (1 : Fin 3) * 1 + 1; rw [e1]; omega
  | ⟨2, _⟩ => show win1_2.index ⟨3 * (i 0).val + 2, hlt⟩ (2 : Fin 3) * 128 ≤ (i 2).val ∧ (i 2).val < win1_2.index ⟨3 * (i 0).val + 2, hlt⟩ (2 : Fin 3) * 128 + 128; rw [e2]; omega

/-- So result array 0 ends holding the sums. -/
theorem arr1_2_final (c : Dev nD) : (dat1 V c).arrAt 2 cfg1.N = sumzOf (xOf V c) (wOf V c) :=
  (dat1 V c).arrAt_eq_of_cover 2 (sumzOf (xOf V c) (wOf V c)) (flushed1_2_eq V c) (covered1_2 c)

/-- A block of result array 1 read at a block index is the array at the embedded index. -/
theorem blkread1_3 (G : S16x1x128.Idx → EReal) (t : Fin cfg1.N) (j : S1x1x128.Idx) :
    ((cfg1.win 3).blk t).view.read (Elt Ideal) G j = G (((cfg1.win 3).blk t).view.emb j) := by
  rw [View.read_apply]; exact cast_eq _ _

/-- What a writing point writes back into result array 1 is its block of the array of sums. -/
theorem flushed1_3_eq (c : Dev nD) (t : Fin cfg1.N) (hf : (cfg1.win 3).flush t = true) :
    (dat1 V c).flushed 3 t = ((cfg1.win 3).blk t).view.read (Elt Ideal) (sumz2Of (xOf V c) (wOf V c)) := by
  have hN : cfg1.N = 48 := N_1
  have h2 : t.val % 3 = 2 := (flush1_3 t).mp hf
  have hb : t.val / 3 < 16 := by have := t.isLt; omega
  obtain ⟨-, -, -, -, -, -, -, -, -, e0, e1, e2⟩ := idx_facts1 t
  show (cfg1.win 3).cut (grid1.coords t) ((dat1 V c).after 3 t) = _
  rw [after1_3]
  funext j
  obtain ⟨u, w, k, rfl⟩ : ∃ (u : Fin 1) (w : Fin 1) (k : Fin 128), j = ix3 u w k := ⟨j 0, j 1, j 2, eq_ix3 j⟩
  refine ((out_batch V c t ⟨t.val / 3, hb⟩ (by show t.val = 3 * (t.val / 3) + 2; omega) u w k).2).trans ?_
  refine Eq.trans ?_ (blkread1_3 (sumz2Of (xOf V c) (wOf V c)) t (ix3 u w k)).symm
  have he : ((cfg1.win 3).blk t).view.emb (ix3 u w k) = ix3 (⟨t.val / 3, hb⟩ : Fin 16) (0 : Fin 1) k := by
    funext a; apply Fin.ext
    have hu : u.val = 0 := by omega
    have hw : w.val = 0 := by omega
    match a with
    | ⟨0, _⟩ => show win1_3.index t (0 : Fin 3) * 1 + 1 * u.val = t.val / 3; rw [e0]; omega
    | ⟨1, _⟩ => show win1_3.index t (1 : Fin 3) * 1 + 1 * w.val = 0; rw [e1]; omega
    | ⟨2, _⟩ => show win1_3.index t (2 : Fin 3) * 128 + 1 * k.val = k.val; rw [e2]; omega
  rw [he]
  rfl

/-- Every index of result array 1 is in the block some point writes back: the last tile of its batch. -/
theorem covered1_3 (c : Dev nD) (i : S16x1x128.Idx) :
    ∃ t : Fin cfg1.N, (cfg1.win 3).flush t = true ∧ i ∈ ((cfg1.win 3).blk t).view.set := by
  have hN : cfg1.N = 48 := N_1
  have hi0 : (i 0).val < 16 := (i 0).isLt
  have hi1 : (i 1).val < 1 := (i 1).isLt
  have hi2 : (i 2).val < 128 := (i 2).isLt
  have hlt : 3 * (i 0).val + 2 < cfg1.N := by omega
  refine ⟨⟨3 * (i 0).val + 2, hlt⟩, (flush1_3 _).mpr (by show (3 * (i 0).val + 2) % 3 = 2; omega), ?_⟩
  obtain ⟨-, -, -, -, -, -, -, -, -, e0, e1, e2⟩ := idx_facts1 ⟨3 * (i 0).val + 2, hlt⟩
  have q0 : win1_3.index ⟨3 * (i 0).val + 2, hlt⟩ (0 : Fin 3) = (i 0).val := e0.trans (by show (3 * (i 0).val + 2) / 3 = (i 0).val; omega)
  show i ∈ ((View.whole main_v17_1).slice (win1_3.rect ⟨3 * (i 0).val + 2, hlt⟩)).set
  rw [View.set_slice_whole, Rect.mem_set_unit]
  intro a
  match a with
  | ⟨0, _⟩ => show win1_3.index ⟨3 * (i 0).val + 2, hlt⟩ (0 : Fin 3) * 1 ≤ (i 0).val ∧ (i 0).val < win1_3.index ⟨3 * (i 0).val + 2, hlt⟩ (0 : Fin 3) * 1 + 1; rw [q0]; omega
  | ⟨1, _⟩ => show win1_3.index ⟨3 * (i 0).val + 2, hlt⟩ (1 : Fin 3) * 1 ≤ (i 1).val ∧ (i 1).val < win1_3.index ⟨3 * (i 0).val + 2, hlt⟩ (1 : Fin 3) * 1 + 1; rw [e1]; omega
  | ⟨2, _⟩ => show win1_3.index ⟨3 * (i 0).val + 2, hlt⟩ (2 : Fin 3) * 128 ≤ (i 2).val ∧ (i 2).val < win1_3.index ⟨3 * (i 0).val + 2, hlt⟩ (2 : Fin 3) * 128 + 128; rw [e2]; omega

/-- So result array 1 ends holding the sums. -/
theorem arr1_3_final (c : Dev nD) : (dat1 V c).arrAt 3 cfg1.N = sumz2Of (xOf V c) (wOf V c) :=
  (dat1 V c).arrAt_eq_of_cover 3 (sumz2Of (xOf V c) (wOf V c)) (flushed1_3_eq V c) (covered1_3 c)

/-- THE FIRST RESULT: per batch and channel, the sum over the batch's 24576 rows of the projection. -/
theorem sumz_value (c : Dev nD) (b : Fin 16) (k : Fin 128) :
    ((dat1 (F := Ideal) V c).arrAt 2 cfg1.N : S16x1x128.Idx → EReal) (ix3 b 0 k) = ∑ e : Fin 24576, zOf (xOf V c) (wOf V c) b e k := by
  rw [arr1_2_final V c]; rfl

/-- THE SECOND RESULT: per batch and channel, the sum over the batch's 24576 rows of the projection's square. -/
theorem sumz2_value (c : Dev nD) (b : Fin 16) (k : Fin 128) :
    ((dat1 (F := Ideal) V c).arrAt 3 cfg1.N : S16x1x128.Idx → EReal) (ix3 b 0 k) = ∑ e : Fin 24576, zOf (xOf V c) (wOf V c) b e k * zOf (xOf V c) (wOf V c) b e k := by
  rw [arr1_3_final V c]; rfl

end Cert.KernelIdeal.HandVal

end
-- ==== Proof.KI.Val2.lean ====
/-
  The value region 2 leaves in its output array, at the ideal values (extended reals, exact operations).

  With x (16 × 24576 × 128), w' (16 × 128 × 128) and the rows bias, scale, shift (128) the contents the region finds
  in its five input arrays, the output array ends holding, entry by entry,

      out(b, e, k) = tanh((Σ_c x(b, e, c) · w'(b, c, k) + bias k) · scale k + shift k).

  The body's stored tile at row r, column k is that expression of the loaded blocks: the block product is the sum
  over the contracted axis, a row broadcast down the tile reads its entry k.  Block t of the inputs and of the output
  is rows (t % 3) · 8192 … (t % 3) · 8192 + 8191 of batch t / 3 (the matrix: all of batch t / 3; the three rows:
  whole), so what point t writes back is block t of the ONE function out.  Every index (b, e, k) lies in the block of
  point 3 b + e / 8192, and every point writes its block back: the blocks cover the array, which therefore ends
  equal to out.
-/
import proofs.«163788_j32392643347009_2_alg».proof.Proof.KI.R2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The block product's operand indices -/

theorem mm_lhs0 (j : S8192x128.Idx) (q : dot_S8192x128_S128x128_S8192x128_1_0_0_1_n_n.contr.Idx) : (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem mm_lhs1 (j : S8192x128.Idx) (q : dot_S8192x128_S128x128_S8192x128_1_0_0_1_n_n.contr.Idx) : (dot_S8192x128_S128x128_S8192x128_1_0_0_1_n_n.lhsIdx j q 1).val = (q ⟨0, by decide⟩).val :=
  dot_S8192x128_S128x128_S8192x128_1_0_0_1_n_n.lhsIdx_val_of_single rfl j q
theorem mm_rhs0 (j : S8192x128.Idx) (q : dot_S8192x128_S128x128_S8192x128_1_0_0_1_n_n.contr.Idx) : (dot_S8192x128_S128x128_S8192x128_1_0_0_1_n_n.rhsIdx j q 0).val = (q ⟨0, by decide⟩).val :=
  dot_S8192x128_S128x128_S8192x128_1_0_0_1_n_n.rhsIdx_val_of_single rfl j q
theorem mm_rhs1 (j : S8192x128.Idx) (q : dot_S8192x128_S128x128_S8192x128_1_0_0_1_n_n.contr.Idx) : (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The block product into the zero splat, at row `r` and column `k`: the sum over the contracted axis of the
    operands' products. -/
theorem mm_at (a : FVec Ideal S8192x128 .bf16) (b : FVec Ideal S128x128 .bf16) (r : Fin 8192) (k : Fin 128) :
    matmul dot_S8192x128_S128x128_S8192x128_1_0_0_1_n_n none a b (constant (F := Ideal) S8192x128 .f32 0x00000000#32) (ix2 r k) = ∑ c' : Fin 128, a (ix2 r c') * b (ix2 c' k) := by
  simp only [matmul]
  rw [Ideal.matmul_constant_zero_apply, ← Equiv.sum_comp (contrEquiv1 dot_S8192x128_S128x128_S8192x128_1_0_0_1_n_n 128 rfl rfl).symm]
  refine Finset.sum_congr rfl fun c' _ => ?_
  have hk := contrEquiv1_symm_val dot_S8192x128_S128x128_S8192x128_1_0_0_1_n_n 128 rfl rfl c'
  have el : dot_S8192x128_S128x128_S8192x128_1_0_0_1_n_n.lhsIdx (ix2 r k) ((contrEquiv1 dot_S8192x128_S128x128_S8192x128_1_0_0_1_n_n 128 rfl rfl).symm c') = ix2 r c' := funext fun a => Fin.ext (by
    match a with
    | ⟨0, _⟩ => exact mm_lhs0 _ _
    | ⟨1, _⟩ => exact (mm_lhs1 _ _).trans hk)
  have er : dot_S8192x128_S128x128_S8192x128_1_0_0_1_n_n.rhsIdx (ix2 r k) ((contrEquiv1 dot_S8192x128_S128x128_S8192x128_1_0_0_1_n_n 128 rfl rfl).symm c') = ix2 c' k := funext fun a => Fin.ext (by
    match a with
    | ⟨0, _⟩ => exact (mm_rhs0 _ _).trans hk
    | ⟨1, _⟩ => exact mm_rhs1 _ _)
  rw [el, er]

/-- A length-128 row broadcast down the block's rows, at row `r` and column `k`, is the row's entry `k`. -/
theorem row_at (v : Vec Ideal S128 .f32) (r : Fin 8192) (k : Fin 128) :
    broadcastTo S8192x128 (shapeCast S1x128 v shapeCasts_S128_S1x128) broadcasts_S1x128_S8192x128 (ix2 r k) = v (ix1 k) := by
  refine (broadcastTo_apply _ _ (ix2 r k) (ix2 (0 : Fin 1) k) fun a => ?_).trans ?_
  · match a with
    | ⟨0, _⟩ => rfl
    | ⟨1, _⟩ => rfl
  refine shapeCast_apply _ _ (ix2 (0 : Fin 1) k) (ix1 k) ?_
  rw [Shape.rowMajor_val_one, Shape.rowMajor_val_two]
  show k.val = 0 * 128 + k.val
  omega

/-- The body's stored value at row `r`, column `k` of its block: the hyperbolic tangent of the block product's
    entry plus the bias, scaled and shifted column by column. -/
theorem pay2_at (x0 : Vec Ideal S1x8192x128 .bf16) (x1 : Vec Ideal S1x128x128 .bf16) (x2 x3 x4 : Vec Ideal S128 .f32)
    (r : Fin 8192) (k : Fin 128) :
    k2_pay1 (F := Ideal) x0 x1 x2 x3 x4 (ix3 (0 : Fin 1) r k)
      = Ideal.tanh ((∑ c' : Fin 128, x0 (ix3 (0 : Fin 1) r c') * x1 (ix3 (0 : Fin 1) c' k) + x2 (ix1 k)) * x3 (ix1 k) + x4 (ix1 k)) := by
  unfold k2_pay1
  refine (shapeCast_apply _ _ (ix3 (0 : Fin 1) r k) (ix2 r k) ?_).trans ?_
  · rw [Shape.rowMajor_val_two, Shape.rowMajor_val_three]
    show r.val * 128 + k.val = (0 * 8192 + r.val) * 128 + k.val
    omega
  refine congrArg Ideal.tanh ?_
  refine congrArg₂ (· + ·) (congrArg₂ (· * ·) (congrArg₂ (· + ·) ?_ ?_) ?_) ?_
  · refine (mm_at _ _ r k).trans (Finset.sum_congr rfl fun c' _ => congrArg₂ (· * ·) ?_ ?_)
    · refine shapeCast_apply _ _ (ix2 r c') (ix3 (0 : Fin 1) r c') ?_
      rw [Shape.rowMajor_val_two, Shape.rowMajor_val_three]
      show (0 * 8192 + r.val) * 128 + c'.val = r.val * 128 + c'.val
      omega
    · refine shapeCast_apply _ _ (ix2 c' k) (ix3 (0 : Fin 1) c' k) ?_
      rw [Shape.rowMajor_val_two, Shape.rowMajor_val_three]
      show (0 * 128 + c'.val) * 128 + k.val = c'.val * 128 + k.val
      omega
  · exact row_at x2 r k
  · rw [shapeCast_self]; exact row_at x3 r k
  · rw [shapeCast_self]; exact row_at x4 r k

/-! ## The region's result as one function of its operands as the region finds them -/

section Value
variable (V : (c : Dev nD) → (b : Ref sig .tc) → Buf (Elt Ideal) ((c : Thread nD τ).loc b))

/-- The region's operands as it finds them: the rows (batch, row, feature), the per-batch matrix (batch, feature,
    column), and the bias, scale and shift rows (column). -/
abbrev opX (c : Dev nD) : S16x24576x128.Idx → EReal := V c main_v4
abbrev opW (c : Dev nD) : S16x128x128.Idx → EReal := V c main_v16
abbrev opBias (c : Dev nD) : S128.Idx → EReal := V c main_arg3
abbrev opScale (c : Dev nD) : S128.Idx → EReal := V c main_v34
abbrev opShift (c : Dev nD) : S128.Idx → EReal := V c main_v36

/-- Entry `(b, e, k)` of the result: row `e` of batch `b` of the first operand times batch `b` of the second, at
    column `k`, plus the bias, scaled and shifted column by column, under the hyperbolic tangent. -/
def val2 (c : Dev nD) (b : Fin 16) (e : Fin 24576) (k : Fin 128) : EReal :=
  Ideal.tanh ((∑ c' : Fin 128, opX V c (ix3 b e c') * opW V c (ix3 b c' k)
      + opBias V c (ix1 k)) * opScale V c (ix1 k) + opShift V c (ix1 k))

/-- The whole result array. -/
def G2 (c : Dev nD) : S16x24576x128.Idx → EReal := fun i => val2 V c (i 0) (i 1) (i 2)

theorem hz3 : (![0, 0, 0] : Fin 3 → Nat) = fun _ => 0 := funext fun a => by fin_cases a <;> rfl
theorem hz1 : (![0] : Fin 1 → Nat) = fun _ => 0 := funext fun a => by fin_cases a <;> rfl

/-- The printed index maps, decided over the grid: the first operand's block moves with the result's, the second
    operand's with the result's batch, the three rows are whole, and the result's block indices stay in range. -/
theorem idx_facts2 : ∀ t : Fin cfg2.N,
    win2_0.index t (0 : Fin 3) = win2_5.index t (0 : Fin 3) ∧ win2_0.index t (1 : Fin 3) = win2_5.index t (1 : Fin 3)
    ∧ win2_0.index t (2 : Fin 3) = 0 ∧ win2_5.index t (2 : Fin 3) = 0
    ∧ win2_1.index t (0 : Fin 3) = win2_5.index t (0 : Fin 3) ∧ win2_1.index t (1 : Fin 3) = 0 ∧ win2_1.index t (2 : Fin 3) = 0
    ∧ win2_2.index t (0 : Fin 1) = 0 ∧ win2_3.index t (0 : Fin 1) = 0 ∧ win2_4.index t (0 : Fin 1) = 0
    ∧ win2_5.index t (0 : Fin 3) ≤ 15 ∧ win2_5.index t (1 : Fin 3) ≤ 2 :=
  (by decide +kernel : ∀ t : Fin grid2.N, _)

/-- Every block of the result is some point's. -/
theorem idx_onto2 : ∀ (q0 : Fin 16) (q1 : Fin 3), ∃ t : Fin cfg2.N, win2_5.index t = ![q0.val, q1.val, 0] :=
  (by decide +kernel : ∀ (q0 : Fin 16) (q1 : Fin 3), ∃ t : Fin grid2.N, win2_5.index t = ![q0.val, q1.val, 0])

/-- What point `t` writes back is block `t` of the whole result. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz3]
  simp only [View.ld_unit_zero (S := S1x8192x128) hz3, View.ld_unit_zero (S := S1x128x128) hz3, View.ld_unit_zero (S := S128) hz1]
  obtain ⟨e0, e1, e2, e3, e4, e5, e6, e7, e8, e9, e10, e11⟩ := idx_facts2 t
  funext j
  obtain ⟨r, k, rfl⟩ : ∃ (r : Fin 8192) (k : Fin 128), j = ix3 (0 : Fin 1) r k :=
    ⟨j 1, j 2, funext fun a => by
      match a with
      | ⟨0, _⟩ => exact Fin.ext (by show (j 0).val = 0; have h : (j 0).val < 1 := (j 0).isLt; omega)
      | ⟨1, _⟩ => rfl
      | ⟨2, _⟩ => rfl⟩
  refine (pay2_at _ _ _ _ _ r k).trans ?_
  show _ = val2 V c (((cfg2.win 5).blk t).view.emb (ix3 (0 : Fin 1) r k) 0) (((cfg2.win 5).blk t).view.emb (ix3 (0 : Fin 1) r k) 1) (((cfg2.win 5).blk t).view.emb (ix3 (0 : Fin 1) r k) 2)
  unfold val2
  have hk : (ix1 (((cfg2.win 5).blk t).view.emb (ix3 (0 : Fin 1) r k) 2) : S128.Idx) = ix1 k := funext fun a => by
    match a with
    | ⟨0, _⟩ => exact Fin.ext (by show win2_5.index t (2 : Fin 3) * 128 + 1 * k.val = k.val; omega)
  have h2 : iblk2 V c 2 t (ix1 k) = opBias V c (ix1 k) := by
    show opBias V c (((cfg2.win 2).blk t).view.emb (ix1 k)) = _
    refine congrArg _ (funext fun a => ?_)
    match a with
    | ⟨0, _⟩ => exact Fin.ext (by show win2_2.index t (0 : Fin 1) * 128 + 1 * k.val = k.val; omega)
  have h3 : iblk2 V c 3 t (ix1 k) = opScale V c (ix1 k) := by
    show opScale V c (((cfg2.win 3).blk t).view.emb (ix1 k)) = _
    refine congrArg _ (funext fun a => ?_)
    match a with
    | ⟨0, _⟩ => exact Fin.ext (by show win2_3.index t (0 : Fin 1) * 128 + 1 * k.val = k.val; omega)
  have h4 : iblk2 V c 4 t (ix1 k) = opShift V c (ix1 k) := by
    show opShift V c (((cfg2.win 4).blk t).view.emb (ix1 k)) = _
    refine congrArg _ (funext fun a => ?_)
    match a with
    | ⟨0, _⟩ => exact Fin.ext (by show win2_4.index t (0 : Fin 1) * 128 + 1 * k.val = k.val; omega)
  rw [hk, h2, h3, h4]
  refine congrArg Ideal.tanh (congrArg₂ (· + ·) (congrArg₂ (· * ·) (congrArg₂ (· + ·) (Finset.sum_congr rfl fun c' _ => congrArg₂ (· * ·) ?_ ?_) rfl) rfl) rfl)
  · show opX V c (((cfg2.win 0).blk t).view.emb (ix3 (0 : Fin 1) r c')) = _
    refine congrArg _ (funext fun a => ?_)
    match a with
    | ⟨0, _⟩ => exact Fin.ext (by show win2_0.index t (0 : Fin 3) * 1 + 1 * 0 = win2_5.index t (0 : Fin 3) * 1 + 1 * 0; omega)
    | ⟨1, _⟩ => exact Fin.ext (by show win2_0.index t (1 : Fin 3) * 8192 + 1 * r.val = win2_5.index t (1 : Fin 3) * 8192 + 1 * r.val; omega)
    | ⟨2, _⟩ => exact Fin.ext (by show win2_0.index t (2 : Fin 3) * 128 + 1 * c'.val = c'.val; omega)
  · show opW V c (((cfg2.win 1).blk t).view.emb (ix3 (0 : Fin 1) c' k)) = _
    refine congrArg _ (funext fun a => ?_)
    match a with
    | ⟨0, _⟩ => exact Fin.ext (by show win2_1.index t (0 : Fin 3) * 1 + 1 * 0 = win2_5.index t (0 : Fin 3) * 1 + 1 * 0; omega)
    | ⟨1, _⟩ => exact Fin.ext (by show win2_1.index t (1 : Fin 3) * 128 + 1 * c'.val = c'.val; omega)
    | ⟨2, _⟩ => exact Fin.ext (by show win2_1.index t (2 : Fin 3) * 128 + 1 * k.val = win2_5.index t (2 : Fin 3) * 128 + 1 * k.val; omega)

/-- An index of the result is in point `t`'s block iff each coordinate is in the block's range on its axis. -/
theorem mem_blk2 (t : Fin cfg2.N) (i : S16x24576x128.Idx) :
    i ∈ ((cfg2.win 5).blk t).view.set ↔ ∀ a : Fin 3, win2_5.index t a * S1x8192x128.size a ≤ (i a).val ∧ (i a).val < win2_5.index t a * S1x8192x128.size a + S1x8192x128.size a := by
  show i ∈ ((View.whole main_v37).slice (win2_5.rect t)).set ↔ _
  rw [View.set_slice_whole, Rect.mem_set_unit]
  exact Iff.rfl

/-- Every index of the result is in some point's block: row `e` of batch `b` is in the block of batch `b`, tile `e / 8192`. -/
theorem cover2 (i : S16x24576x128.Idx) : ∃ t : Fin cfg2.N, (cfg2.win 5).flush t = true ∧ i ∈ ((cfg2.win 5).blk t).view.set := by
  have hi0 : (i 0).val < 16 := (i 0).isLt
  have hi1 : (i 1).val < 24576 := (i 1).isLt
  have hi2 : (i 2).val < 128 := (i 2).isLt
  obtain ⟨t, ht⟩ := idx_onto2 ⟨(i 0).val, hi0⟩ ⟨(i 1).val / 8192, by omega⟩
  have q0 : win2_5.index t (0 : Fin 3) = (i 0).val := congrFun ht 0
  have q1 : win2_5.index t (1 : Fin 3) = (i 1).val / 8192 := congrFun ht 1
  have q2 : win2_5.index t (2 : Fin 3) = 0 := congrFun ht 2
  refine ⟨t, flush2_5 t, ?_⟩
  rw [mem_blk2]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 8192 ≤ (i 1).val ∧ (i 1).val < win2_5.index t (1 : Fin 3) * 8192 + 8192; omega
  | ⟨2, _⟩ => show win2_5.index t (2 : Fin 3) * 128 ≤ (i 2).val ∧ (i 2).val < win2_5.index t (2 : Fin 3) * 128 + 128; omega

/-- The result array after the region: the whole-array function of the operands. -/
theorem final2 (c : Dev nD) : (dat2 V c).arrAt 5 cfg2.N = G2 V c :=
  (dat2 V c).arrAt_eq_of_cover 5 (G2 V c) (fun t _ => flushed2_eq V c t) cover2

/-- The result array after the region, entry by entry. -/
theorem out_value (c : Dev nD) (b : Fin 16) (e : Fin 24576) (k : Fin 128) :
    ((dat2 (F := Ideal) V c).arrAt 5 cfg2.N : S16x24576x128.Idx → EReal) (ix3 b e k)
      = Ideal.tanh ((∑ c' : Fin 128, opX V c (ix3 b e c') * opW V c (ix3 b c' k)
          + opBias V c (ix1 k)) * opScale V c (ix1 k) + opShift V c (ix1 k)) := by
  rw [final2]
  rfl

end Value

/-- info: 'Cert.KernelIdeal.Hand.out_value' depends on axioms: [propext, Classical.choice, Quot.sound] -/
#guard_msgs in #print axioms out_value

end Cert.KernelIdeal.Hand

end
-- ==== Proof.KI.KValue.lean ====
/-
  The kernel's result, index by index, is the specification's kernel formula of the arguments.

  Region 0 leaves the L1 column sums of the features; the host folds their floored reciprocals into the weights;
  region 1 leaves the per-batch sums of z and z² for z = features × folded weights; the host forms the scale and the
  shift from them; region 2 writes tanh((z + bias)·scale + shift).  Each step is read here at an index and identified
  with the corresponding function of the specification.
-/
import proofs.«163788_j32392643347009_2_alg».proof.Proof.KI.Chain
import proofs.«163788_j32392643347009_2_alg».proof.Proof.KI.Val0
import proofs.«163788_j32392643347009_2_alg».proof.Proof.KI.Val1
import proofs.«163788_j32392643347009_2_alg».proof.Proof.KI.Val2
import proofs.«163788_j32392643347009_2_alg».proof.Proof.Spec

set_option maxRecDepth 16384

noncomputable section

namespace Cert.KernelIdeal.HandVal

open Idealize.ShloMosaic Idealize.ShloMosaic.TcCoe Idealize.ShloMosaic.StableHlo Idealize.ShloMosaic.ValueIdx
open Idealize.SL Idealize.SL.Sem
open Cert.KernelIdeal Cert.KernelIdeal.Hand Cert.KernelIdeal.Glue
open Cert.KernelIdeal.Gen hiding V0 V1 V2 V3 V4 V5 V6 V7 V8 segs

variable (m : (ℓ : Loc nD τ sig) → Buf (Elt Ideal) ℓ) (ρ : Dev nD → PrngReg)

/-- The specification's arrays, read off the launch memory. -/
def XK (c : Dev nD) : Fin 16 → Fin 24576 → Fin 128 → EReal := fun b e ch =>
  (gatheredK (m ((c : Thread nD τ).loc main_arg0)) (m ((c : Thread nD τ).loc main_arg1)) : S16x24576x128.Idx → EReal) (ix3 b e ch)
def WK (c : Dev nD) : Fin 128 → Fin 128 → EReal := fun i j => (m ((c : Thread nD τ).loc main_arg2) : S128x128.Idx → EReal) (ix2 i j)
def biasK (c : Dev nD) : Fin 128 → EReal := fun k => (m ((c : Thread nD τ).loc main_arg3) : S128.Idx → EReal) (ix1 k)
def gammaK (c : Dev nD) : Fin 128 → EReal := fun k => (m ((c : Thread nD τ).loc main_arg4) : S128.Idx → EReal) (ix1 k)
def betaK (c : Dev nD) : Fin 128 → EReal := fun k => (m ((c : Thread nD τ).loc main_arg5) : S128.Idx → EReal) (ix1 k)

/-- The buffers read below, as arrays of extended reals. -/
abbrev xA (c : Dev nD) : S16x24576x128.Idx → EReal := xArr m c
abbrev a5 (c : Dev nD) : S16x1x128.Idx → EReal := W4 m ρ c (Proc.devRef .tc main_v5)
abbrev wA (c : Dev nD) : S16x128x128.Idx → EReal :=
  wpTerm (W4 m ρ c (Proc.devRef .tc main_v5)) (m ((c : Thread nD τ).loc main_arg2))
abbrev aSz (c : Dev nD) : S16x1x128.Idx → EReal := W6 m ρ c (Proc.devRef .tc main_v17_0)
abbrev aSz2 (c : Dev nD) : S16x1x128.Idx → EReal := W6 m ρ c (Proc.devRef .tc main_v17_1)
abbrev aOut (c : Dev nD) : S16x24576x128.Idx → EReal := W8 m ρ c (Proc.devRef .tc main_v37)

theorem xA_apply (c : Dev nD) (b : Fin 16) (e : Fin 24576) (ch : Fin 128) : xA m c (ix3 b e ch) = XK m c b e ch := by
  unfold xA xArr XK
  exact truncf_apply _ bitsLt_bf16_f32 (ix3 b e ch)

/-- The column sums region 0 leaves. -/
theorem a5_apply (c : Dev nD) (b : Fin 16) (ch : Fin 128) : a5 m ρ c (ix3 b 0 ch) = Cert.Spec.colSum (XK m c) b ch := by
  have e5 : a5 m ρ c = ((dat0 (F := Ideal) (V3 m ρ) c).arrAt 1 cfg0.N : S16x1x128.Idx → EReal) := W4_main_v5 m ρ c
  have hx : xin (V3 m ρ) c = xA m c := W3_main_v4 m ρ c
  rw [e5, denom_value (V3 m ρ) c b ch, hx]
  unfold Cert.Spec.colSum
  refine Finset.sum_congr rfl fun e _ => ?_
  rw [xA_apply]

/-- The folded weights. -/
theorem wA_apply (c : Dev nD) (b : Fin 16) (c' k : Fin 128) : wA m ρ c (ix3 b c' k) = Cert.Spec.wp (XK m c) (WK m c) b c' k := by
  have h := wpTerm_apply (W4 m ρ c (Proc.devRef .tc main_v5)) (m ((c : Thread nD τ).loc main_arg2)) b c' k
  have h5 := a5_apply m ρ c b c'
  unfold a5 at h5
  rw [h5] at h
  exact h

/-- The bias-free linear layer. -/
theorem z_bridge (c : Dev nD) (b : Fin 16) (e : Fin 24576) (k : Fin 128) :
    (∑ c' : Fin 128, xA m c (ix3 b e c') * wA m ρ c (ix3 b c' k)) = Cert.Spec.zK (XK m c) (WK m c) b e k := by
  unfold Cert.Spec.zK
  refine Finset.sum_congr rfl fun c' _ => ?_
  rw [wA_apply, xA_apply]

/-- What region 1 leaves: the per-batch sums of z and of z². -/
theorem aSz_apply (c : Dev nD) (b : Fin 16) (k : Fin 128) :
    aSz m ρ c (ix3 b 0 k) = ∑ e : Fin 24576, Cert.Spec.zK (XK m c) (WK m c) b e k := by
  have e2 : aSz m ρ c = ((dat1 (F := Ideal) (V5 m ρ) c).arrAt 2 cfg1.N : S16x1x128.Idx → EReal) := W6_main_v17_0 m ρ c
  have hx : xOf (V5 m ρ) c = xA m c := W5_main_v4 m ρ c
  have hw : wOf (V5 m ρ) c = wA m ρ c := W5_main_v16 m ρ c
  rw [e2, sumz_value (V5 m ρ) c b k, hx, hw]
  refine Finset.sum_congr rfl fun e _ => ?_
  unfold zOf
  exact z_bridge m ρ c b e k

theorem aSz2_apply (c : Dev nD) (b : Fin 16) (k : Fin 128) :
    aSz2 m ρ c (ix3 b 0 k)
      = ∑ e : Fin 24576, Cert.Spec.zK (XK m c) (WK m c) b e k * Cert.Spec.zK (XK m c) (WK m c) b e k := by
  have e2 : aSz2 m ρ c = ((dat1 (F := Ideal) (V5 m ρ) c).arrAt 3 cfg1.N : S16x1x128.Idx → EReal) := W6_main_v17_1 m ρ c
  have hx : xOf (V5 m ρ) c = xA m c := W5_main_v4 m ρ c
  have hw : wOf (V5 m ρ) c = wA m ρ c := W5_main_v16 m ρ c
  rw [e2, sumz2_value (V5 m ρ) c b k, hx, hw]
  refine Finset.sum_congr rfl fun e _ => ?_
  unfold zOf
  rw [z_bridge m ρ c b e k]

/-- The result, given what region 1 leaves. -/
theorem kernel_value_of (c : Dev nD)
    (hsz : ∀ (b : Fin 16) (k : Fin 128), aSz m ρ c (ix3 b 0 k) = ∑ e : Fin 24576, Cert.Spec.zK (XK m c) (WK m c) b e k)
    (hsz2 : ∀ (b : Fin 16) (k : Fin 128), aSz2 m ρ c (ix3 b 0 k)
      = ∑ e : Fin 24576, Cert.Spec.zK (XK m c) (WK m c) b e k * Cert.Spec.zK (XK m c) (WK m c) b e k)
    (b : Fin 16) (e : Fin 24576) (k : Fin 128) :
    aOut m ρ c (ix3 b e k) = Cert.Spec.outK (XK m c) (WK m c) (biasK m c) (gammaK m c) (betaK m c) b e k := by
  have eO : aOut m ρ c = ((dat2 (F := Ideal) (V7 m ρ) c).arrAt 5 cfg2.N : S16x24576x128.Idx → EReal) := W8_main_v37 m ρ c
  have hx : opX (V7 m ρ) c = xA m c := W7_main_v4 m ρ c
  have hw : opW (V7 m ρ) c = wA m ρ c := W7_main_v16 m ρ c
  have hb : opBias (V7 m ρ) c = (m ((c : Thread nD τ).loc main_arg3) : S128.Idx → EReal) := W7_main_arg3 m ρ c
  have hs : opScale (V7 m ρ) c = (scaleTerm (aSz m ρ c) (aSz2 m ρ c) (m ((c : Thread nD τ).loc main_arg4)) : S128.Idx → EReal) :=
    W7_main_v34 m ρ c
  have hh : opShift (V7 m ρ) c = (shiftTerm (aSz m ρ c) (aSz2 m ρ c) (m ((c : Thread nD τ).loc main_arg3))
      (m ((c : Thread nD τ).loc main_arg4)) (m ((c : Thread nD τ).loc main_arg5)) : S128.Idx → EReal) := W7_main_v36 m ρ c
  rw [eO, out_value (V7 m ρ) c b e k, hx, hw, hb, hs, hh, z_bridge, shiftTerm_apply, scaleTerm_apply, varT_apply]
  simp only [meanT_apply, hsz, hsz2]
  rfl

/-- The kernel's result at an index. -/
theorem kernel_value (c : Dev nD) (b : Fin 16) (e : Fin 24576) (k : Fin 128) :
    aOut m ρ c (ix3 b e k) = Cert.Spec.outK (XK m c) (WK m c) (biasK m c) (gammaK m c) (betaK m c) b e k :=
  kernel_value_of m ρ c (aSz_apply m ρ c) (aSz2_apply m ρ c) b e k

end Cert.KernelIdeal.HandVal

end
-- ==== Proof.LibLineAppend.lean ====
/-
  A line of host operations cut in two.

  What a line of host operations leaves in the buffers is what its second part leaves from what its first part left
  (the fold over the line splits at any cut).  A property of every operation of both parts holds of every operation of
  the line, in the two forms the run of a line asks for it: as a conjunction over the list and as a statement about
  the list's members.  With these a long straight-line program is run as a few short lists appended, each list's
  results computed on its own from unknown earlier contents.
-/
import Idealize.ShloMosaic.Lib.StableHlo.Run

namespace Cert.Lib.LineAppend

open Idealize.ShloMosaic Idealize.ShloMosaic.StableHlo

variable {τ : Topo} {sig : RefSig}

/-- What a line of two parts leaves is what the second part leaves from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem fresh_append {α β : Type} {f : α → β} {z : β} {l₁ l₂ : List α} (h₁ : ∀ x ∈ l₁, f x = z) (h₂ : ∀ x ∈ l₂, f x = z) :
    ∀ x ∈ l₁ ++ l₂, f x = z :=
  fun x hx => (List.mem_append.mp hx).elim (h₁ x) (h₂ x)

end Cert.Lib.LineAppend
-- ==== Proof.Ref.Run.lean ====
/-
  The run of the reference program.

  The reference's @main is a straight line of 69 host operations.  The line is cut into four appended lists (25, 13, 14
  and 17 operations): the first ends at the gathered rows reshaped to [16, 24576, 128], the second at the product with
  the weights plus the bias, the third computes the mean and the variance over the rows, the fourth the result.  What a
  line of two parts leaves in the buffers is what the second part leaves from what the first part left, so each list's
  results are computed on their own from unknown earlier contents, and each is one of the stages `val_<buffer>` of the
  reading of the program: every intermediate result is named once instead of being copied into each term that reads it.

  Hence: on every device, from any memory with zero counters, every weakly fair execution of @main terminates with the
  result buffer at the last stage `val_main_v40` of the reading at the six arguments' launch contents, and the six
  arguments unchanged.
-/
import proofs.«163788_j32392643347009_2_alg».proof.Proof.Ref.Read
import proofs.«163788_j32392643347009_2_alg».proof.Proof.LibLineAppend
import proofs.«163788_j32392643347009_2_alg».proof.Proof.LibTypedRef
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- @main's 69 operations, in order (a called function's operations stand in its call's place, spelt `TRef.…`). -/
abbrev ops : List (HloOp τ sig (Elt F)) :=
  [ reshape main_arg1 main_v0 rfl shapeCasts_S16x24576x2_S16x49152,
    unary main_v0 main_v1 (broadcastInDim S16x49152x1 ![0, 1] bcast_S16x49152_S16x49152x1_0_1 : (⟨S16x49152, .i32⟩ : BufTy).Contents (Elt F) → (⟨S16x49152x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S16x49152x1, .i32⟩) main_call0_v0) (broadcastInDim S16x49152x1 ![] bcast_S_S16x49152x1),
    TRef.binary (TRef.of (T := ⟨S16x49152x1, .i32⟩) main_v1) (TRef.of (T := ⟨S16x49152x1, .i32⟩) main_call0_v0) (TRef.of (T := ⟨S16x49152x1, .i1⟩) main_call0_v1) (cmpi .slt),
    TRef.nullary (TRef.of (T := ⟨S_, .i32⟩) main_call0_c_0) (constantI S_ 32 2048#32),
    TRef.unary (TRef.of (T := ⟨S_, .i32⟩) main_call0_c_0) (TRef.of (T := ⟨S16x49152x1, .i32⟩) main_call0_v2) (broadcastInDim S16x49152x1 ![] bcast_S_S16x49152x1),
    TRef.binary (TRef.of (T := ⟨S16x49152x1, .i32⟩) main_v1) (TRef.of (T := ⟨S16x49152x1, .i32⟩) main_call0_v2) (TRef.of (T := ⟨S16x49152x1, .i32⟩) main_call0_v3) addi,
    TRef.ternary (TRef.of (T := ⟨S16x49152x1, .i1⟩) main_call0_v1) (TRef.of (T := ⟨S16x49152x1, .i32⟩) main_call0_v3) (TRef.of (T := ⟨S16x49152x1, .i32⟩) main_v1) (TRef.of (T := ⟨S16x49152x1, .i32⟩) main_call0_v4) select,
    TRef.nullary (TRef.of (T := ⟨S1, .i32⟩) main_call0_c_1) (constantI S1 32 2047#32),
    TRef.nullary (TRef.of (T := ⟨S_, .i32⟩) main_call0_c_2) (constantI S_ 32 0#32),
    TRef.unary (TRef.of (T := ⟨S_, .i32⟩) main_call0_c_2) (TRef.of (T := ⟨S16x49152x1, .i32⟩) main_call0_v5) (broadcastInDim S16x49152x1 ![] bcast_S_S16x49152x1),
    TRef.binary (TRef.of (T := ⟨S16x49152x1, .i32⟩) main_call0_v4) (TRef.of (T := ⟨S16x49152x1, .i32⟩) main_call0_v5) (TRef.of (T := ⟨S16x49152x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S16x49152x1, .i32⟩) main_call0_v8) (broadcastInDim S16x49152x1 ![0, 1, 2] bcast_S1x1x1_S16x49152x1_0_1_2),
    TRef.binary (TRef.of (T := ⟨S16x49152x1, .i32⟩) main_call0_v4) (TRef.of (T := ⟨S16x49152x1, .i32⟩) main_call0_v8) (TRef.of (T := ⟨S16x49152x1, .i1⟩) main_call0_v9) (cmpi .sle),
    TRef.binary (TRef.of (T := ⟨S16x49152x1, .i1⟩) main_call0_v6) (TRef.of (T := ⟨S16x49152x1, .i1⟩) main_call0_v9) (TRef.of (T := ⟨S16x49152x1, .i1⟩) main_call0_v10) andi,
    TRef.nullary (TRef.of (T := ⟨S_, .i1⟩) main_call0_c_3) (constantI S_ 1 1#1),
    TRef.binary (TRef.of (T := ⟨S16x49152x1, .i1⟩) main_call0_v10) (TRef.of (T := ⟨S_, .i1⟩) main_call0_c_3) (TRef.of (T := ⟨S16x49152, .i1⟩) main_call0_v11) (fun x v => Host.reduce IntOp.andi x v reducesTo_S16x49152x1_S16x49152_d2 h_S_),
    TRef.binary (TRef.of (T := ⟨S16x2048x64, .f32⟩) main_arg0) (TRef.of (T := ⟨S16x49152x1, .i32⟩) main_call0_v4) (TRef.of (T := ⟨S16x49152x64, .f32⟩) main_call0_v12) (fun x i => Host.gather gather_S16x2048x64_S16x49152x1_S16x49152x64_2_1_0_0_1_2_1164 x i),
    TRef.unary (TRef.of (T := ⟨S16x49152, .i1⟩) main_call0_v11) (TRef.of (T := ⟨S16x49152x64, .i1⟩) main_call0_v13) (broadcastInDim S16x49152x64 ![0, 1] bcast_S16x49152_S16x49152x64_0_1),
    TRef.nullary (TRef.of (T := ⟨S_, .f32⟩) main_call0_cst) (constant S_ .f32 0x7FC00000#32),
    TRef.unary (TRef.of (T := ⟨S_, .f32⟩) main_call0_cst) (TRef.of (T := ⟨S16x49152x64, .f32⟩) main_call0_v14) (broadcastInDim S16x49152x64 ![] bcast_S_S16x49152x64),
    TRef.ternary (TRef.of (T := ⟨S16x49152x64, .i1⟩) main_call0_v13) (TRef.of (T := ⟨S16x49152x64, .f32⟩) main_call0_v12) (TRef.of (T := ⟨S16x49152x64, .f32⟩) main_call0_v14) (TRef.of (T := ⟨S16x49152x64, .f32⟩) main_v2) select,
    reshape main_v2 main_v3 rfl shapeCasts_S16x49152x64_S16x24576x128,
    unary main_v3 main_v4 (Host.absf : (⟨S16x24576x128, .f32⟩ : BufTy).Contents (Elt F) → (⟨S16x24576x128, .f32⟩ : BufTy).Contents (Elt F)),
    nullary main_cst (constant S_ .f32 0x00000000#32),
    binary main_v4 main_cst main_v5 ((fun x v => Host.reduceAdd x v reducesTo_S16x24576x128_S16x128_d1 h_S_) : (⟨S16x24576x128, .f32⟩ : BufTy).Contents (Elt F) → (⟨S_, .f32⟩ : BufTy).Contents (Elt F) → (⟨S16x128, .f32⟩ : BufTy).Contents (Elt F)),
    unary main_v5 main_v6 (broadcastInDim S16x1x128 ![0, 2] bcast_S16x128_S16x1x128_0_2 : (⟨S16x128, .f32⟩ : BufTy).Contents (Elt F) → (⟨S16x1x128, .f32⟩ : BufTy).Contents (Elt F)),
    nullary main_cst_0 (constant S_ .f32 0x2B8CBCCC#32),
    unary main_cst_0 main_v7 (broadcastInDim S16x1x128 ![] bcast_S_S16x1x128 : (⟨S_, .f32⟩ : BufTy).Contents (Elt F) → (⟨S16x1x128, .f32⟩ : BufTy).Contents (Elt F)),
    binary main_v6 main_v7 main_v8 (maximumf : (⟨S16x1x128, .f32⟩ : BufTy).Contents (Elt F) → (⟨S16x1x128, .f32⟩ : BufTy).Contents (Elt F) → (⟨S16x1x128, .f32⟩ : BufTy).Contents (Elt F)),
    unary main_v8 main_v9 (broadcastInDim S16x24576x128 ![0, 1, 2] bcast_S16x1x128_S16x24576x128_0_1_2 : (⟨S16x1x128, .f32⟩ : BufTy).Contents (Elt F) → (⟨S16x24576x128, .f32⟩ : BufTy).Contents (Elt F)),
    binary main_v3 main_v9 main_v10 (Host.divf : (⟨S16x24576x128, .f32⟩ : BufTy).Contents (Elt F) → (⟨S16x24576x128, .f32⟩ : BufTy).Contents (Elt F) → (⟨S16x24576x128, .f32⟩ : BufTy).Contents (Elt F)),
    binary main_v10 main_arg2 main_v11 ((fun l r => Host.dotGeneral dot_S16x24576x128_S128x128_S16x24576x128_2_0_01_1_n_n none l r) : (⟨S16x24576x128, .f32⟩ : BufTy).Contents (Elt F) → (⟨S128x128, .f32⟩ : BufTy).Contents (Elt F) → (⟨S16x24576x128, .f32⟩ : BufTy).Contents (Elt F)),
    unary main_arg3 main_v12 (broadcastInDim S1x1x128 ![2] bcast_S128_S1x1x128_2 : (⟨S128, .f32⟩ : BufTy).Contents (Elt F) → (⟨S1x1x128, .f32⟩ : BufTy).Contents (Elt F)),
    unary main_v12 main_v13 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v11 main_v13 main_v14 (addf : (⟨S16x24576x128, .f32⟩ : BufTy).Contents (Elt F) → (⟨S16x24576x128, .f32⟩ : BufTy).Contents (Elt F) → (⟨S16x24576x128, .f32⟩ : BufTy).Contents (Elt F)),
    nullary main_cst_1 (constant S_ .f32 0x00000000#32),
    binary main_v14 main_cst_1 main_v15 ((fun x v => Host.reduceAdd x v reducesTo_S16x24576x128_S128_d0_1 h_S_) : (⟨S16x24576x128, .f32⟩ : BufTy).Contents (Elt F) → (⟨S_, .f32⟩ : BufTy).Contents (Elt F) → (⟨S128, .f32⟩ : BufTy).Contents (Elt F)),
    nullary main_cst_2 (constant S_ .f32 0x48C00000#32),
    unary main_cst_2 main_v16 (broadcastInDim S128 ![] bcast_S_S128 : (⟨S_, .f32⟩ : BufTy).Contents (Elt F) → (⟨S128, .f32⟩ : BufTy).Contents (Elt F)),
    binary main_v15 main_v16 main_v17 (Host.divf : (⟨S128, .f32⟩ : BufTy).Contents (Elt F) → (⟨S128, .f32⟩ : BufTy).Contents (Elt F) → (⟨S128, .f32⟩ : BufTy).Contents (Elt F)),
    unary main_v17 main_v18 (broadcastInDim S1x1x128 ![2] bcast_S128_S1x1x128_2 : (⟨S128, .f32⟩ : BufTy).Contents (Elt F) → (⟨S1x1x128, .f32⟩ : BufTy).Contents (Elt F)),
    unary main_v18 main_v19 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v14 main_v19 main_v20 (subf : (⟨S16x24576x128, .f32⟩ : BufTy).Contents (Elt F) → (⟨S16x24576x128, .f32⟩ : BufTy).Contents (Elt F) → (⟨S16x24576x128, .f32⟩ : BufTy).Contents (Elt F)),
    binary main_v20 main_v20 main_v21 (mulf : (⟨S16x24576x128, .f32⟩ : BufTy).Contents (Elt F) → (⟨S16x24576x128, .f32⟩ : BufTy).Contents (Elt F) → (⟨S16x24576x128, .f32⟩ : BufTy).Contents (Elt F)),
    nullary main_cst_3 (constant S_ .f32 0x00000000#32),
    binary main_v21 main_cst_3 main_v22 ((fun x v => Host.reduceAdd x v reducesTo_S16x24576x128_S128_d0_1 h_S_) : (⟨S16x24576x128, .f32⟩ : BufTy).Contents (Elt F) → (⟨S_, .f32⟩ : BufTy).Contents (Elt F) → (⟨S128, .f32⟩ : BufTy).Contents (Elt F)),
    nullary main_cst_4 (constant S_ .f32 0x48C00000#32),
    unary main_cst_4 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    unary main_v17 main_v25 (broadcastInDim S1x1x128 ![2] bcast_S128_S1x1x128_2 : (⟨S128, .f32⟩ : BufTy).Contents (Elt F) → (⟨S1x1x128, .f32⟩ : BufTy).Contents (Elt F)),
    unary main_v25 main_v26 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v14 main_v26 main_v27 (subf : (⟨S16x24576x128, .f32⟩ : BufTy).Contents (Elt F) → (⟨S16x24576x128, .f32⟩ : BufTy).Contents (Elt F) → (⟨S16x24576x128, .f32⟩ : BufTy).Contents (Elt F)),
    nullary main_cst_5 (constant S_ .f32 0x3727C5AC#32),
    unary main_cst_5 main_v28 (broadcastInDim S128 ![] bcast_S_S128 : (⟨S_, .f32⟩ : BufTy).Contents (Elt F) → (⟨S128, .f32⟩ : BufTy).Contents (Elt F)),
    binary main_v24 main_v28 main_v29 (addf : (⟨S128, .f32⟩ : BufTy).Contents (Elt F) → (⟨S128, .f32⟩ : BufTy).Contents (Elt F) → (⟨S128, .f32⟩ : BufTy).Contents (Elt F)),
    unary main_v29 main_v30 (Host.rsqrt : (⟨S128, .f32⟩ : BufTy).Contents (Elt F) → (⟨S128, .f32⟩ : BufTy).Contents (Elt F)),
    unary main_v30 main_v31 (broadcastInDim S1x1x128 ![2] bcast_S128_S1x1x128_2 : (⟨S128, .f32⟩ : BufTy).Contents (Elt F) → (⟨S1x1x128, .f32⟩ : BufTy).Contents (Elt F)),
    unary main_v31 main_v32 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v27 main_v32 main_v33 (mulf : (⟨S16x24576x128, .f32⟩ : BufTy).Contents (Elt F) → (⟨S16x24576x128, .f32⟩ : BufTy).Contents (Elt F) → (⟨S16x24576x128, .f32⟩ : BufTy).Contents (Elt F)),
    unary main_arg4 main_v34 (broadcastInDim S1x1x128 ![2] bcast_S128_S1x1x128_2 : (⟨S128, .f32⟩ : BufTy).Contents (Elt F) → (⟨S1x1x128, .f32⟩ : BufTy).Contents (Elt F)),
    unary main_v34 main_v35 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v33 main_v35 main_v36 (mulf : (⟨S16x24576x128, .f32⟩ : BufTy).Contents (Elt F) → (⟨S16x24576x128, .f32⟩ : BufTy).Contents (Elt F) → (⟨S16x24576x128, .f32⟩ : BufTy).Contents (Elt F)),
    unary main_arg5 main_v37 (broadcastInDim S1x1x128 ![2] bcast_S128_S1x1x128_2 : (⟨S128, .f32⟩ : BufTy).Contents (Elt F) → (⟨S1x1x128, .f32⟩ : BufTy).Contents (Elt F)),
    unary main_v37 main_v38 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v36 main_v38 main_v39 (addf : (⟨S16x24576x128, .f32⟩ : BufTy).Contents (Elt F) → (⟨S16x24576x128, .f32⟩ : BufTy).Contents (Elt F) → (⟨S16x24576x128, .f32⟩ : BufTy).Contents (Elt F)),
    unary main_v39 main_v40 (Host.tanh : (⟨S16x24576x128, .f32⟩ : BufTy).Contents (Elt F) → (⟨S16x24576x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩

/-! ## The line cut in four

The 69 operations in four consecutive lists. The first list ends at `main_v3` (the gathered rows, reshaped), the second at
`main_v14` (the normalised rows times the weights, plus the bias), the third computes the two per-channel statistics
`main_v17` (mean) and `main_v24` (variance) of `main_v14`, the fourth the result. What each list leaves is computed on its own
from unknown earlier contents `W`, and is one of the stages `val_<buffer>` of the reading, so every intermediate result
is named once instead of being copied into each term that reads it. -/

/-- Operations 1–25: the index arithmetic, the gather and its reshape to `[16,24576,128]`, ending at `main_v3`. -/
abbrev opsG : List (HloOp τ sig (Elt F)) :=
  [ reshape main_arg1 main_v0 rfl shapeCasts_S16x24576x2_S16x49152,
    unary main_v0 main_v1 (broadcastInDim S16x49152x1 ![0, 1] bcast_S16x49152_S16x49152x1_0_1 : (⟨S16x49152, .i32⟩ : BufTy).Contents (Elt F) → (⟨S16x49152x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S16x49152x1, .i32⟩) main_call0_v0) (broadcastInDim S16x49152x1 ![] bcast_S_S16x49152x1),
    TRef.binary (TRef.of (T := ⟨S16x49152x1, .i32⟩) main_v1) (TRef.of (T := ⟨S16x49152x1, .i32⟩) main_call0_v0) (TRef.of (T := ⟨S16x49152x1, .i1⟩) main_call0_v1) (cmpi .slt),
    TRef.nullary (TRef.of (T := ⟨S_, .i32⟩) main_call0_c_0) (constantI S_ 32 2048#32),
    TRef.unary (TRef.of (T := ⟨S_, .i32⟩) main_call0_c_0) (TRef.of (T := ⟨S16x49152x1, .i32⟩) main_call0_v2) (broadcastInDim S16x49152x1 ![] bcast_S_S16x49152x1),
    TRef.binary (TRef.of (T := ⟨S16x49152x1, .i32⟩) main_v1) (TRef.of (T := ⟨S16x49152x1, .i32⟩) main_call0_v2) (TRef.of (T := ⟨S16x49152x1, .i32⟩) main_call0_v3) addi,
    TRef.ternary (TRef.of (T := ⟨S16x49152x1, .i1⟩) main_call0_v1) (TRef.of (T := ⟨S16x49152x1, .i32⟩) main_call0_v3) (TRef.of (T := ⟨S16x49152x1, .i32⟩) main_v1) (TRef.of (T := ⟨S16x49152x1, .i32⟩) main_call0_v4) select,
    TRef.nullary (TRef.of (T := ⟨S1, .i32⟩) main_call0_c_1) (constantI S1 32 2047#32),
    TRef.nullary (TRef.of (T := ⟨S_, .i32⟩) main_call0_c_2) (constantI S_ 32 0#32),
    TRef.unary (TRef.of (T := ⟨S_, .i32⟩) main_call0_c_2) (TRef.of (T := ⟨S16x49152x1, .i32⟩) main_call0_v5) (broadcastInDim S16x49152x1 ![] bcast_S_S16x49152x1),
    TRef.binary (TRef.of (T := ⟨S16x49152x1, .i32⟩) main_call0_v4) (TRef.of (T := ⟨S16x49152x1, .i32⟩) main_call0_v5) (TRef.of (T := ⟨S16x49152x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S16x49152x1, .i32⟩) main_call0_v8) (broadcastInDim S16x49152x1 ![0, 1, 2] bcast_S1x1x1_S16x49152x1_0_1_2),
    TRef.binary (TRef.of (T := ⟨S16x49152x1, .i32⟩) main_call0_v4) (TRef.of (T := ⟨S16x49152x1, .i32⟩) main_call0_v8) (TRef.of (T := ⟨S16x49152x1, .i1⟩) main_call0_v9) (cmpi .sle),
    TRef.binary (TRef.of (T := ⟨S16x49152x1, .i1⟩) main_call0_v6) (TRef.of (T := ⟨S16x49152x1, .i1⟩) main_call0_v9) (TRef.of (T := ⟨S16x49152x1, .i1⟩) main_call0_v10) andi,
    TRef.nullary (TRef.of (T := ⟨S_, .i1⟩) main_call0_c_3) (constantI S_ 1 1#1),
    TRef.binary (TRef.of (T := ⟨S16x49152x1, .i1⟩) main_call0_v10) (TRef.of (T := ⟨S_, .i1⟩) main_call0_c_3) (TRef.of (T := ⟨S16x49152, .i1⟩) main_call0_v11) (fun x v => Host.reduce IntOp.andi x v reducesTo_S16x49152x1_S16x49152_d2 h_S_),
    TRef.binary (TRef.of (T := ⟨S16x2048x64, .f32⟩) main_arg0) (TRef.of (T := ⟨S16x49152x1, .i32⟩) main_call0_v4) (TRef.of (T := ⟨S16x49152x64, .f32⟩) main_call0_v12) (fun x i => Host.gather gather_S16x2048x64_S16x49152x1_S16x49152x64_2_1_0_0_1_2_1164 x i),
    TRef.unary (TRef.of (T := ⟨S16x49152, .i1⟩) main_call0_v11) (TRef.of (T := ⟨S16x49152x64, .i1⟩) main_call0_v13) (broadcastInDim S16x49152x64 ![0, 1] bcast_S16x49152_S16x49152x64_0_1),
    TRef.nullary (TRef.of (T := ⟨S_, .f32⟩) main_call0_cst) (constant S_ .f32 0x7FC00000#32),
    TRef.unary (TRef.of (T := ⟨S_, .f32⟩) main_call0_cst) (TRef.of (T := ⟨S16x49152x64, .f32⟩) main_call0_v14) (broadcastInDim S16x49152x64 ![] bcast_S_S16x49152x64),
    TRef.ternary (TRef.of (T := ⟨S16x49152x64, .i1⟩) main_call0_v13) (TRef.of (T := ⟨S16x49152x64, .f32⟩) main_call0_v12) (TRef.of (T := ⟨S16x49152x64, .f32⟩) main_call0_v14) (TRef.of (T := ⟨S16x49152x64, .f32⟩) main_v2) select,
    reshape main_v2 main_v3 rfl shapeCasts_S16x49152x64_S16x24576x128 ]

/-- Operations 26–38: the L1 normalisation of `main_v3` along axis 1, the product with the weights and the bias, ending at `main_v14`. -/
abbrev opsA : List (HloOp τ sig (Elt F)) :=
  [ unary main_v3 main_v4 (Host.absf : (⟨S16x24576x128, .f32⟩ : BufTy).Contents (Elt F) → (⟨S16x24576x128, .f32⟩ : BufTy).Contents (Elt F)),
    nullary main_cst (constant S_ .f32 0x00000000#32),
    binary main_v4 main_cst main_v5 ((fun x v => Host.reduceAdd x v reducesTo_S16x24576x128_S16x128_d1 h_S_) : (⟨S16x24576x128, .f32⟩ : BufTy).Contents (Elt F) → (⟨S_, .f32⟩ : BufTy).Contents (Elt F) → (⟨S16x128, .f32⟩ : BufTy).Contents (Elt F)),
    unary main_v5 main_v6 (broadcastInDim S16x1x128 ![0, 2] bcast_S16x128_S16x1x128_0_2 : (⟨S16x128, .f32⟩ : BufTy).Contents (Elt F) → (⟨S16x1x128, .f32⟩ : BufTy).Contents (Elt F)),
    nullary main_cst_0 (constant S_ .f32 0x2B8CBCCC#32),
    unary main_cst_0 main_v7 (broadcastInDim S16x1x128 ![] bcast_S_S16x1x128 : (⟨S_, .f32⟩ : BufTy).Contents (Elt F) → (⟨S16x1x128, .f32⟩ : BufTy).Contents (Elt F)),
    binary main_v6 main_v7 main_v8 (maximumf : (⟨S16x1x128, .f32⟩ : BufTy).Contents (Elt F) → (⟨S16x1x128, .f32⟩ : BufTy).Contents (Elt F) → (⟨S16x1x128, .f32⟩ : BufTy).Contents (Elt F)),
    unary main_v8 main_v9 (broadcastInDim S16x24576x128 ![0, 1, 2] bcast_S16x1x128_S16x24576x128_0_1_2 : (⟨S16x1x128, .f32⟩ : BufTy).Contents (Elt F) → (⟨S16x24576x128, .f32⟩ : BufTy).Contents (Elt F)),
    binary main_v3 main_v9 main_v10 (Host.divf : (⟨S16x24576x128, .f32⟩ : BufTy).Contents (Elt F) → (⟨S16x24576x128, .f32⟩ : BufTy).Contents (Elt F) → (⟨S16x24576x128, .f32⟩ : BufTy).Contents (Elt F)),
    binary main_v10 main_arg2 main_v11 ((fun l r => Host.dotGeneral dot_S16x24576x128_S128x128_S16x24576x128_2_0_01_1_n_n none l r) : (⟨S16x24576x128, .f32⟩ : BufTy).Contents (Elt F) → (⟨S128x128, .f32⟩ : BufTy).Contents (Elt F) → (⟨S16x24576x128, .f32⟩ : BufTy).Contents (Elt F)),
    unary main_arg3 main_v12 (broadcastInDim S1x1x128 ![2] bcast_S128_S1x1x128_2 : (⟨S128, .f32⟩ : BufTy).Contents (Elt F) → (⟨S1x1x128, .f32⟩ : BufTy).Contents (Elt F)),
    unary main_v12 main_v13 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v11 main_v13 main_v14 (addf : (⟨S16x24576x128, .f32⟩ : BufTy).Contents (Elt F) → (⟨S16x24576x128, .f32⟩ : BufTy).Contents (Elt F) → (⟨S16x24576x128, .f32⟩ : BufTy).Contents (Elt F)) ]

/-- Operations 39–52: the mean `main_v17` and the variance `main_v24` of `main_v14` over axes 0 and 1. -/
abbrev opsB : List (HloOp τ sig (Elt F)) :=
  [ nullary main_cst_1 (constant S_ .f32 0x00000000#32),
    binary main_v14 main_cst_1 main_v15 ((fun x v => Host.reduceAdd x v reducesTo_S16x24576x128_S128_d0_1 h_S_) : (⟨S16x24576x128, .f32⟩ : BufTy).Contents (Elt F) → (⟨S_, .f32⟩ : BufTy).Contents (Elt F) → (⟨S128, .f32⟩ : BufTy).Contents (Elt F)),
    nullary main_cst_2 (constant S_ .f32 0x48C00000#32),
    unary main_cst_2 main_v16 (broadcastInDim S128 ![] bcast_S_S128 : (⟨S_, .f32⟩ : BufTy).Contents (Elt F) → (⟨S128, .f32⟩ : BufTy).Contents (Elt F)),
    binary main_v15 main_v16 main_v17 (Host.divf : (⟨S128, .f32⟩ : BufTy).Contents (Elt F) → (⟨S128, .f32⟩ : BufTy).Contents (Elt F) → (⟨S128, .f32⟩ : BufTy).Contents (Elt F)),
    unary main_v17 main_v18 (broadcastInDim S1x1x128 ![2] bcast_S128_S1x1x128_2 : (⟨S128, .f32⟩ : BufTy).Contents (Elt F) → (⟨S1x1x128, .f32⟩ : BufTy).Contents (Elt F)),
    unary main_v18 main_v19 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v14 main_v19 main_v20 (subf : (⟨S16x24576x128, .f32⟩ : BufTy).Contents (Elt F) → (⟨S16x24576x128, .f32⟩ : BufTy).Contents (Elt F) → (⟨S16x24576x128, .f32⟩ : BufTy).Contents (Elt F)),
    binary main_v20 main_v20 main_v21 (mulf : (⟨S16x24576x128, .f32⟩ : BufTy).Contents (Elt F) → (⟨S16x24576x128, .f32⟩ : BufTy).Contents (Elt F) → (⟨S16x24576x128, .f32⟩ : BufTy).Contents (Elt F)),
    nullary main_cst_3 (constant S_ .f32 0x00000000#32),
    binary main_v21 main_cst_3 main_v22 ((fun x v => Host.reduceAdd x v reducesTo_S16x24576x128_S128_d0_1 h_S_) : (⟨S16x24576x128, .f32⟩ : BufTy).Contents (Elt F) → (⟨S_, .f32⟩ : BufTy).Contents (Elt F) → (⟨S128, .f32⟩ : BufTy).Contents (Elt F)),
    nullary main_cst_4 (constant S_ .f32 0x48C00000#32),
    unary main_cst_4 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)) ]

/-- Operations 53–69: centring, scaling by the inverse square root, the affine map and `tanh`, ending at `main_v40`. -/
abbrev opsC : List (HloOp τ sig (Elt F)) :=
  [ unary main_v17 main_v25 (broadcastInDim S1x1x128 ![2] bcast_S128_S1x1x128_2 : (⟨S128, .f32⟩ : BufTy).Contents (Elt F) → (⟨S1x1x128, .f32⟩ : BufTy).Contents (Elt F)),
    unary main_v25 main_v26 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v14 main_v26 main_v27 (subf : (⟨S16x24576x128, .f32⟩ : BufTy).Contents (Elt F) → (⟨S16x24576x128, .f32⟩ : BufTy).Contents (Elt F) → (⟨S16x24576x128, .f32⟩ : BufTy).Contents (Elt F)),
    nullary main_cst_5 (constant S_ .f32 0x3727C5AC#32),
    unary main_cst_5 main_v28 (broadcastInDim S128 ![] bcast_S_S128 : (⟨S_, .f32⟩ : BufTy).Contents (Elt F) → (⟨S128, .f32⟩ : BufTy).Contents (Elt F)),
    binary main_v24 main_v28 main_v29 (addf : (⟨S128, .f32⟩ : BufTy).Contents (Elt F) → (⟨S128, .f32⟩ : BufTy).Contents (Elt F) → (⟨S128, .f32⟩ : BufTy).Contents (Elt F)),
    unary main_v29 main_v30 (Host.rsqrt : (⟨S128, .f32⟩ : BufTy).Contents (Elt F) → (⟨S128, .f32⟩ : BufTy).Contents (Elt F)),
    unary main_v30 main_v31 (broadcastInDim S1x1x128 ![2] bcast_S128_S1x1x128_2 : (⟨S128, .f32⟩ : BufTy).Contents (Elt F) → (⟨S1x1x128, .f32⟩ : BufTy).Contents (Elt F)),
    unary main_v31 main_v32 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v27 main_v32 main_v33 (mulf : (⟨S16x24576x128, .f32⟩ : BufTy).Contents (Elt F) → (⟨S16x24576x128, .f32⟩ : BufTy).Contents (Elt F) → (⟨S16x24576x128, .f32⟩ : BufTy).Contents (Elt F)),
    unary main_arg4 main_v34 (broadcastInDim S1x1x128 ![2] bcast_S128_S1x1x128_2 : (⟨S128, .f32⟩ : BufTy).Contents (Elt F) → (⟨S1x1x128, .f32⟩ : BufTy).Contents (Elt F)),
    unary main_v34 main_v35 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v33 main_v35 main_v36 (mulf : (⟨S16x24576x128, .f32⟩ : BufTy).Contents (Elt F) → (⟨S16x24576x128, .f32⟩ : BufTy).Contents (Elt F) → (⟨S16x24576x128, .f32⟩ : BufTy).Contents (Elt F)),
    unary main_arg5 main_v37 (broadcastInDim S1x1x128 ![2] bcast_S128_S1x1x128_2 : (⟨S128, .f32⟩ : BufTy).Contents (Elt F) → (⟨S1x1x128, .f32⟩ : BufTy).Contents (Elt F)),
    unary main_v37 main_v38 (broadcastInDim S16x24576x128 ![0, 1, 2] bcast_S1x1x128_S16x24576x128_0_1_2 : (⟨S1x1x128, .f32⟩ : BufTy).Contents (Elt F) → (⟨S16x24576x128, .f32⟩ : BufTy).Contents (Elt F)),
    binary main_v36 main_v38 main_v39 (addf : (⟨S16x24576x128, .f32⟩ : BufTy).Contents (Elt F) → (⟨S16x24576x128, .f32⟩ : BufTy).Contents (Elt F) → (⟨S16x24576x128, .f32⟩ : BufTy).Contents (Elt F)),
    unary main_v39 main_v40 (Host.tanh : (⟨S16x24576x128, .f32⟩ : BufTy).Contents (Elt F) → (⟨S16x24576x128, .f32⟩ : BufTy).Contents (Elt F)) ]

set_option maxRecDepth 8192 in
theorem ops_cut : (ops : List (HloOp τ sig (Elt F))) = opsG ++ (opsA ++ (opsB ++ opsC)) := rfl

set_option maxRecDepth 8192 in
set_option maxHeartbeats 4000000 in
theorem opsG_main_v3 (W : Valuation τ sig (Elt F)) :
    after (opsG (F := F)) W (Proc.devRef .tc main_v3) = val_main_v3 (F := F) (W (Proc.devRef .tc main_arg0)) (W (Proc.devRef .tc main_arg1)) := by
  after_results_simp
  -- the inlined function's operations move contents between a buffer's type and its value's type along an equation
  -- between the two: there and back is the identity, and a single move along an equation of a type with itself is too
  simp only [Cert.Lib.TypedRef.ofBuf_toBuf]
  simp only [TRef.ofBuf, TRef.toBuf, cast_eq]
  rfl

theorem opsG_main_arg2 (W : Valuation τ sig (Elt F)) : after (opsG (F := F)) W (Proc.devRef .tc main_arg2) = W (Proc.devRef .tc main_arg2) := by
  after_results_simp

theorem opsG_main_arg3 (W : Valuation τ sig (Elt F)) : after (opsG (F := F)) W (Proc.devRef .tc main_arg3) = W (Proc.devRef .tc main_arg3) := by
  after_results_simp

theorem opsG_main_arg4 (W : Valuation τ sig (Elt F)) : after (opsG (F := F)) W (Proc.devRef .tc main_arg4) = W (Proc.devRef .tc main_arg4) := by
  after_results_simp

theorem opsG_main_arg5 (W : Valuation τ sig (Elt F)) : after (opsG (F := F)) W (Proc.devRef .tc main_arg5) = W (Proc.devRef .tc main_arg5) := by
  after_results_simp

set_option maxRecDepth 8192 in
theorem opsA_main_v14 (W : Valuation τ sig (Elt F)) (x0 : (⟨S16x2048x64, .f32⟩ : BufTy).Contents (Elt F)) (x1 : (⟨S16x24576x2, .i32⟩ : BufTy).Contents (Elt F))
    (h3 : W (Proc.devRef .tc main_v3) = val_main_v3 (F := F) x0 x1) :
    after (opsA (F := F)) W (Proc.devRef .tc main_v14) = val_main_v14 (F := F) x0 x1 (W (Proc.devRef .tc main_arg2)) (W (Proc.devRef .tc main_arg3)) := by
  after_results_simp
  rw [h3]; rfl

theorem opsA_main_arg4 (W : Valuation τ sig (Elt F)) : after (opsA (F := F)) W (Proc.devRef .tc main_arg4) = W (Proc.devRef .tc main_arg4) := by
  after_results_simp

theorem opsA_main_arg5 (W : Valuation τ sig (Elt F)) : after (opsA (F := F)) W (Proc.devRef .tc main_arg5) = W (Proc.devRef .tc main_arg5) := by
  after_results_simp

set_option maxRecDepth 8192 in
theorem opsB_main_v17 (W : Valuation τ sig (Elt F)) (x0 : (⟨S16x2048x64, .f32⟩ : BufTy).Contents (Elt F)) (x1 : (⟨S16x24576x2, .i32⟩ : BufTy).Contents (Elt F)) (x2 : (⟨S128x128, .f32⟩ : BufTy).Contents (Elt F)) (x3 : (⟨S128, .f32⟩ : BufTy).Contents (Elt F))
    (h14 : W (Proc.devRef .tc main_v14) = val_main_v14 (F := F) x0 x1 x2 x3) :
    after (opsB (F := F)) W (Proc.devRef .tc main_v17) = val_main_v17 (F := F) x0 x1 x2 x3 := by
  after_results_simp
  rw [h14]; rfl

set_option maxRecDepth 8192 in
theorem opsB_main_v24 (W : Valuation τ sig (Elt F)) (x0 : (⟨S16x2048x64, .f32⟩ : BufTy).Contents (Elt F)) (x1 : (⟨S16x24576x2, .i32⟩ : BufTy).Contents (Elt F)) (x2 : (⟨S128x128, .f32⟩ : BufTy).Contents (Elt F)) (x3 : (⟨S128, .f32⟩ : BufTy).Contents (Elt F))
    (h14 : W (Proc.devRef .tc main_v14) = val_main_v14 (F := F) x0 x1 x2 x3) :
    after (opsB (F := F)) W (Proc.devRef .tc main_v24) = val_main_v24 (F := F) x0 x1 x2 x3 := by
  after_results_simp
  rw [h14]; rfl

theorem opsB_main_v14 (W : Valuation τ sig (Elt F)) : after (opsB (F := F)) W (Proc.devRef .tc main_v14) = W (Proc.devRef .tc main_v14) := by
  after_results_simp

theorem opsB_main_arg4 (W : Valuation τ sig (Elt F)) : after (opsB (F := F)) W (Proc.devRef .tc main_arg4) = W (Proc.devRef .tc main_arg4) := by
  after_results_simp

theorem opsB_main_arg5 (W : Valuation τ sig (Elt F)) : after (opsB (F := F)) W (Proc.devRef .tc main_arg5) = W (Proc.devRef .tc main_arg5) := by
  after_results_simp

set_option maxRecDepth 8192 in
theorem opsC_main_v40 (W : Valuation τ sig (Elt F)) (x0 : (⟨S16x2048x64, .f32⟩ : BufTy).Contents (Elt F)) (x1 : (⟨S16x24576x2, .i32⟩ : BufTy).Contents (Elt F)) (x2 : (⟨S128x128, .f32⟩ : BufTy).Contents (Elt F)) (x3 : (⟨S128, .f32⟩ : BufTy).Contents (Elt F))
    (h14 : W (Proc.devRef .tc main_v14) = val_main_v14 (F := F) x0 x1 x2 x3)
    (h17 : W (Proc.devRef .tc main_v17) = val_main_v17 (F := F) x0 x1 x2 x3)
    (h24 : W (Proc.devRef .tc main_v24) = val_main_v24 (F := F) x0 x1 x2 x3) :
    after (opsC (F := F)) W (Proc.devRef .tc main_v40) = val_main_v40 (F := F) x0 x1 x2 x3 (W (Proc.devRef .tc main_arg4)) (W (Proc.devRef .tc main_arg5)) := by
  after_results_simp
  rw [h14, h17, h24]; rfl

/-- What the whole line leaves in `main_v40`, from any contents `V`: the last stage of the reading at `V`'s six arguments. -/
theorem after_ops_main_v40 (V : Valuation τ sig (Elt F)) :
    after (ops (F := F)) V (Proc.devRef .tc main_v40) = val_main_v40 (F := F) (V (Proc.devRef .tc main_arg0)) (V (Proc.devRef .tc main_arg1)) (V (Proc.devRef .tc main_arg2))
      (V (Proc.devRef .tc main_arg3)) (V (Proc.devRef .tc main_arg4)) (V (Proc.devRef .tc main_arg5)) := by
  rw [ops_cut, Cert.Lib.LineAppend.after_append, Cert.Lib.LineAppend.after_append, Cert.Lib.LineAppend.after_append]
  have h14 := opsA_main_v14 (after opsG V) _ _ (opsG_main_v3 V)
  rw [opsG_main_arg2, opsG_main_arg3] at h14
  have h14' := (opsB_main_v14 (after opsA (after opsG V))).trans h14
  have h := opsC_main_v40 (after opsB (after opsA (after opsG V))) _ _ _ _ h14' (opsB_main_v17 _ _ _ _ _ h14) (opsB_main_v24 _ _ _ _ _ h14)
  rw [opsB_main_arg4, opsB_main_arg5, opsA_main_arg4, opsA_main_arg5, opsG_main_arg4, opsG_main_arg5] at h
  exact h

/-- `main_v40`'s value as a function of the arguments' launch contents: the last stage of the reading. -/
abbrev res_main_v40 (m : (ℓ : Loc nD τ sig) → Buf (Elt F) ℓ) (c : Dev nD) : Buf (Elt F) ((c.tc : Thread nD τ).loc main_v40) :=
  val_main_v40 (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- `res_main_v40` by its position among the values @main returns. -/
abbrev res_out0 (m : (ℓ : Loc nD τ sig) → Buf (Elt F) ℓ) (c : Dev nD) : Buf (Elt F) ((c.tc : Thread nD τ).loc main_v40) := res_main_v40 m c

set_option maxRecDepth 8192 in
set_option maxHeartbeats 27600000 in
/-- On every device, for any float values, from any memory with zero counters: every weakly fair execution of
    @main terminates with the result at the last stage of the reading of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = res_main_v40 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v40).trans (after_ops_main_v40 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Value

end
-- ==== Proof.Ref.Value.lean ====
/-
  The reference's result, index by index.

  The first 25 operations of the reference (the reshape and broadcast of the index array, the index arithmetic of the
  inlined take-along-axis, the gather, the masking select and the reshape to [16, 24576, 128]) are kept as ONE function
  `gathered` of the two arrays they read; nothing below looks inside it.  The remaining 44 operations are read one at a time
  at an index: the L1 column sums  Σ_e |X(b,e,c)|, their floor, the quotient, the product with the weights plus the bias,
  the mean and the biased variance over the 16·24576 rows (each a sum over two axes, brought to a double sum over the two
  coordinates), the inverse square root, the affine map and tanh.  The result is the function `Cert.Spec.outR` of
  X = gathered, the weights and the three vectors.
-/
import proofs.«163788_j32392643347009_2_alg».proof.Proof.Ref.Run
import proofs.«163788_j32392643347009_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2 ix3)

/-! ## The gathered array -/

/-- The array the first 25 operations compute from the feature table `a0` [16, 2048, 64] and the index pairs `a1`
    [16, 24576, 2]: the rows of `a0` taken at the (wrapped, range-checked) indices, two rows side by side,
    as [16, 24576, 128]. -/
def gathered (a0 : (⟨S16x2048x64, .f32⟩ : BufTy).Contents (Elt Ideal)) (a1 : (⟨S16x24576x2, .i32⟩ : BufTy).Contents (Elt Ideal)) : (⟨S16x24576x128, .f32⟩ : BufTy).Contents (Elt Ideal) :=
  val_main_v3 (F := Ideal) a0 a1

set_option maxRecDepth 8192 in
/-- `gathered` written out: the composition of the 25 operations, as the operations' functions of the two arrays. -/
theorem gathered_eq (a0 : (⟨S16x2048x64, .f32⟩ : BufTy).Contents (Elt Ideal)) (a1 : (⟨S16x24576x2, .i32⟩ : BufTy).Contents (Elt Ideal)) :
    gathered a0 a1 = shapeCast _ (select (broadcastInDim S16x49152x64 ![0, 1] bcast_S16x49152_S16x49152x64_0_1 (Host.reduce IntOp.andi (andi (cmpi .sge (select (cmpi .slt (broadcastInDim S16x49152x1 ![0, 1] bcast_S16x49152_S16x49152x1_0_1 (shapeCast _ a1 shapeCasts_S16x24576x2_S16x49152)) (broadcastInDim S16x49152x1 ![] bcast_S_S16x49152x1 (constantI S_ 32 0#32))) (addi (broadcastInDim S16x49152x1 ![0, 1] bcast_S16x49152_S16x49152x1_0_1 (shapeCast _ a1 shapeCasts_S16x24576x2_S16x49152)) (broadcastInDim S16x49152x1 ![] bcast_S_S16x49152x1 (constantI S_ 32 2048#32))) (broadcastInDim S16x49152x1 ![0, 1] bcast_S16x49152_S16x49152x1_0_1 (shapeCast _ a1 shapeCasts_S16x24576x2_S16x49152))) (broadcastInDim S16x49152x1 ![] bcast_S_S16x49152x1 (constantI S_ 32 0#32))) (cmpi .sle (select (cmpi .slt (broadcastInDim S16x49152x1 ![0, 1] bcast_S16x49152_S16x49152x1_0_1 (shapeCast _ a1 shapeCasts_S16x24576x2_S16x49152)) (broadcastInDim S16x49152x1 ![] bcast_S_S16x49152x1 (constantI S_ 32 0#32))) (addi (broadcastInDim S16x49152x1 ![0, 1] bcast_S16x49152_S16x49152x1_0_1 (shapeCast _ a1 shapeCasts_S16x24576x2_S16x49152)) (broadcastInDim S16x49152x1 ![] bcast_S_S16x49152x1 (constantI S_ 32 2048#32))) (broadcastInDim S16x49152x1 ![0, 1] bcast_S16x49152_S16x49152x1_0_1 (shapeCast _ a1 shapeCasts_S16x24576x2_S16x49152))) (broadcastInDim S16x49152x1 ![0, 1, 2] bcast_S1x1x1_S16x49152x1_0_1_2 (broadcastInDim S1x1x1 ![2] bcast_S1_S1x1x1_2 (constantI S1 32 2047#32))))) (constantI S_ 1 1#1) reducesTo_S16x49152x1_S16x49152_d2 h_S_)) (Host.gather gather_S16x2048x64_S16x49152x1_S16x49152x64_2_1_0_0_1_2_1164 a0 (select (cmpi .slt (broadcastInDim S16x49152x1 ![0, 1] bcast_S16x49152_S16x49152x1_0_1 (shapeCast _ a1 shapeCasts_S16x24576x2_S16x49152)) (broadcastInDim S16x49152x1 ![] bcast_S_S16x49152x1 (constantI S_ 32 0#32))) (addi (broadcastInDim S16x49152x1 ![0, 1] bcast_S16x49152_S16x49152x1_0_1 (shapeCast _ a1 shapeCasts_S16x24576x2_S16x49152)) (broadcastInDim S16x49152x1 ![] bcast_S_S16x49152x1 (constantI S_ 32 2048#32))) (broadcastInDim S16x49152x1 ![0, 1] bcast_S16x49152_S16x49152x1_0_1 (shapeCast _ a1 shapeCasts_S16x24576x2_S16x49152)))) (broadcastInDim S16x49152x64 ![] bcast_S_S16x49152x64 (constant (F := Ideal) S_ .f32 0x7FC00000#32))) shapeCasts_S16x49152x64_S16x24576x128 := rfl

/-- `gathered` by the stages of the reading: the reshape of the masked gather. -/
theorem gathered_eq_stages (a0 : (⟨S16x2048x64, .f32⟩ : BufTy).Contents (Elt Ideal)) (a1 : (⟨S16x24576x2, .i32⟩ : BufTy).Contents (Elt Ideal)) :
    gathered a0 a1 = shapeCast _ (select (val_main_call0_v13 (F := Ideal) a1)
      (Host.gather gather_S16x2048x64_S16x49152x1_S16x49152x64_2_1_0_0_1_2_1164 a0 (val_main_call0_v4 (F := Ideal) a1))
      (val_main_call0_v14 (F := Ideal))) shapeCasts_S16x49152x64_S16x24576x128 := rfl

theorem gathered_apply (a0 : (⟨S16x2048x64, .f32⟩ : BufTy).Contents (Elt Ideal)) (a1 : (⟨S16x24576x2, .i32⟩ : BufTy).Contents (Elt Ideal)) (i : S16x24576x128.Idx) :
    val_main_v3 (F := Ideal) a0 a1 i = gathered a0 a1 i := rfl

/-! ## The arrays as functions of their coordinates -/

variable (x0 : (⟨S16x2048x64, .f32⟩ : BufTy).Contents (Elt Ideal)) (x1 : (⟨S16x24576x2, .i32⟩ : BufTy).Contents (Elt Ideal)) (x2 : (⟨S128x128, .f32⟩ : BufTy).Contents (Elt Ideal)) (x3 x4 x5 : (⟨S128, .f32⟩ : BufTy).Contents (Elt Ideal))

/-- The gathered array by its three coordinates. -/
abbrev Xg : Fin 16 → Fin 24576 → Fin 128 → EReal := fun b e ch => gathered x0 x1 (ix3 b e ch)
/-- The weights by their two coordinates. -/
abbrev Wm : Fin 128 → Fin 128 → EReal := fun i j => x2 (ix2 i j)
/-- A vector of 128 by its coordinate. -/
abbrev vec (x : (⟨S128, .f32⟩ : BufTy).Contents (Elt Ideal)) : Fin 128 → EReal := fun k => x (ix1 k)

/-! ## A sum over the first two of three axes -/

/-- The host's float sum over axes 0 and 1 of a [16, 24576, 128] array, at channel `k`: the initial value plus the
    double sum over the two reduced coordinates. -/
theorem hostReduceAdd_d0_1 (f : S16x24576x128.Idx → EReal) (init : EReal) (k : Fin 128) :
    Ideal.hostReduceAdd reducesTo_S16x24576x128_S128_d0_1 f init (ix1 k)
      = init + ∑ b : Fin 16, ∑ e : Fin 24576, f (ix3 b e k) := by
  unfold Ideal.hostReduceAdd
  refine congrArg (init + ·) ?_
  have hdrop : ∀ i : S16x24576x128.Idx, reducesTo_S16x24576x128_S128_d0_1.drop i = ix1 k ↔ i 2 = k := by
    intro i
    constructor
    · intro h
      have h0 := congrArg (fun j : S128.Idx => (j 0).val) h
      exact Fin.ext ((Shape.ReducesTo.drop_apply_val_of_eq reducesTo_S16x24576x128_S128_d0_1 i 0 2).symm.trans h0)
    · intro h
      funext a
      match a with
      | ⟨0, _⟩ => exact Fin.ext ((Shape.ReducesTo.drop_apply_val_of_eq reducesTo_S16x24576x128_S128_d0_1 i 0 2).trans (congrArg Fin.val h))
  rw [← Fintype.sum_prod_type' (f := fun b e => f (ix3 b e k))]
  refine Finset.sum_nbij' (fun i => (i 0, i 1)) (fun p => ix3 p.1 p.2 k) (fun _ _ => Finset.mem_univ _) ?_ ?_ (fun _ _ => rfl) ?_
  · intro p _
    exact Finset.mem_filter.mpr ⟨Finset.mem_univ _, (hdrop _).mpr rfl⟩
  · intro i hi
    have h2 := (hdrop i).mp (Finset.mem_filter.mp hi).2
    funext a
    match a with
    | ⟨0, _⟩ => rfl
    | ⟨1, _⟩ => rfl
    | ⟨2, _⟩ => exact h2.symm
  · intro i hi
    have h2 := (hdrop i).mp (Finset.mem_filter.mp hi).2
    refine congrArg f (funext fun a => ?_)
    match a with
    | ⟨0, _⟩ => rfl
    | ⟨1, _⟩ => rfl
    | ⟨2, _⟩ => exact h2

/-! ## The stages at an index

Each lemma reads one or two operations at an index built from its coordinates and states the value by the functions of
`Cert.Spec`.  A sum over the 24576 rows is only ever rewritten term by term; before a step that compares two spellings of
one operation the operands are replaced by variables, so that nothing is computed. -/

theorem v4_at (b : Fin 16) (e : Fin 24576) (c : Fin 128) :
    val_main_v4 (F := Ideal) x0 x1 (ix3 b e c) = max (Xg x0 x1 b e c) (-(Xg x0 x1 b e c)) := by
  rewrite [val_main_v4_apply, gathered_apply]
  dsimp only [Xg]
  generalize gathered x0 x1 (ix3 b e c) = g
  rfl

/-- The L1 column sum. -/
theorem v5_at (b : Fin 16) (c : Fin 128) :
    val_main_v5 (F := Ideal) x0 x1 (ix2 b c) = Cert.Spec.colSum (Xg x0 x1) b c := by
  rewrite [val_main_v5_apply]
  have h0 : (val_main_cst (F := Ideal)) (Shape.Idx.first h_S_) = 0 := Ideal.ofBits_zero_f32
  rewrite [h0, zero_add]
  unfold Cert.Spec.colSum
  refine Finset.sum_congr rfl fun e _ => ?_
  have hi : idx_main_v5 (ix2 b c) e = ix3 b e c := by
    funext a
    match a with
    | ⟨0, _⟩ => rfl
    | ⟨1, _⟩ => rfl
    | ⟨2, _⟩ => rfl
  rewrite [hi]
  exact v4_at x0 x1 b e c

/-- The floored denominator, broadcast along the rows. -/
theorem v9_at (b : Fin 16) (e : Fin 24576) (c : Fin 128) :
    val_main_v9 (F := Ideal) x0 x1 (ix3 b e c) = Cert.Spec.den (Xg x0 x1) b c := by
  rewrite [val_main_v9_apply, val_main_v8_apply, val_main_v6_apply, val_main_v7_apply, val_main_cst_0_apply]
  have hi : idx_main_v6 (idx_main_v9 (ix3 b e c)) = ix2 b c := by
    funext a
    match a with
    | ⟨0, _⟩ => rfl
    | ⟨1, _⟩ => rfl
  rewrite [hi, v5_at]
  unfold Cert.Spec.den Cert.Spec.epsL1
  generalize Cert.Spec.colSum (Xg x0 x1) b c = s
  rfl

/-- The normalised entry. -/
theorem v10_at (b : Fin 16) (e : Fin 24576) (c : Fin 128) :
    val_main_v10 (F := Ideal) x0 x1 (ix3 b e c) = Cert.Spec.xn (Xg x0 x1) b e c := by
  rewrite [val_main_v10_apply, v9_at, gathered_apply]
  unfold Cert.Spec.xn
  generalize Cert.Spec.den (Xg x0 x1) b c = d
  dsimp only [Xg]
  generalize gathered x0 x1 (ix3 b e c) = g
  rfl

/-- The linear layer with its bias. -/
theorem v14_at (b : Fin 16) (e : Fin 24576) (k : Fin 128) :
    val_main_v14 (F := Ideal) x0 x1 x2 x3 (ix3 b e k) = Cert.Spec.yR (Xg x0 x1) (Wm x2) (vec x3) b e k := by
  rewrite [val_main_v14_apply, val_main_v11_apply, val_main_v13_apply, val_main_v12_apply]
  have hi : idx_main_v12 (idx_main_v13 (ix3 b e k)) = ix1 k := by
    funext a
    match a with
    | ⟨0, _⟩ => rfl
  rewrite [hi, Ideal.addf_def]
  unfold Cert.Spec.yR
  refine congrArg₂ (· + ·) (Finset.sum_congr rfl fun c _ => ?_) rfl
  have hl : lidx_main_v11 (ix3 b e k) c = ix3 b e c := by
    funext a
    match a with
    | ⟨0, _⟩ => rfl
    | ⟨1, _⟩ => rfl
    | ⟨2, _⟩ => rfl
  have hr : ridx_main_v11 (ix3 b e k) c = ix2 c k := by
    funext a
    match a with
    | ⟨0, _⟩ => rfl
    | ⟨1, _⟩ => rfl
  rewrite [hl, hr, v10_at]
  rfl

/-- The mean over all rows. -/
theorem v17_at (k : Fin 128) :
    val_main_v17 (F := Ideal) x0 x1 x2 x3 (ix1 k) = Cert.Spec.meanR (Xg x0 x1) (Wm x2) (vec x3) k := by
  rewrite [val_main_v17_apply, val_main_v16_apply, val_main_cst_2_apply, Ideal.hostDivf_def, Ideal.ofBits_def]
  unfold val_main_v15
  generalize hy : val_main_v14 (F := Ideal) x0 x1 x2 x3 = y
  simp only [Host.reduceAdd, Ideal.hostReduceAdd_def]
  rewrite [hostReduceAdd_d0_1]
  have h0 : (val_main_cst_1 (F := Ideal)) (Shape.Idx.first h_S_) = 0 := Ideal.ofBits_zero_f32
  rewrite [h0, zero_add]
  unfold Cert.Spec.meanR Cert.Spec.cnt
  refine congrArg₂ Ideal.div (Finset.sum_congr rfl fun b _ => Finset.sum_congr rfl fun e _ => ?_) rfl
  rewrite [← hy]
  exact v14_at x0 x1 x2 x3 b e k

/-- The centred entry (the two broadcasts of the mean read the same value). -/
theorem v20_at (b : Fin 16) (e : Fin 24576) (k : Fin 128) :
    val_main_v20 (F := Ideal) x0 x1 x2 x3 (ix3 b e k)
      = Cert.Spec.yR (Xg x0 x1) (Wm x2) (vec x3) b e k - Cert.Spec.meanR (Xg x0 x1) (Wm x2) (vec x3) k := by
  rewrite [val_main_v20_apply, val_main_v19_apply, val_main_v18_apply]
  have hi : idx_main_v18 (idx_main_v19 (ix3 b e k)) = ix1 k := by
    funext a
    match a with
    | ⟨0, _⟩ => rfl
  rewrite [hi, v17_at, v14_at]
  exact Ideal.subf_def _ _

theorem v27_at (b : Fin 16) (e : Fin 24576) (k : Fin 128) :
    val_main_v27 (F := Ideal) x0 x1 x2 x3 (ix3 b e k)
      = Cert.Spec.yR (Xg x0 x1) (Wm x2) (vec x3) b e k - Cert.Spec.meanR (Xg x0 x1) (Wm x2) (vec x3) k := by
  rewrite [val_main_v27_apply, val_main_v26_apply, val_main_v25_apply]
  have hi : idx_main_v25 (idx_main_v26 (ix3 b e k)) = ix1 k := by
    funext a
    match a with
    | ⟨0, _⟩ => rfl
  rewrite [hi, v17_at, v14_at]
  exact Ideal.subf_def _ _

/-- The biased variance over all rows. -/
theorem v24_at (k : Fin 128) :
    val_main_v24 (F := Ideal) x0 x1 x2 x3 (ix1 k) = Cert.Spec.varR (Xg x0 x1) (Wm x2) (vec x3) k := by
  rewrite [val_main_v24_apply, val_main_v23_apply, val_main_cst_4_apply, Ideal.hostDivf_def, Ideal.ofBits_def]
  unfold val_main_v22
  generalize hy : val_main_v21 (F := Ideal) x0 x1 x2 x3 = y
  simp only [Host.reduceAdd, Ideal.hostReduceAdd_def]
  rewrite [hostReduceAdd_d0_1]
  have h0 : (val_main_cst_3 (F := Ideal)) (Shape.Idx.first h_S_) = 0 := Ideal.ofBits_zero_f32
  rewrite [h0, zero_add]
  unfold Cert.Spec.varR Cert.Spec.cnt
  refine congrArg₂ Ideal.div (Finset.sum_congr rfl fun b _ => Finset.sum_congr rfl fun e _ => ?_) rfl
  rewrite [← hy, val_main_v21_apply, v20_at]
  exact Ideal.mulf_def _ _

/-- The result at an index. -/
theorem value_at (b : Fin 16) (e : Fin 24576) (k : Fin 128) :
    val_main_v40 (F := Ideal) x0 x1 x2 x3 x4 x5 (ix3 b e k)
      = Cert.Spec.outR (Xg x0 x1) (Wm x2) (vec x3) (vec x4) (vec x5) b e k := by
  rewrite [val_main_v40_apply, val_main_v39_apply, val_main_v36_apply, val_main_v33_apply, v27_at,
    val_main_v32_apply, val_main_v31_apply, val_main_v30_apply, val_main_v29_apply, val_main_v28_apply, val_main_cst_5_apply,
    val_main_v35_apply, val_main_v34_apply, val_main_v38_apply, val_main_v37_apply]
  have h1 : idx_main_v31 (idx_main_v32 (ix3 b e k)) = ix1 k := by
    funext a
    match a with
    | ⟨0, _⟩ => rfl
  have h2 : idx_main_v34 (idx_main_v35 (ix3 b e k)) = ix1 k := by
    funext a
    match a with
    | ⟨0, _⟩ => rfl
  have h3 : idx_main_v37 (idx_main_v38 (ix3 b e k)) = ix1 k := by
    funext a
    match a with
    | ⟨0, _⟩ => rfl
  rewrite [h1, h2, h3, v24_at]
  unfold Cert.Spec.outR Cert.Spec.epsBN
  generalize Cert.Spec.yR (Xg x0 x1) (Wm x2) (vec x3) b e k = y
  generalize Cert.Spec.meanR (Xg x0 x1) (Wm x2) (vec x3) k = mu
  generalize Cert.Spec.varR (Xg x0 x1) (Wm x2) (vec x3) k = va
  rfl

/-- The reference's result buffer, read at an index: `Cert.Spec.outR` of the gathered array, the weights, the bias and
    the two batch-norm vectors. -/
theorem ref_value (m : (ℓ : Loc nD τ sig) → Buf (Elt Ideal) ℓ) (c : Dev nD) (b : Fin 16) (e : Fin 24576) (k : Fin 128) :
    (Cert.ReferenceIdeal.Value.res_main_v40 (F := Ideal) m c : S16x24576x128.Idx → EReal) (ix3 b e k)
      = Cert.Spec.outR
          (fun b e ch => gathered (m ((c.tc : Thread nD τ).loc main_arg0)) (m ((c.tc : Thread nD τ).loc main_arg1)) (ix3 b e ch))
          (fun i j => (m ((c.tc : Thread nD τ).loc main_arg2) : S128x128.Idx → EReal) (ix2 i j))
          (fun k => (m ((c.tc : Thread nD τ).loc main_arg3) : S128.Idx → EReal) (ix1 k))
          (fun k => (m ((c.tc : Thread nD τ).loc main_arg4) : S128.Idx → EReal) (ix1 k))
          (fun k => (m ((c.tc : Thread nD τ).loc main_arg5) : S128.Idx → EReal) (ix1 k)) b e k :=
  value_at _ _ _ _ _ _ b e k

end Cert.ReferenceIdeal.RefValue

end
-- ==== Proof.Bridge.lean ====
/-
  The edge-pair features are one array for both programs: the kernel's program and the reference apply the same
  operations, in the same order, to the same two arguments.  The two terms name those operations' shapes and
  dimension records in their own namespaces; the shapes are the same literal shapes, the gather's dimension record
  has the same fields, and the side conditions are propositions.
-/
import proofs.«163788_j32392643347009_2_alg».proof.Proof.KI.Gather
import proofs.«163788_j32392643347009_2_alg».proof.Proof.Ref.Value

set_option maxRecDepth 8192

noncomputable section

namespace Cert.Bridge

open Idealize.ShloMosaic

/-- The gather's dimension numbers are the same record in the two programs. -/
theorem gather_dims_eq : Cert.KernelIdeal.gather_S16x2048x64_S16x49152x1_S16x49152x64_2_1_0_0_1_2_1164
    = Cert.ReferenceIdeal.gather_S16x2048x64_S16x49152x1_S16x49152x64_2_1_0_0_1_2_1164 := rfl

/-- The gathered and regrouped features of the kernel's program are the reference's: the same composition of the
    same operations of the two arguments. -/
theorem gathered_bridge (a0 : (⟨Cert.KernelIdeal.S16x2048x64, .f32⟩ : BufTy).Contents (Elt Ideal)) (a1 : (⟨Cert.KernelIdeal.S16x24576x2, .i32⟩ : BufTy).Contents (Elt Ideal)) :
    Cert.KernelIdeal.Glue.gatheredK a0 a1 = Cert.ReferenceIdeal.RefValue.gathered a0 a1 := by
  rw [Cert.ReferenceIdeal.RefValue.gathered_eq]
  rfl

end Cert.Bridge

end
-- ==== Proof.LibBatchNorm.lean ====
/-
  Batch normalisation from raw moments, over the reals (Mathlib only; general in the finite index type).

  For a family ζ over a finite type of n members with mean m = Σζ/n: the mean of the shifted family ζ + b is m + b
  (mean_shift); the centred second moment Σ(ζ - m)²/n is the raw second moment less the squared mean, Σζ²/n - m²
  (var_eq), and it is non-negative (var_nonneg), so a clamp max(·, 0) on the raw-moment form changes nothing; hence
  the normalisation written with statistics of the UNSHIFTED family and the bias added back only in the mean,
  (ζ + b)·(γ·r) + (β - (m + b)·(γ·r)) with r = 1/sqrt(max(Σζ²/n - m², 0) + ε), equals the textbook one of the shifted
  family, ((ζ + b) - mean(ζ + b))·(1/sqrt(var(ζ + b) + ε))·γ + β  (bn_eq).  Division is written as multiplication by
  1/n, the form a quotient by a real constant takes on the extended reals.
-/
import Mathlib

namespace Cert.AlgReal

open Finset

variable {ι : Type} [Fintype ι]

/-- Mean of the shifted family. -/
theorem mean_shift (ζ : ι → ℝ) (b n : ℝ) (hn : (Fintype.card ι : ℝ) = n) (hpos : 0 < n) :
    (∑ j, (ζ j + b)) * (1 / n) = (∑ j, ζ j) * (1 / n) + b := by
  rw [Finset.sum_add_distrib, Finset.sum_const, Finset.card_univ, nsmul_eq_mul, hn]
  field_simp

/-- The centred second moment is the raw second moment less the squared mean. -/
theorem var_eq (ζ : ι → ℝ) (n : ℝ) (hn : (Fintype.card ι : ℝ) = n) (hpos : 0 < n) :
    (∑ j, (ζ j - (∑ i, ζ i) * (1 / n)) * (ζ j - (∑ i, ζ i) * (1 / n))) * (1 / n)
      = (∑ j, ζ j * ζ j) * (1 / n) - ((∑ i, ζ i) * (1 / n)) * ((∑ i, ζ i) * (1 / n)) := by
  set m := (∑ i, ζ i) * (1 / n) with hm
  have h1 : ∀ j, (ζ j - m) * (ζ j - m) = ζ j * ζ j - 2 * m * ζ j + m * m := fun j => by ring
  simp only [h1]
  rw [Finset.sum_add_distrib, Finset.sum_sub_distrib, Finset.sum_const, Finset.card_univ, nsmul_eq_mul, hn,
    ← Finset.mul_sum]
  have hs : (∑ i, ζ i) = m * n := by rw [hm]; field_simp
  rw [hs]; field_simp; ring

theorem var_nonneg (ζ : ι → ℝ) (n : ℝ) (hpos : 0 < n) :
    0 ≤ (∑ j, (ζ j - (∑ i, ζ i) * (1 / n)) * (ζ j - (∑ i, ζ i) * (1 / n))) * (1 / n) := by
  apply mul_nonneg
  · exact Finset.sum_nonneg fun j _ => mul_self_nonneg _
  · positivity

/-- The two normalised values agree. -/
theorem bn_eq (ζ : ι → ℝ) (n : ℝ) (hn : (Fintype.card ι : ℝ) = n) (hpos : 0 < n) (b g bt ε : ℝ) (i : ι) :
    (ζ i + b) * (g * (Real.sqrt (max ((∑ j, ζ j * ζ j) * (1 / n) - ((∑ j, ζ j) * (1 / n)) * ((∑ j, ζ j) * (1 / n))) 0 + ε))⁻¹)
        + (bt - ((∑ j, ζ j) * (1 / n) + b) * (g * (Real.sqrt (max ((∑ j, ζ j * ζ j) * (1 / n) - ((∑ j, ζ j) * (1 / n)) * ((∑ j, ζ j) * (1 / n))) 0 + ε))⁻¹))
      = ((ζ i + b) - (∑ j, (ζ j + b)) * (1 / n))
          * (Real.sqrt ((∑ j, ((ζ j + b) - (∑ l, (ζ l + b)) * (1 / n)) * ((ζ j + b) - (∑ l, (ζ l + b)) * (1 / n))) * (1 / n) + ε))⁻¹ * g + bt := by
  have hm := mean_shift ζ b n hn hpos
  have hc : ∀ j, (ζ j + b) - (∑ l, (ζ l + b)) * (1 / n) = ζ j - (∑ l, ζ l) * (1 / n) := fun j => by rw [hm]; ring
  simp only [hc]
  rw [var_eq ζ n hn hpos]
  have hnn := var_nonneg ζ n hpos
  rw [var_eq ζ n hn hpos] at hnn
  rw [max_eq_left hnn]
  ring

end Cert.AlgReal
-- ==== Proof.LibFinite.lean ====
/-
  Finite entries: which operations keep every entry a real number.

  An extended real is finite when it is the image of a real number.  Sums, products, differences, maxima and finite sums
  of finite values are finite; the exponential of a finite value is a positive real, a finite sum of positive reals over a
  non-empty index set is a positive real, the logarithm of a positive real is finite, and a quotient of a finite value by
  a positive real is finite.  For whole arrays: an array read at computed indices (a broadcast, a gather), a pointwise
  combination, a matrix product and an accumulating scatter of arrays with finite entries all have finite entries.
  Last, the identity that needs finiteness: for finite `x`, `m`, `l`, `x - (l + m) = (x - m) - l`.
-/
import Idealize.ShloMosaic.PureOps.Ideal.Laws
import Idealize.ShloMosaic.PureOps.Contract
import Idealize.ShloMosaic.PureOps.Vector

noncomputable section

namespace Cert.Fin

open Idealize.ShloMosaic

/-- The value is a real number. -/
def IsReal (a : EReal) : Prop := ∃ r : ℝ, a = (r : EReal)

/-- The value is a positive real number. -/
def IsPos (a : EReal) : Prop := ∃ r : ℝ, 0 < r ∧ a = (r : EReal)

theorem IsPos.isReal {a : EReal} (h : IsPos a) : IsReal a := let ⟨r, _, e⟩ := h; ⟨r, e⟩

theorem isReal_of_ne {a : EReal} (ht : a ≠ ⊤) (hb : a ≠ ⊥) : IsReal a := ⟨a.toReal, (EReal.coe_toReal ht hb).symm⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem isReal_zero : IsReal 0 := ⟨0, EReal.coe_zero.symm⟩
theorem isReal_coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_cases a b with ⟨e, _⟩ | ⟨e, _⟩ <;> rw [e] <;> assumption

theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsPos.add {a b : EReal} (ha : IsPos a) (hb : IsPos b) : IsPos (a + b) := by
  obtain ⟨r, hr, rfl⟩ := ha; obtain ⟨s, hs, rfl⟩ := hb; exact ⟨r + s, add_pos hr hs, (EReal.coe_add r s).symm⟩

/-- A sum of positive reals over `Fin (n + 1)` is a positive real. -/
theorem isPos_sum_fin : ∀ (n : ℕ) (f : Fin (n + 1) → EReal), (∀ i, IsPos (f i)) → IsPos (∑ i, f i)
  | 0, f, h => by rw [Fin.sum_univ_one]; exact h 0
  | n + 1, f, h => by
    rw [Fin.sum_univ_succ]
    exact (h 0).add (isPos_sum_fin n (fun i => f i.succ) fun i => h i.succ)

theorem isPos_exp {a : EReal} (ha : IsReal a) : IsPos (Ideal.exp a) := by
  obtain ⟨r, rfl⟩ := ha; exact ⟨Real.exp r, Real.exp_pos r, rfl⟩

theorem isReal_log {a : EReal} (ha : IsPos a) : IsReal (Ideal.log a) := by
  obtain ⟨r, hr, rfl⟩ := ha
  refine ⟨Real.log r, ?_⟩
  rw [Ideal.log_coe, if_neg (not_le.mpr hr)]

theorem isReal_div {a b : EReal} (ha : IsReal a) (hb : IsPos b) : IsReal (Ideal.div a b) := by
  obtain ⟨s, hs, rfl⟩ := hb
  rw [Ideal.div_coe (ne_of_gt hs)]
  exact ha.mul (isReal_coe _)

/-- For finite `x`, `m`, `l`: `x - (l + m) = (x - m) - l`. -/
theorem sub_add_eq_sub_sub_swap {x m l : EReal} (hx : IsReal x) (hm : IsReal m) (hl : IsReal l) : x - (l + m) = (x - m) - l := by
  obtain ⟨a, rfl⟩ := hx; obtain ⟨b, rfl⟩ := hm; obtain ⟨c, rfl⟩ := hl
  rw [← EReal.coe_add, ← EReal.coe_sub, ← EReal.coe_sub, ← EReal.coe_sub]
  exact congrArg _ (by ring)

/-- The largest of finitely many finite values, folded from minus infinity over a non-empty index set, is finite. -/
theorem isReal_fold_max (n : ℕ) (f : Fin (n + 1) → EReal) (h : ∀ i, IsReal (f i)) :
    IsReal ((Finset.univ : Finset (Fin (n + 1))).fold max ⊥ f) := by
  refine isReal_of_ne (ne_of_lt ?_) (ne_of_gt ?_)
  · rw [Finset.fold_max_lt]
    exact ⟨bot_lt_top, fun i _ => lt_top_iff_ne_top.mpr (h i).ne_top⟩
  · rw [Finset.lt_fold_max]
    exact Or.inr ⟨0, Finset.mem_univ _, bot_lt_iff_ne_bot.mpr (h 0).ne_bot⟩

/-! ## Whole arrays -/

/-- Every entry of the array is a real number. -/
def AllReal {s : Shape} (v : s.Idx → EReal) : Prop := ∀ i, IsReal (v i)

variable {s t u si : Shape}

/-- An array read at computed indices. -/
theorem AllReal.comp {v : s.Idx → EReal} (h : AllReal v) (g : t.Idx → s.Idx) : AllReal fun j => v (g j) := fun j => h (g j)

theorem allReal_broadcastInDim (dims : Fin s.rank → Fin t.rank) (hb : s.BroadcastsInDim t dims) {v : s.Idx → EReal} (h : AllReal v) :
    AllReal (broadcastInDim t dims hb v) := fun j => h _

theorem allReal_gather {w : ℕ} (d : GatherDims s si t) {v : s.Idx → EReal} (h : AllReal v) (idx : IVec si w) :
    AllReal (Host.gather d v idx) := fun j => h _

theorem allReal_mulf {a b : FVec Ideal s .f32} (ha : AllReal a) (hb : AllReal b) : AllReal (mulf a b) := fun i => (ha i).mul (hb i)
theorem allReal_addf {a b : FVec Ideal s .f32} (ha : AllReal a) (hb : AllReal b) : AllReal (addf a b) := fun i => (ha i).add (hb i)
theorem allReal_maximumf {a b : FVec Ideal s .f32} (ha : AllReal a) (hb : AllReal b) : AllReal (maximumf a b) := fun i => (ha i).max (hb i)

theorem allReal_dotGeneral {sl sr so : Shape} (d : DotDims sl sr so) (prec : Option ContractPrecision)
    {x : FVec Ideal sl .f32} {w : FVec Ideal sr .f32} (hx : AllReal x) (hw : AllReal w) :
    AllReal (Host.dotGeneral (F := Ideal) d prec x w) := fun j => by
  show IsReal (FloatOps.dotGeneral d prec .single x w j)
  rw [Ideal.dotGeneral_apply]
  exact isReal_sum _ _ fun k _ => (hx _).mul (hw _)

theorem allReal_scatterAdd {w : ℕ} (d : ScatterDims s si u) {x : FVec Ideal s .f32} {upd : FVec Ideal u .f32} (idx : IVec si w)
    (hx : AllReal x) (hu : AllReal upd) : AllReal (Host.scatterAdd (F := Ideal) d x idx upd) := fun i => by
  show IsReal (Ideal.hostScatterAdd d x idx upd i)
  unfold Ideal.hostScatterAdd
  exact (hx i).add (isReal_sum _ _ fun j _ => hu j)

end Cert.Fin

end
-- ==== Proof.Algebra.lean ====
/-
  The kernel's result and the reference's are one function on the extended reals, for ANY feature array X
  (its entries may be infinite) and real W, bias, gamma, beta.

  1. The floored L1 denominator d(b,c) = max(Σ_e |X(b,e,c)|, ε₁) is positive, so x / d = x · d⁻¹ and
     1 / d = d⁻¹; multiplication of extended reals is associative, hence the kernel's term
     X(b,e,c) · (d⁻¹ · W(c,k)) is the reference's (X(b,e,c) · d⁻¹) · W(c,k): the bias-free linear layers agree
     with no finiteness needed.
  2. Every normalised entry x · d⁻¹ is a real number: if d = +∞ then d⁻¹ = 0 and the product is 0; otherwise
     |x| ≤ Σ|X| ≤ d < +∞ makes x real and d a positive real.  With W real, z is real.
  3. Over the reals the two batch normalisations agree (bn_eq): mean(z + b) = mean z + b,
     Σ(z - mean z)²/n = Σz²/n - (mean z)² ≥ 0, and the affine maps are the same.
-/
import proofs.«163788_j32392643347009_2_alg».proof.Proof.Spec
import proofs.«163788_j32392643347009_2_alg».proof.Proof.LibBatchNorm
import proofs.«163788_j32392643347009_2_alg».proof.Proof.LibFinite
import Mathlib

noncomputable section

namespace Cert.Alg

open Cert.Spec Cert.Fin Idealize.ShloMosaic

/-! ### The literals -/

theorem epsL1_eq : epsL1 = (((9223372 : ℝ) * (2 : ℝ) ^ (-63 : ℤ) : ℝ) : EReal) := by
  unfold epsL1; simp [Ideal.ofBits, Ideal.ieee, -EReal.coe_mul]
theorem epsBN_eq : epsBN = (((10995116 : ℝ) * (2 : ℝ) ^ (-40 : ℤ) : ℝ) : EReal) := by
  unfold epsBN; simp [Ideal.ofBits, Ideal.ieee, -EReal.coe_mul]
theorem cnt_eq : cnt = ((393216 : ℝ) : EReal) := by
  unfold cnt; simp [Ideal.ofBits, Ideal.ieee, -EReal.coe_mul]; norm_num
theorem oneW_eq : oneW = 1 := by
  unfold oneW; simp [Ideal.ofBits, Ideal.ieee, -EReal.coe_mul]; norm_num

theorem epsL1_pos : (0 : EReal) < epsL1 := by
  rw [epsL1_eq]; exact_mod_cast (by positivity : (0 : ℝ) < (9223372 : ℝ) * (2 : ℝ) ^ (-63 : ℤ))
theorem epsBN_pos : (0 : ℝ) < (10995116 : ℝ) * (2 : ℝ) ^ (-40 : ℤ) := by positivity

/-- A finite sum of real numbers, read in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

variable (X : Fin 16 → Fin 24576 → Fin 128 → EReal) (W : Fin 128 → Fin 128 → EReal)
  (bias gamma beta : Fin 128 → EReal)

/-! ### The denominator and the normalised entry -/

theorem abs_nonneg (x : EReal) : 0 ≤ max x (-x) := by
  rcases le_total 0 x with h | h
  · exact le_max_of_le_left h
  · refine le_max_of_le_right ?_
    have := EReal.neg_le_neg_iff.2 h
    simpa using this

theorem abs_le_colSum (b : Fin 16) (e : Fin 24576) (c : Fin 128) : max (X b e c) (-(X b e c)) ≤ colSum X b c :=
  Finset.single_le_sum (f := fun e => max (X b e c) (-(X b e c))) (fun i _ => abs_nonneg _) (Finset.mem_univ e)

theorem den_pos (b : Fin 16) (c : Fin 128) : 0 < den X b c := lt_of_lt_of_le epsL1_pos (le_max_right _ _)

theorem div_den (x : EReal) (b : Fin 16) (c : Fin 128) : Ideal.div x (den X b c) = x * (den X b c)⁻¹ := by
  unfold Ideal.div; rw [if_neg (den_pos X b c).ne']

/-- Every normalised entry is a real number, whatever X holds. -/
theorem xn_real (b : Fin 16) (e : Fin 24576) (c : Fin 128) : IsReal (xn X b e c) := by
  unfold xn; rw [div_den]
  by_cases htop : den X b c = ⊤
  · rw [htop, EReal.inv_top, mul_zero]; exact isReal_zero
  · have hpos := den_pos X b c
    have hd : IsReal (den X b c) := isReal_of_ne htop (ne_bot_of_gt hpos)
    have hx : max (X b e c) (-(X b e c)) < ⊤ :=
      lt_of_le_of_lt ((abs_le_colSum X b e c).trans (le_max_left _ _)) (lt_top_iff_ne_top.2 htop)
    have hxr : IsReal (X b e c) :=
      isReal_of_ne (fun h => by rw [h] at hx; simp at hx) (fun h => by rw [h] at hx; simp at hx)
    obtain ⟨r, hr⟩ := hd; obtain ⟨x, hxe⟩ := hxr
    rw [hr, hxe, ← EReal.coe_inv, ← EReal.coe_mul]; exact isReal_coe _

/-- The kernel's bias-free linear layer is the reference's. -/
theorem zK_eq (b : Fin 16) (e : Fin 24576) (k : Fin 128) : zK X W b e k = ∑ c : Fin 128, xn X b e c * W c k := by
  unfold zK wp invd xn
  refine Finset.sum_congr rfl fun c _ => ?_
  rw [div_den, div_den, oneW_eq, one_mul, mul_assoc]

/-! ### The batch normalisation -/

theorem rsqrt_pos {r : ℝ} (hr : 0 < r) : Ideal.rsqrt (r : EReal) = (((Real.sqrt r)⁻¹ : ℝ) : EReal) := by
  rw [Ideal.rsqrt_coe, if_neg (not_lt.2 hr.le), if_neg hr.ne']

theorem coe_max_zero (a : ℝ) : max (a : EReal) 0 = ((max a 0 : ℝ) : EReal) := by
  rw [← EReal.coe_zero]; exact (EReal.coe_strictMono.monotone.map_max).symm

/-- The two results are equal, for any X and real W, bias, gamma, beta. -/
theorem out_eq (hW : ∀ c k, IsReal (W c k)) (hb : ∀ k, IsReal (bias k)) (hg : ∀ k, IsReal (gamma k))
    (hbt : ∀ k, IsReal (beta k)) (b : Fin 16) (e : Fin 24576) (k : Fin 128) :
    outK X W bias gamma beta b e k = outR X W bias gamma beta b e k := by
  have hz : ∀ b e k, IsReal (zK X W b e k) := fun b e k => by
    rw [zK_eq]; exact isReal_sum _ _ fun c _ => (xn_real X b e c).mul (hW c k)
  choose ζ hζ using hz
  choose β0 hβ0 using hb
  choose g hg' using hg
  choose bt hbt' using hbt
  have hy : ∀ b e k, yR X W bias b e k = ((ζ b e k + β0 k : ℝ) : EReal) := fun b e k => by
    unfold yR; rw [← zK_eq, hζ, hβ0, ← EReal.coe_add]
  have hn : ((393216 : ℝ)) ≠ 0 := by norm_num
  have key := Cert.AlgReal.bn_eq (ι := Fin 16 × Fin 24576) (fun p => ζ p.1 p.2 k) 393216
    (by simp) (by norm_num) (β0 k) (g k) (bt k) ((10995116 : ℝ) * (2 : ℝ) ^ (-40 : ℤ)) (b, e)
  simp only [Fintype.sum_prod_type] at key
  -- the kernel side
  have hvK : 0 < max ((∑ b : Fin 16, ∑ e : Fin 24576, ζ b e k * ζ b e k) * (1 / 393216)
      - ((∑ b : Fin 16, ∑ e : Fin 24576, ζ b e k) * (1 / 393216)) * ((∑ b : Fin 16, ∑ e : Fin 24576, ζ b e k) * (1 / 393216))) 0
      + (10995116 : ℝ) * (2 : ℝ) ^ (-40 : ℤ) := add_pos_of_nonneg_of_pos (le_max_right _ _) epsBN_pos
  have hvR : 0 < (∑ b : Fin 16, ∑ e : Fin 24576,
      ((ζ b e k + β0 k) - (∑ b : Fin 16, ∑ e : Fin 24576, (ζ b e k + β0 k)) * (1 / 393216))
        * ((ζ b e k + β0 k) - (∑ b : Fin 16, ∑ e : Fin 24576, (ζ b e k + β0 k)) * (1 / 393216))) * (1 / 393216)
      + (10995116 : ℝ) * (2 : ℝ) ^ (-40 : ℤ) :=
    add_pos_of_nonneg_of_pos (mul_nonneg (Finset.sum_nonneg fun _ _ => Finset.sum_nonneg fun _ _ => mul_self_nonneg _) (by norm_num)) epsBN_pos
  have hK : outK X W bias gamma beta b e k = ((Real.tanh ((ζ b e k + β0 k) * (g k * (Real.sqrt (max ((∑ b : Fin 16, ∑ e : Fin 24576, ζ b e k * ζ b e k) * (1 / 393216)
      - ((∑ b : Fin 16, ∑ e : Fin 24576, ζ b e k) * (1 / 393216)) * ((∑ b : Fin 16, ∑ e : Fin 24576, ζ b e k) * (1 / 393216))) 0
      + (10995116 : ℝ) * (2 : ℝ) ^ (-40 : ℤ)))⁻¹)
      + (bt k - ((∑ b : Fin 16, ∑ e : Fin 24576, ζ b e k) * (1 / 393216) + β0 k) * (g k * (Real.sqrt (max ((∑ b : Fin 16, ∑ e : Fin 24576, ζ b e k * ζ b e k) * (1 / 393216)
      - ((∑ b : Fin 16, ∑ e : Fin 24576, ζ b e k) * (1 / 393216)) * ((∑ b : Fin 16, ∑ e : Fin 24576, ζ b e k) * (1 / 393216))) 0
      + (10995116 : ℝ) * (2 : ℝ) ^ (-40 : ℤ)))⁻¹))) : ℝ) : EReal) := by
    unfold outK shiftK scaleK varK meanZ s1 s2
    simp only [hζ, hβ0, hg', hbt', cnt_eq, epsBN_eq, Ideal.div_coe hn, ← EReal.coe_mul, coe_sum, ← EReal.coe_sub,
      coe_max_zero, ← EReal.coe_add]
    rw [rsqrt_pos hvK]
    simp only [← EReal.coe_mul, ← EReal.coe_sub, ← EReal.coe_add, Ideal.tanh_coe]
  have hR : outR X W bias gamma beta b e k = ((Real.tanh (((ζ b e k + β0 k) - (∑ b : Fin 16, ∑ e : Fin 24576, (ζ b e k + β0 k)) * (1 / 393216))
      * (Real.sqrt ((∑ b : Fin 16, ∑ e : Fin 24576,
      ((ζ b e k + β0 k) - (∑ b : Fin 16, ∑ e : Fin 24576, (ζ b e k + β0 k)) * (1 / 393216))
        * ((ζ b e k + β0 k) - (∑ b : Fin 16, ∑ e : Fin 24576, (ζ b e k + β0 k)) * (1 / 393216))) * (1 / 393216)
      + (10995116 : ℝ) * (2 : ℝ) ^ (-40 : ℤ)))⁻¹ * g k + bt k) : ℝ) : EReal) := by
    unfold outR varR meanR
    simp only [hy, hg', hbt', cnt_eq, epsBN_eq, Ideal.div_coe hn, ← EReal.coe_mul, coe_sum, ← EReal.coe_sub, ← EReal.coe_add]
    rw [rsqrt_pos hvR]
    simp only [← EReal.coe_mul, ← EReal.coe_sub, ← EReal.coe_add, Ideal.tanh_coe]
  rw [hK, hR, key]

end Cert.Alg

end
-- ==== Proof.LibFiniteConjunct.lean ====
/-
  One conjunct of a "every floating-point input is finite" precondition, read.

  Such a precondition is a conjunction of `jnp.all (|x| < +inf)`, one per array: a reduce-by-and, into a result of one
  index, of the comparison of each entry's absolute value against the word of plus infinity.  If the conjunct is `1`
  then every entry's absolute value `max a (-a)` is below plus infinity, so the entry is neither infinity: a real number.
  General in the array's shape and in the reduced axes.
-/
import proofs.«163788_j32392643347009_2_alg».proof.Proof.LibFinite
import Idealize.ShloMosaic.Lib.ReduceAll
import Idealize.ShloMosaic.Lib.ValueIdx

noncomputable section

namespace Cert.Lib.FiniteConjunct

open Idealize.ShloMosaic Cert.Fin

instance : Subsingleton (⟨0, ![]⟩ : Shape).Idx := ⟨fun a b => funext fun d => d.elim0⟩

/-- The word `0x7F800000` is plus infinity. -/
theorem wInf_eq : Ideal.ofBits .f32 0x7F800000#32 = ⊤ := by simp [Ideal.ofBits, Ideal.ieee]

/-- An extended real whose absolute value compares below plus infinity is a real number. -/
theorem isReal_of_abs_lt_inf (a : EReal)
    (h : Ideal.cmp .olt (max a (-a)) (Ideal.ofBits .f32 0x7F800000#32) = 1#1) : IsReal a := by
  rw [wInf_eq] at h
  have hlt : max a (-a) < ⊤ := by
    by_contra hc
    have : Ideal.cmp .olt (max a (-a)) ⊤ = 0#1 := by
      unfold Ideal.cmp
      simp [hc]
    rw [this] at h
    exact absurd h (by decide)
  refine isReal_of_ne (fun e => ?_) (fun e => ?_)
  · rw [e] at hlt; simp at hlt
  · rw [e] at hlt; simp at hlt

/-- One conjunct: "every entry's absolute value is below plus infinity" makes every entry real. -/
theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) : AllReal x := fun i =>
  isReal_of_abs_lt_inf (x i) (Host.reduce_andi_all _ _ hr hu ValueIdx.ix0 e i)

end Cert.Lib.FiniteConjunct

end
-- ==== Proof.Finite.lean ====
/-
  From the precondition "every float input is finite" to: every entry of the weight matrix, the bias,
  gamma and beta is a real number.  The printed predicate is the conjunction of five "all |x| < +inf"
  reductions; the last four are the ones used.
-/
import proofs.«163788_j32392643347009_2_alg».proof.Pre_finite_inputs
import proofs.«163788_j32392643347009_2_alg».proof.Proof.LibFiniteConjunct
import Idealize.ShloMosaic.Lib.Affine
import Idealize.ShloMosaic.Lib.ValueIdx

noncomputable section

namespace Cert.Finite

open Idealize.ShloMosaic Cert.Fin Cert.Pre_finite_inputs Cert.Lib.FiniteConjunct

variable [hF : Cert.Pre_finite_inputs.Facts]

/-- Under the precondition the weight matrix, the bias, gamma and beta hold real numbers only. -/
theorem real_of_pre (a0 : FVec Ideal S16x2048x64 .f32) (a1 : IVec S16x24576x2 32) (a2 : FVec Ideal S128x128 .f32)
    (a3 a4 a5 : FVec Ideal S128 .f32) (h : fn (F := Ideal) a0 a1 a2 a3 a4 a5 = fun _ => 1#1) :
    AllReal a2 ∧ AllReal a3 ∧ AllReal a4 ∧ AllReal a5 := by
  have h0 := congrFun h ValueIdx.ix0
  dsimp only [fn, fn_part1] at h0
  obtain ⟨h0123, h5⟩ := IntOp.andi_eq_one.1 h0
  obtain ⟨h012, h4⟩ := IntOp.andi_eq_one.1 h0123
  obtain ⟨h01, h3⟩ := IntOp.andi_eq_one.1 h012
  obtain ⟨_, h2⟩ := IntOp.andi_eq_one.1 h01
  exact ⟨allReal_of_all a2 _ _ _ h2, allReal_of_all a3 _ _ _ h3, allReal_of_all a4 _ _ _ h4, allReal_of_all a5 _ _ _ h5⟩

end Cert.Finite

end
-- ==== Proof.lean ====
/-
  The certificate: a graph-embedding layer (gather edge-pair features, L1-normalise each channel over the edges,
  a linear layer, batch normalisation over all batches and edges, tanh) written as three grid kernels — the L1
  column sums, the batch-norm statistics of the bias-free linear layer with the reciprocal denominators folded
  into the weights, and the final normalise-and-tanh — against the plain array program.

  Frames.  Each of the kernel's two programs (the word-level one and its reading on the extended reals) is run as
  eight segments: three stretches of host operations, then region, host stretch, region, host stretch, region.  The
  first two kernels keep an accumulator between the three tiles of a batch; their invariant carries it.  The reference
  is a line of host operations.

  Values.  On the extended reals the kernel's result is tanh((z + bias)·scale + shift) with z = X·((1/d)·W); the
  reference's is tanh((y - mean)·rsqrt(var + ε)·γ + β) with y = (X/d)·W + bias.  The denominators d are floored at a
  positive constant, so X/d = X·d⁻¹ and every normalised entry is a real number whatever the gather produced; with
  real weights the rest is the textbook identity Σ(z - mean)²/n = Σz²/n - mean² over the reals.  Finiteness of
  W, bias, γ, β comes from the precondition; nothing is assumed of the indices.
-/
import proofs.«163788_j32392643347009_2_alg».proof.Defs
import proofs.«163788_j32392643347009_2_alg».proof.Proof.Gen.Kernel
import proofs.«163788_j32392643347009_2_alg».proof.Proof.Gen.KernelIdeal
import proofs.«163788_j32392643347009_2_alg».proof.Proof.Gen.ReferenceIdeal
import proofs.«163788_j32392643347009_2_alg».proof.Proof.Gen.Pre_finite_inputs
import proofs.«163788_j32392643347009_2_alg».proof.Proof.K.Run
import proofs.«163788_j32392643347009_2_alg».proof.Proof.KI.KValue
import proofs.«163788_j32392643347009_2_alg».proof.Proof.Ref.Value
import proofs.«163788_j32392643347009_2_alg».proof.Proof.Bridge
import proofs.«163788_j32392643347009_2_alg».proof.Proof.Algebra
import proofs.«163788_j32392643347009_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m g _ => Cert.Kernel.Hand.frame (F := Bits) m g

/-- So does its reading on the extended reals. -/
theorem frame_ki : Cert.frame_KernelIdeal := fun m g _ => Cert.KernelIdeal.Hand.frame (F := Ideal) m g

/-- The reference's frame is its run with the result dropped. -/
theorem frame_ri : Cert.frame_ReferenceIdeal := fun m g _ =>
  (θ_run Cert.ReferenceIdeal.defs _ _).mono (fun _ h c => (h c).2) (Cert.ReferenceIdeal.Value.run (F := Ideal) m g)

/-- The ideal pass rewrote nothing. -/
theorem preserves : Cert.preserves_Kernel_KernelIdeal := trivial

open Cert.KernelIdeal.Hand Cert.KernelIdeal.HandVal in
/-- From memories agreeing on the arguments both programs end with the same array: the kernel's result is the
    specification's kernel formula of the arguments, the reference's the reference formula of the same arguments, and
    the two formulas agree once W, bias, gamma, beta are real. -/
theorem algebraic : Cert.algebraic_KernelIdeal_ReferenceIdeal := by
  intro m g m' g' hpre hagree
  refine ⟨fun c => W8 m g c (Proc.devRef .tc Cert.KernelIdeal.main_v37), ?_, ?_⟩
  · exact run_post m g _ fun s h c =>
      ⟨h c _ (mem_uc Cert.KernelIdeal.main_v37 (by decide)),
       (h c _ (mem_uc Cert.KernelIdeal.main_arg0 (by decide))).trans (W8_main_arg0 m g c),
       (h c _ (mem_uc Cert.KernelIdeal.main_arg1 (by decide))).trans (W8_main_arg1 m g c),
       (h c _ (mem_uc Cert.KernelIdeal.main_arg2 (by decide))).trans (W8_main_arg2 m g c),
       (h c _ (mem_uc Cert.KernelIdeal.main_arg3 (by decide))).trans (W8_main_arg3 m g c),
       (h c _ (mem_uc Cert.KernelIdeal.main_arg4 (by decide))).trans (W8_main_arg4 m g c),
       (h c _ (mem_uc Cert.KernelIdeal.main_arg5 (by decide))).trans (W8_main_arg5 m g c)⟩
  · refine (θ_run Cert.ReferenceIdeal.defs _ _).mono (fun _ h c => ⟨(h c).1.trans ?_, (h c).2⟩)
      (Cert.ReferenceIdeal.Value.run (F := Ideal) m' g')
    obtain ⟨h0, h1, h2, h3, h4, h5⟩ := hagree c
    obtain ⟨rW, rb, rg, rbt⟩ := Cert.Finite.real_of_pre _ _ _ _ _ _ (hpre c)
    funext i
    obtain ⟨b, e, k, rfl⟩ : ∃ (b : Fin 16) (e : Fin 24576) (k : Fin 128), i = ix3 b e k := ⟨i 0, i 1, i 2, eq_ix3 i⟩
    refine (Cert.ReferenceIdeal.RefValue.ref_value m' c b e k).trans ?_
    refine Eq.trans ?_ (kernel_value m g c b e k).symm
    rw [h0, h1, h2, h3, h4, h5]
    have hX : (fun (b : Fin 16) (e : Fin 24576) (ch : Fin 128) =>
        Cert.ReferenceIdeal.RefValue.gathered (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (ix3 b e ch)) = XK m c :=
      funext fun b => funext fun e => funext fun ch => by
        unfold XK; rw [Cert.Bridge.gathered_bridge]
    rw [hX]
    exact (Cert.Alg.out_eq (XK m c) (WK m c) (biasK m c) (gammaK m c) (betaK m c)
      (fun i j => rW (ix2 i j)) (fun k => rb (ix1 k)) (fun k => rg (ix1 k)) (fun k => rbt (ix1 k)) b e k).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
